-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S3x64 .f32) (main_arg10 : FVec F S64x1 .f32) (main_arg11 : FVec F S1 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64x1 .f32 := Host.absf main_arg10
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S3x64 .f32) (main_arg7 : FVec F S3x64x64 .f32) (main_arg8 : FVec F S3x64x64 .f32) (main_arg9 : FVec F S3x64 .f32) (main_arg10 : FVec F S64x1 .f32) (main_arg11 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64x64 .f32 := Host.absf main_arg8
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : FVec F S100000x64 .f32) (main_arg2 : IVec S2x3200000 32) (main_arg3 : IVec S2x3200000 32) (main_arg4 : FVec F S3x64x64 .f32) (main_arg5 : FVec F S3x64x64 .f32) (main_arg6 : FVec F S3x64 .f32) (main_arg7 : FVec F S3x64x64 .f32) (main_arg8 : FVec F S3x64x64 .f32) (main_arg9 : FVec F S3x64 .f32) (main_arg10 : FVec F S64x1 .f32) (main_arg11 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S2x3200000 : Shape := ⟨2, ![2, 3200000]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S10000x64 : Shape := ⟨2, ![10000, 64]⟩
abbrev S1x1 : Shape := ⟨2, ![1, 1]⟩

abbrev nBuf : Space → Nat
  | .hbm => 164
  | .vmem => 62
  | .smem => 0
  | _ => 0

abbrev hbmTy0_0 (i : Nat) : BufTy := match i % 128 with
  | 0 => ⟨S100000x64, .f32⟩
  | 1 => ⟨S100000x64, .f32⟩
  | 2 => ⟨S2x3200000, .i32⟩
  | 3 => ⟨S2x3200000, .i32⟩
  | 4 => ⟨S3x64x64, .f32⟩
  | 5 => ⟨S3x64x64, .f32⟩
  | 6 => ⟨S3x64, .f32⟩
  | 7 => ⟨S3x64x64, .f32⟩
  | 8 => ⟨S3x64x64, .f32⟩
  | 9 => ⟨S3x64, .f32⟩
  | 10 => ⟨S64x1, .f32⟩
  | 11 => ⟨S1, .f32⟩
  | 12 => ⟨S1x64x64, .f32⟩
  | 13 => ⟨S64x64, .f32⟩
  | 14 => ⟨S1x64x64, .f32⟩
  | 15 => ⟨S64x64, .f32⟩
  | 16 => ⟨S1x64, .f32⟩
  | 17 => ⟨S64, .f32⟩
  | 18 => ⟨S1x3200000, .i32⟩
  | 19 => ⟨S3200000, .i32⟩
  | 20 => ⟨S_, .i32⟩
  | 21 => ⟨S3200000, .i32⟩
  | 22 => ⟨S3200000, .i1⟩
  | 23 => ⟨S_, .i32⟩
  | 24 => ⟨S3200000, .i32⟩
  | 25 => ⟨S3200000, .i32⟩
  | 26 => ⟨S3200000, .i32⟩
  | 27 => ⟨S3200000x1, .i32⟩
  | 28 => ⟨S3200000x64, .f32⟩
  | 29 => ⟨S1x3200000, .i32⟩
  | 30 => ⟨S3200000, .i32⟩
  | 31 => ⟨S_, .f32⟩
  | 32 => ⟨S100000x64, .f32⟩
  | 33 => ⟨S3200000x1, .i32⟩
  | 34 => ⟨S100000x64, .f32⟩
  | 35 => ⟨S1x64, .f32⟩
  | 36 => ⟨S100000x64, .f32⟩
  | 37 => ⟨S1x64x64, .f32⟩
  | 38 => ⟨S64x64, .f32⟩
  | 39 => ⟨S1x64x64, .f32⟩
  | 40 => ⟨S64x64, .f32⟩
  | 41 => ⟨S1x64, .f32⟩
  | 42 => ⟨S64, .f32⟩
  | 43 => ⟨S1x3200000, .i32⟩
  | 44 => ⟨S3200000, .i32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000x64, .f32⟩
  | 54 => ⟨S1x3200000, .i32⟩
  | 55 => ⟨S3200000, .i32⟩
  | 56 => ⟨S_, .f32⟩
  | 57 => ⟨S100000x64, .f32⟩
  | 58 => ⟨S3200000x1, .i32⟩
  | 59 => ⟨S100000x64, .f32⟩
  | 60 => ⟨S1x64, .f32⟩
  | 61 => ⟨S100000x64, .f32⟩
  | 62 => ⟨S1x64x64, .f32⟩
  | 63 => ⟨S64x64, .f32⟩
  | 64 => ⟨S1x64x64, .f32⟩
  | 65 => ⟨S64x64, .f32⟩
  | 66 => ⟨S1x64, .f32⟩
  | 67 => ⟨S64, .f32⟩
  | 68 => ⟨S1x3200000, .i32⟩
  | 69 => ⟨S3200000, .i32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000x64, .f32⟩
  | 79 => ⟨S1x3200000, .i32⟩
  | 80 => ⟨S3200000, .i32⟩
  | 81 => ⟨S_, .f32⟩
  | 82 => ⟨S100000x64, .f32⟩
  | 83 => ⟨S3200000x1, .i32⟩
  | 84 => ⟨S100000x64, .f32⟩
  | 85 => ⟨S1x64, .f32⟩
  | 86 => ⟨S100000x64, .f32⟩
  | 87 => ⟨S1x64x64, .f32⟩
  | 88 => ⟨S64x64, .f32⟩
  | 89 => ⟨S1x64x64, .f32⟩
  | 90 => ⟨S64x64, .f32⟩
  | 91 => ⟨S1x64, .f32⟩
  | 92 => ⟨S64, .f32⟩
  | 93 => ⟨S1x3200000, .i32⟩
  | 94 => ⟨S3200000, .i32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000x64, .f32⟩
  | 104 => ⟨S1x3200000, .i32⟩
  | 105 => ⟨S3200000, .i32⟩
  | 106 => ⟨S_, .f32⟩
  | 107 => ⟨S100000x64, .f32⟩
  | 108 => ⟨S3200000x1, .i32⟩
  | 109 => ⟨S100000x64, .f32⟩
  | 110 => ⟨S1x64, .f32⟩
  | 111 => ⟨S100000x64, .f32⟩
  | 112 => ⟨S1x64x64, .f32⟩
  | 113 => ⟨S64x64, .f32⟩
  | 114 => ⟨S1x64x64, .f32⟩
  | 115 => ⟨S64x64, .f32⟩
  | 116 => ⟨S1x64, .f32⟩
  | 117 => ⟨S64, .f32⟩
  | 118 => ⟨S1x3200000, .i32⟩
  | 119 => ⟨S3200000, .i32⟩
  | 120 => ⟨S_, .i32⟩
  | 121 => ⟨S3200000, .i32⟩
  | 122 => ⟨S3200000, .i1⟩
  | 123 => ⟨S_, .i32⟩
  | 124 => ⟨S3200000, .i32⟩
  | 125 => ⟨S3200000, .i32⟩
  | 126 => ⟨S3200000, .i32⟩
  | 127 => ⟨S3200000x1, .i32⟩
  | _ => ⟨S100000x64, .f32⟩

abbrev hbmTy0_1 (i : Nat) : BufTy := match i % 128 with
  | 0 => ⟨S3200000x64, .f32⟩
  | 1 => ⟨S1x3200000, .i32⟩
  | 2 => ⟨S3200000, .i32⟩
  | 3 => ⟨S_, .f32⟩
  | 4 => ⟨S100000x64, .f32⟩
  | 5 => ⟨S3200000x1, .i32⟩
  | 6 => ⟨S100000x64, .f32⟩
  | 7 => ⟨S1x64, .f32⟩
  | 8 => ⟨S100000x64, .f32⟩
  | 9 => ⟨S1x64x64, .f32⟩
  | 10 => ⟨S64x64, .f32⟩
  | 11 => ⟨S1x64x64, .f32⟩
  | 12 => ⟨S64x64, .f32⟩
  | 13 => ⟨S1x64, .f32⟩
  | 14 => ⟨S64, .f32⟩
  | 15 => ⟨S1x3200000, .i32⟩
  | 16 => ⟨S3200000, .i32⟩
  | 17 => ⟨S_, .i32⟩
  | 18 => ⟨S3200000, .i32⟩
  | 19 => ⟨S3200000, .i1⟩
  | 20 => ⟨S_, .i32⟩
  | 21 => ⟨S3200000, .i32⟩
  | 22 => ⟨S3200000, .i32⟩
  | 23 => ⟨S3200000, .i32⟩
  | 24 => ⟨S3200000x1, .i32⟩
  | 25 => ⟨S3200000x64, .f32⟩
  | 26 => ⟨S1x3200000, .i32⟩
  | 27 => ⟨S3200000, .i32⟩
  | 28 => ⟨S_, .f32⟩
  | 29 => ⟨S100000x64, .f32⟩
  | 30 => ⟨S3200000x1, .i32⟩
  | 31 => ⟨S100000x64, .f32⟩
  | 32 => ⟨S1x64, .f32⟩
  | 33 => ⟨S100000x64, .f32⟩
  | 34 => ⟨S1x1, .f32⟩
  | 35 => ⟨S1x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S64x64, .f32⟩
  | .local _ .vmem, ⟨42, _⟩ => ⟨S1x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S64x64, .f32⟩
  | .local _ .vmem, ⟨50, _⟩ => ⟨S64x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S64x1, .f32⟩
  | .local _ .vmem, ⟨59, _⟩ => ⟨S1x1, .f32⟩
  | .local _ .vmem, ⟨60, _⟩ => ⟨S1x1, .f32⟩
  | .local _ .vmem, ⟨61, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_1 : Ref sig .tc := ⟨.hbm, 45, rfl⟩
abbrev main_v30 : Ref sig .tc := ⟨.hbm, 46, rfl⟩
abbrev main_v31 : Ref sig .tc := ⟨.hbm, 47, rfl⟩
abbrev main_c_2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_4 : Ref sig .tc := ⟨.hbm, 70, rfl⟩
abbrev main_v52 : Ref sig .tc := ⟨.hbm, 71, rfl⟩
abbrev main_v53 : Ref sig .tc := ⟨.hbm, 72, rfl⟩
abbrev main_c_5 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_c_7 : Ref sig .tc := ⟨.hbm, 95, rfl⟩
abbrev main_v74 : Ref sig .tc := ⟨.hbm, 96, rfl⟩
abbrev main_v75 : Ref sig .tc := ⟨.hbm, 97, rfl⟩
abbrev main_c_8 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_9 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_c_10 : Ref sig .tc := ⟨.hbm, 120, rfl⟩
abbrev main_v96 : Ref sig .tc := ⟨.hbm, 121, rfl⟩
abbrev main_v97 : Ref sig .tc := ⟨.hbm, 122, rfl⟩
abbrev main_c_11 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_cst_12 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_c_13 : Ref sig .tc := ⟨.hbm, 145, rfl⟩
abbrev main_v118 : Ref sig .tc := ⟨.hbm, 146, rfl⟩
abbrev main_v119 : Ref sig .tc := ⟨.hbm, 147, rfl⟩
abbrev main_c_14 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_15 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_scratch0 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v17 : BitVec 1 := Scalar.cmpi .eq arg0 c9_i32
  let v18 : BitVec 32 := Scalar.extui v17
  let c0_i32_9 : BitVec 32 := 0#32
  let v19 : BitVec 1 := Scalar.cmpi .ne v18 c0_i32_9
  v19

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S1_S1x1 : S1.ShapeCasts S1x1
  reduces_S10000x64_S64 : S10000x64.Reduces [0] S64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x1.size a ≤ S64x1.size a
  hwx6_2 : ∀ i : grid6.Coords, EltTy.bits .f32 = 32 ∨ (Rect.block (s := S64x1) S64x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_v19) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v85) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v67) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v86) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v87) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v107) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v89) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v109) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v129) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v111) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v130) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v131) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v131) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v109) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S64x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v132) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v133) S1x1.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

class Facts : Prop extends Facts₀ where

variable [Facts]
-- ==== ReferenceIdeal.lean ====
abbrev S100000x64 : Shape := ⟨2, ![100000, 64]⟩
abbrev S2x3200000 : Shape := ⟨2, ![2, 3200000]⟩
abbrev S3x64x64 : Shape := ⟨3, ![3, 64, 64]⟩
abbrev S3x64 : Shape := ⟨2, ![3, 64]⟩
abbrev S64x1 : Shape := ⟨2, ![64, 1]⟩
abbrev S1 : Shape := ⟨1, ![1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S1x1 : Shape := ⟨2, ![1, 1]⟩

abbrev nBuf : Space → Nat
  | .hbm => 196
  | .vmem => 0
  | .smem => 0
  | _ => 0

abbrev hbmTy0_0 (i : Nat) : BufTy := match i % 128 with
  | 0 => ⟨S100000x64, .f32⟩
  | 1 => ⟨S100000x64, .f32⟩
  | 2 => ⟨S2x3200000, .i32⟩
  | 3 => ⟨S2x3200000, .i32⟩
  | 4 => ⟨S3x64x64, .f32⟩
  | 5 => ⟨S3x64x64, .f32⟩
  | 6 => ⟨S3x64, .f32⟩
  | 7 => ⟨S3x64x64, .f32⟩
  | 8 => ⟨S3x64x64, .f32⟩
  | 9 => ⟨S3x64, .f32⟩
  | 10 => ⟨S64x1, .f32⟩
  | 11 => ⟨S1, .f32⟩
  | 12 => ⟨S1x64x64, .f32⟩
  | 13 => ⟨S64x64, .f32⟩
  | 14 => ⟨S1x64x64, .f32⟩
  | 15 => ⟨S64x64, .f32⟩
  | 16 => ⟨S1x64, .f32⟩
  | 17 => ⟨S64, .f32⟩
  | 18 => ⟨S1x3200000, .i32⟩
  | 19 => ⟨S3200000, .i32⟩
  | 20 => ⟨S_, .i32⟩
  | 21 => ⟨S3200000, .i32⟩
  | 22 => ⟨S3200000, .i1⟩
  | 23 => ⟨S_, .i32⟩
  | 24 => ⟨S3200000, .i32⟩
  | 25 => ⟨S3200000, .i32⟩
  | 26 => ⟨S3200000, .i32⟩
  | 27 => ⟨S3200000x1, .i32⟩
  | 28 => ⟨S3200000x64, .f32⟩
  | 29 => ⟨S1x3200000, .i32⟩
  | 30 => ⟨S3200000, .i32⟩
  | 31 => ⟨S_, .f32⟩
  | 32 => ⟨S100000x64, .f32⟩
  | 33 => ⟨S3200000x1, .i32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S100000x64, .f32⟩
  | 40 => ⟨S100000x64, .f32⟩
  | 41 => ⟨S1x64x64, .f32⟩
  | 42 => ⟨S64x64, .f32⟩
  | 43 => ⟨S1x64x64, .f32⟩
  | 44 => ⟨S64x64, .f32⟩
  | 45 => ⟨S1x64, .f32⟩
  | 46 => ⟨S64, .f32⟩
  | 47 => ⟨S1x3200000, .i32⟩
  | 48 => ⟨S3200000, .i32⟩
  | 49 => ⟨S_, .i32⟩
  | 50 => ⟨S3200000, .i32⟩
  | 51 => ⟨S3200000, .i1⟩
  | 52 => ⟨S_, .i32⟩
  | 53 => ⟨S3200000, .i32⟩
  | 54 => ⟨S3200000, .i32⟩
  | 55 => ⟨S3200000, .i32⟩
  | 56 => ⟨S3200000x1, .i32⟩
  | 57 => ⟨S3200000x64, .f32⟩
  | 58 => ⟨S1x3200000, .i32⟩
  | 59 => ⟨S3200000, .i32⟩
  | 60 => ⟨S_, .f32⟩
  | 61 => ⟨S100000x64, .f32⟩
  | 62 => ⟨S3200000x1, .i32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S100000x64, .f32⟩
  | 69 => ⟨S100000x64, .f32⟩
  | 70 => ⟨S1x64x64, .f32⟩
  | 71 => ⟨S64x64, .f32⟩
  | 72 => ⟨S1x64x64, .f32⟩
  | 73 => ⟨S64x64, .f32⟩
  | 74 => ⟨S1x64, .f32⟩
  | 75 => ⟨S64, .f32⟩
  | 76 => ⟨S1x3200000, .i32⟩
  | 77 => ⟨S3200000, .i32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000x64, .f32⟩
  | 87 => ⟨S1x3200000, .i32⟩
  | 88 => ⟨S3200000, .i32⟩
  | 89 => ⟨S_, .f32⟩
  | 90 => ⟨S100000x64, .f32⟩
  | 91 => ⟨S3200000x1, .i32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S100000x64, .f32⟩
  | 98 => ⟨S100000x64, .f32⟩
  | 99 => ⟨S1x64x64, .f32⟩
  | 100 => ⟨S64x64, .f32⟩
  | 101 => ⟨S1x64x64, .f32⟩
  | 102 => ⟨S64x64, .f32⟩
  | 103 => ⟨S1x64, .f32⟩
  | 104 => ⟨S64, .f32⟩
  | 105 => ⟨S1x3200000, .i32⟩
  | 106 => ⟨S3200000, .i32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x64, .f32⟩
  | 116 => ⟨S1x3200000, .i32⟩
  | 117 => ⟨S3200000, .i32⟩
  | 118 => ⟨S_, .f32⟩
  | 119 => ⟨S100000x64, .f32⟩
  | 120 => ⟨S3200000x1, .i32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S100000x64, .f32⟩
  | 127 => ⟨S100000x64, .f32⟩
  | _ => ⟨S100000x64, .f32⟩

abbrev hbmTy0_1 (i : Nat) : BufTy := match i % 128 with
  | 0 => ⟨S1x64x64, .f32⟩
  | 1 => ⟨S64x64, .f32⟩
  | 2 => ⟨S1x64x64, .f32⟩
  | 3 => ⟨S64x64, .f32⟩
  | 4 => ⟨S1x64, .f32⟩
  | 5 => ⟨S64, .f32⟩
  | 6 => ⟨S1x3200000, .i32⟩
  | 7 => ⟨S3200000, .i32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x64, .f32⟩
  | 17 => ⟨S1x3200000, .i32⟩
  | 18 => ⟨S3200000, .i32⟩
  | 19 => ⟨S_, .f32⟩
  | 20 => ⟨S100000x64, .f32⟩
  | 21 => ⟨S3200000x1, .i32⟩
  | 22 => ⟨S100000x64, .f32⟩
  | 23 => ⟨S100000x64, .f32⟩
  | 24 => ⟨S1x64, .f32⟩
  | 25 => ⟨S100000x64, .f32⟩
  | 26 => ⟨S100000x64, .f32⟩
  | 27 => ⟨S100000x64, .f32⟩
  | 28 => ⟨S100000x64, .f32⟩
  | 29 => ⟨S1x64x64, .f32⟩
  | 30 => ⟨S64x64, .f32⟩
  | 31 => ⟨S1x64x64, .f32⟩
  | 32 => ⟨S64x64, .f32⟩
  | 33 => ⟨S1x64, .f32⟩
  | 34 => ⟨S64, .f32⟩
  | 35 => ⟨S1x3200000, .i32⟩
  | 36 => ⟨S3200000, .i32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000x64, .f32⟩
  | 46 => ⟨S1x3200000, .i32⟩
  | 47 => ⟨S3200000, .i32⟩
  | 48 => ⟨S_, .f32⟩
  | 49 => ⟨S100000x64, .f32⟩
  | 50 => ⟨S3200000x1, .i32⟩
  | 51 => ⟨S100000x64, .f32⟩
  | 52 => ⟨S100000x64, .f32⟩
  | 53 => ⟨S1x64, .f32⟩
  | 54 => ⟨S100000x64, .f32⟩
  | 55 => ⟨S100000x64, .f32⟩
  | 56 => ⟨S100000x64, .f32⟩
  | 57 => ⟨S100000x64, .f32⟩
  | 58 => ⟨S_, .f32⟩
  | 59 => ⟨S64, .f32⟩
  | 60 => ⟨S1x64, .f32⟩
  | 61 => ⟨S_, .f32⟩
  | 62 => ⟨S64, .f32⟩
  | 63 => ⟨S1x64, .f32⟩
  | 64 => ⟨S1x64, .f32⟩
  | 65 => ⟨S1x1, .f32⟩
  | 66 => ⟨S1x1, .f32⟩
  | 67 => ⟨S1x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_1 : Ref sig .tc := ⟨.hbm, 49, rfl⟩
abbrev main_v34 : Ref sig .tc := ⟨.hbm, 50, rfl⟩
abbrev main_v35 : Ref sig .tc := ⟨.hbm, 51, rfl⟩
abbrev main_c_2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c_4 : Ref sig .tc := ⟨.hbm, 78, rfl⟩
abbrev main_v60 : Ref sig .tc := ⟨.hbm, 79, rfl⟩
abbrev main_v61 : Ref sig .tc := ⟨.hbm, 80, rfl⟩
abbrev main_c_5 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_6 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c_7 : Ref sig .tc := ⟨.hbm, 107, rfl⟩
abbrev main_v86 : Ref sig .tc := ⟨.hbm, 108, rfl⟩
abbrev main_v87 : Ref sig .tc := ⟨.hbm, 109, rfl⟩
abbrev main_c_8 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_9 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_c_10 : Ref sig .tc := ⟨.hbm, 136, rfl⟩
abbrev main_v112 : Ref sig .tc := ⟨.hbm, 137, rfl⟩
abbrev main_v113 : Ref sig .tc := ⟨.hbm, 138, rfl⟩
abbrev main_c_11 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_12 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_c_13 : Ref sig .tc := ⟨.hbm, 165, rfl⟩
abbrev main_v138 : Ref sig .tc := ⟨.hbm, 166, rfl⟩
abbrev main_v139 : Ref sig .tc := ⟨.hbm, 167, rfl⟩
abbrev main_c_14 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_cst_15 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_cst_16 : Ref sig .tc := ⟨.hbm, 186, rfl⟩
abbrev main_v156 : Ref sig .tc := ⟨.hbm, 187, rfl⟩
abbrev main_v157 : Ref sig .tc := ⟨.hbm, 188, rfl⟩
abbrev main_cst_17 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩

abbrev nD : Nat := 1
abbrev τ : Topo := Topo.v7x

variable {F : FTy → Type} [FloatOps F]

class Facts₀ : Prop where
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  reducesTo_S100000x64_S64_d0 : S100000x64.ReducesTo [0] S64
  h_S_ : 0 < S_.numel
  bcast_S1_S1x1_1 : S1.BroadcastsInDim S1x1 (![1] : Fin 1 → Fin S1x1.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S1x64_S64x1_S1x1_1_0_0_1_n_n_wf : DotDims.WF S1x64 S64x1 S1x1 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.K.Combine0.lean ====
/-
  One combine step of the network, as the pipeline runs it: region 0 streams the aggregated messages and the
  destination features through 10 row blocks of 10000 rows; at each block the body reads the two row blocks, the
  two 64×64 weight matrices and the 1×64 bias row, and stores (block of messages)·Wl + (block of features)·Wr + bias
  into the output block.  This file states what every staging buffer holds before and after the body at each block
  and proves that the body, run on those contents, leaves exactly that.
-/
import proofs.«159478_j19920058318953_1_alg».proof.Proof.Gen.Kernel.Launch
import proofs.«159478_j19920058318953_1_alg».proof.Proof.Gen.Kernel.Skeleton
import proofs.«159478_j19920058318953_1_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows 10000·t … 10000·t+9999 of a streamed array, the whole of a
    resident one, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a resident operand is
    fetched once: its block index never moves). -/
theorem before0_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) (dat.after w t) = dat.blockOf w t)
    (t : Fin cfg0.N) (d) : dat.before w t d = dat.fetched w t d :=
  dat.before_in_eq_fetched w hw hlive hclip hkeep t d

abbrev rA0 : Rect S10000x64 := Rect.unit (s := S10000x64) ![0, 0] S10000x64.size inb_S10000x64_S10000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- What the body leaves in the output block: its one store, of the combine of the five input blocks. -/
def out0_5 (x0 x1 : Vec F S10000x64 .f32) (x2 x3 : Vec F S64x64 .f32) (x4 : Vec F S1x64 .f32) : Vec F S10000x64 .f32 :=
  View.canon [⟨rA0, k0_pay1 (View.ld x0 rA0) (View.ld x1 rA0) (View.ld x2 rW0) (View.ld x3 rW0) (View.ld x4 rB0)⟩]

/-- The store is of the whole block, so it covers it. -/
theorem cover0_5 (p0 : Vec F S10000x64 .f32) (y : S10000x64.Idx) :
    ∃ pc ∈ ([⟨rA0, p0⟩] : List (View.Piece (Elt F) S10000x64 .f32)), y ∈ pc.1.set :=
  View.cover_of_tiled [⟨rA0, p0⟩] S10000x64.size (by rfl) y

set_option maxHeartbeats 1000000 in
/-- The body on whole staging buffers: the five inputs at read contents `x0 … x4`, the output at anything, runs to
    the inputs as they were and the output at `out0_5` of them. -/
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 x1 : Vec F S10000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__combine_kernel i arg1 harg1 arg2 harg2 arg3 harg3 arg4 harg4 arg5 harg5 arg6 harg6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of region 0 on core `c`: the arrays as the region finds them; after the body at block `t` each
    input's buffer still at its block and the output's at the combine of the input blocks; the invariant is the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  (before0_of (dat0 V c) 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  (before0_of (dat0 V c) 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  (before0_of (dat0 V c) 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  (before0_of (dat0 V c) 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  (before0_of (dat0 V c) 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- What the body is called with at block `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every block. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Combine1.lean ====
/-
  One combine step of the network, as the pipeline runs it: region 1 streams the aggregated messages and the
  destination features through 10 row blocks of 10000 rows; at each block the body reads the two row blocks, the
  two 64×64 weight matrices and the 1×64 bias row, and stores (block of messages)·Wl + (block of features)·Wr + bias
  into the output block.  This file states what every staging buffer holds before and after the body at each block
  and proves that the body, run on those contents, leaves exactly that.
-/
import proofs.«159478_j19920058318953_1_alg».proof.Proof.Gen.Kernel.Launch
import proofs.«159478_j19920058318953_1_alg».proof.Proof.Gen.Kernel.Skeleton
import proofs.«159478_j19920058318953_1_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows 10000·t … 10000·t+9999 of a streamed array, the whole of a
    resident one, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (a resident operand is
    fetched once: its block index never moves). -/
theorem before1_of {c : Dev nD} (dat : Dat τ (Elt F) Unit ℕ (UR sig nD τ) ℕ cfg1 c) (w : Fin cfg1.W)
    (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) (dat.after w t) = dat.blockOf w t)
    (t : Fin cfg1.N) (d) : dat.before w t d = dat.fetched w t d :=
  dat.before_in_eq_fetched w hw hlive hclip hkeep t d

abbrev rA1 : Rect S10000x64 := Rect.unit (s := S10000x64) ![0, 0] S10000x64.size inb_S10000x64_S10000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output block: its one store, of the combine of the five input blocks. -/
def out1_5 (x0 x1 : Vec F S10000x64 .f32) (x2 x3 : Vec F S64x64 .f32) (x4 : Vec F S1x64 .f32) : Vec F S10000x64 .f32 :=
  View.canon [⟨rA1, k1_pay1 (View.ld x0 rA1) (View.ld x1 rA1) (View.ld x2 rW1) (View.ld x3 rW1) (View.ld x4 rB1)⟩]

/-- The store is of the whole block, so it covers it. -/
theorem cover1_5 (p0 : Vec F S10000x64 .f32) (y : S10000x64.Idx) :
    ∃ pc ∈ ([⟨rA1, p0⟩] : List (View.Piece (Elt F) S10000x64 .f32)), y ∈ pc.1.set :=
  View.cover_of_tiled [⟨rA1, p0⟩] S10000x64.size (by rfl) y

set_option maxHeartbeats 1000000 in
/-- The body on whole staging buffers: the five inputs at read contents `x0 … x4`, the output at anything, runs to
    the inputs as they were and the output at `out1_5` of them. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 x1 : Vec F S10000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of region 1 on core `c`: the arrays as the region finds them; after the body at block `t` each
    input's buffer still at its block and the output's at the combine of the input blocks; the invariant is the
    scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  (before1_of (dat1 V c) 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  (before1_of (dat1 V c) 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  (before1_of (dat1 V c) 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  (before1_of (dat1 V c) 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  (before1_of (dat1 V c) 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- What the body is called with at block `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 1, at every block. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Combine2.lean ====
/-
  One combine step of the network, as the pipeline runs it: region 2 streams the aggregated messages and the
  destination features through 10 row blocks of 10000 rows; at each block the body reads the two row blocks, the
  two 64×64 weight matrices and the 1×64 bias row, and stores (block of messages)·Wl + (block of features)·Wr + bias
  into the output block.  This file states what every staging buffer holds before and after the body at each block
  and proves that the body, run on those contents, leaves exactly that.
-/
import proofs.«159478_j19920058318953_1_alg».proof.Proof.Gen.Kernel.Launch
import proofs.«159478_j19920058318953_1_alg».proof.Proof.Gen.Kernel.Skeleton
import proofs.«159478_j19920058318953_1_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows 10000·t … 10000·t+9999 of a streamed array, the whole of a
    resident one, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (a resident operand is
    fetched once: its block index never moves). -/
theorem before2_of {c : Dev nD} (dat : Dat τ (Elt F) Unit ℕ (UR sig nD τ) ℕ cfg2 c) (w : Fin cfg2.W)
    (hw : (cfg2.win w).isOut = false) (hlive : ∀ i, cfg2.idle w i = false)
    (hclip : ∀ t t' : Fin cfg2.N, (cfg2.win w).index t = (cfg2.win w).index t' →
      (cfg2.win w).clip (cfg2.grid.coords t) = (cfg2.win w).clip (cfg2.grid.coords t'))
    (hkeep : ∀ t, (cfg2.win w).cut (cfg2.grid.coords t) (dat.after w t) = dat.blockOf w t)
    (t : Fin cfg2.N) (d) : dat.before w t d = dat.fetched w t d :=
  dat.before_in_eq_fetched w hw hlive hclip hkeep t d

abbrev rA2 : Rect S10000x64 := Rect.unit (s := S10000x64) ![0, 0] S10000x64.size inb_S10000x64_S10000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-- What the body leaves in the output block: its one store, of the combine of the five input blocks. -/
def out2_5 (x0 x1 : Vec F S10000x64 .f32) (x2 x3 : Vec F S64x64 .f32) (x4 : Vec F S1x64 .f32) : Vec F S10000x64 .f32 :=
  View.canon [⟨rA2, k2_pay1 (View.ld x0 rA2) (View.ld x1 rA2) (View.ld x2 rW2) (View.ld x3 rW2) (View.ld x4 rB2)⟩]

/-- The store is of the whole block, so it covers it. -/
theorem cover2_5 (p0 : Vec F S10000x64 .f32) (y : S10000x64.Idx) :
    ∃ pc ∈ ([⟨rA2, p0⟩] : List (View.Piece (Elt F) S10000x64 .f32)), y ∈ pc.1.set :=
  View.cover_of_tiled [⟨rA2, p0⟩] S10000x64.size (by rfl) y

set_option maxHeartbeats 1000000 in
/-- The body on whole staging buffers: the five inputs at read contents `x0 … x4`, the output at anything, runs to
    the inputs as they were and the output at `out2_5` of them. -/
theorem sound_kernel2 (c : Dev nD) (E : Set ℕ) (i : grid2.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 x1 : Vec F S10000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__combine_kernel i arg1 harg1 arg2 harg2 arg3 harg3 arg4 harg4 arg5 harg5 arg6 harg6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of region 2 on core `c`: the arrays as the region finds them; after the body at block `t` each
    input's buffer still at its block and the output's at the combine of the input blocks; the invariant is the
    scoped buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  (before2_of (dat2 V c) 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  (before2_of (dat2 V c) 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  (before2_of (dat2 V c) 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  (before2_of (dat2 V c) 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  (before2_of (dat2 V c) 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- What the body is called with at block `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 2, at every block. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Combine3.lean ====
/-
  One combine step of the network, as the pipeline runs it: region 3 streams the aggregated messages and the
  destination features through 10 row blocks of 10000 rows; at each block the body reads the two row blocks, the
  two 64×64 weight matrices and the 1×64 bias row, and stores (block of messages)·Wl + (block of features)·Wr + bias
  into the output block.  This file states what every staging buffer holds before and after the body at each block
  and proves that the body, run on those contents, leaves exactly that.
-/
import proofs.«159478_j19920058318953_1_alg».proof.Proof.Gen.Kernel.Launch
import proofs.«159478_j19920058318953_1_alg».proof.Proof.Gen.Kernel.Skeleton
import proofs.«159478_j19920058318953_1_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows 10000·t … 10000·t+9999 of a streamed array, the whole of a
    resident one, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (a resident operand is
    fetched once: its block index never moves). -/
theorem before3_of {c : Dev nD} (dat : Dat τ (Elt F) Unit ℕ (UR sig nD τ) ℕ cfg3 c) (w : Fin cfg3.W)
    (hw : (cfg3.win w).isOut = false) (hlive : ∀ i, cfg3.idle w i = false)
    (hclip : ∀ t t' : Fin cfg3.N, (cfg3.win w).index t = (cfg3.win w).index t' →
      (cfg3.win w).clip (cfg3.grid.coords t) = (cfg3.win w).clip (cfg3.grid.coords t'))
    (hkeep : ∀ t, (cfg3.win w).cut (cfg3.grid.coords t) (dat.after w t) = dat.blockOf w t)
    (t : Fin cfg3.N) (d) : dat.before w t d = dat.fetched w t d :=
  dat.before_in_eq_fetched w hw hlive hclip hkeep t d

abbrev rA3 : Rect S10000x64 := Rect.unit (s := S10000x64) ![0, 0] S10000x64.size inb_S10000x64_S10000x64_0_0
abbrev rW3 : Rect S64x64 := Rect.unit (s := S64x64) ![0, 0] S64x64.size inb_S64x64_S64x64_0_0
abbrev rB3 : Rect S1x64 := Rect.unit (s := S1x64) ![0, 0] S1x64.size inb_S1x64_S1x64_0_0

/-- What the body leaves in the output block: its one store, of the combine of the five input blocks. -/
def out3_5 (x0 x1 : Vec F S10000x64 .f32) (x2 x3 : Vec F S64x64 .f32) (x4 : Vec F S1x64 .f32) : Vec F S10000x64 .f32 :=
  View.canon [⟨rA3, k3_pay1 (View.ld x0 rA3) (View.ld x1 rA3) (View.ld x2 rW3) (View.ld x3 rW3) (View.ld x4 rB3)⟩]

/-- The store is of the whole block, so it covers it. -/
theorem cover3_5 (p0 : Vec F S10000x64 .f32) (y : S10000x64.Idx) :
    ∃ pc ∈ ([⟨rA3, p0⟩] : List (View.Piece (Elt F) S10000x64 .f32)), y ∈ pc.1.set :=
  View.cover_of_tiled [⟨rA3, p0⟩] S10000x64.size (by rfl) y

set_option maxHeartbeats 1000000 in
/-- The body on whole staging buffers: the five inputs at read contents `x0 … x4`, the output at anything, runs to
    the inputs as they were and the output at `out3_5` of them. -/
theorem sound_kernel3 (c : Dev nD) (E : Set ℕ) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 x1 : Vec F S10000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__combine_kernel i arg1 harg1 arg2 harg2 arg3 harg3 arg4 harg4 arg5 harg5 arg6 harg6) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of region 3 on core `c`: the arrays as the region finds them; after the body at block `t` each
    input's buffer still at its block and the output's at the combine of the input blocks; the invariant is the
    scoped buffers no window stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  (before3_of (dat3 V c) 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  (before3_of (dat3 V c) 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  (before3_of (dat3 V c) 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  (before3_of (dat3 V c) 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  (before3_of (dat3 V c) 4 rfl (fun _ => rfl) (fun _ _ _ => rfl) (fun t => by rw [after3_4]; unfold Dat.blockOf iblk3; rw [A_eq3]; try rfl) t d).trans
    (by unfold Dat.fetched Dat.blockOf iblk3; rw [A_eq3]; try rfl)

/-- What the body is called with at block `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 3, at every block. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Combine4.lean ====
/-
  One combine step of the network, as the pipeline runs it: region 4 streams the aggregated messages and the
  destination features through 10 row blocks of 10000 rows; at each block the body reads the two row blocks, the
  two 64×64 weight matrices and the 1×64 bias row, and stores (block of messages)·Wl + (block of features)·Wr + bias
  into the output block.  This file states what every staging buffer holds before and after the body at each block
  and proves that the body, run on those contents, leaves exactly that.
-/
import proofs.«159478_j19920058318953_1_alg».proof.Proof.Gen.Kernel.Launch
import proofs.«159478_j19920058318953_1_alg».proof.Proof.Gen.Kernel.Skeleton
import proofs.«159478_j19920058318953_1_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows 10000·t … 10000·t+9999 of a streamed array, the whole of a
    resident one, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not (a resident operand is
    fetched once: its block index never moves). -/
theorem before4_of {c : Dev nD} (dat : Dat τ (Elt F) Unit ℕ (UR sig nD τ) ℕ cfg4 c) (w : Fin cfg4.W)
    (hw : (cfg4.win w).isOut = false) (hlive : ∀ i, cfg4.idle w i = false)
    (hclip : ∀ t t' : Fin cfg4.N, (cfg4.win w).index t = (cfg4.win w).index t' →
      (cfg4.win w).clip (cfg4.grid.coords t) = (cfg4.win w).clip (cfg4.grid.coords t'))
    (hkeep : ∀ t, (cfg4.win w).cut (cfg4.grid.coords t) (dat.after w t) = dat.blockOf w t)
    (t : Fin cfg4.N) (d) : dat.before w t d = dat.fetched w t d :=
  dat.before_in_eq_fetched w hw hlive hclip hkeep t d

abbrev rA4 : Rect S10000x64 := Rect.unit (s := S10000x64) ![0, 0] S10000x64.size inb_S10000x64_S10000x64_0_0
abbrev rW4 : Rect S64x64 := Rect.unit (s := S64x64) ![0, 0] S64x64.size inb_S64x64_S64x64_0_0
abbrev rB4 : Rect S1x64 := Rect.unit (s := S1x64) ![0, 0] S1x64.size inb_S1x64_S1x64_0_0

/-- What the body leaves in the output block: its one store, of the combine of the five input blocks. -/
def out4_5 (x0 x1 : Vec F S10000x64 .f32) (x2 x3 : Vec F S64x64 .f32) (x4 : Vec F S1x64 .f32) : Vec F S10000x64 .f32 :=
  View.canon [⟨rA4, k4_pay1 (View.ld x0 rA4) (View.ld x1 rA4) (View.ld x2 rW4) (View.ld x3 rW4) (View.ld x4 rB4)⟩]

/-- The store is of the whole block, so it covers it. -/
theorem cover4_5 (p0 : Vec F S10000x64 .f32) (y : S10000x64.Idx) :
    ∃ pc ∈ ([⟨rA4, p0⟩] : List (View.Piece (Elt F) S10000x64 .f32)), y ∈ pc.1.set :=
  View.cover_of_tiled [⟨rA4, p0⟩] S10000x64.size (by rfl) y

set_option maxHeartbeats 1000000 in
/-- The body on whole staging buffers: the five inputs at read contents `x0 … x4`, the output at anything, runs to
    the inputs as they were and the output at `out4_5` of them. -/
theorem sound_kernel4 (c : Dev nD) (E : Set ℕ) (i : grid4.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 x1 : Vec F S10000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__combine_kernel i arg1 harg1 arg2 harg2 arg3 harg3 arg4 harg4 arg5 harg5 arg6 harg6) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of region 4 on core `c`: the arrays as the region finds them; after the body at block `t` each
    input's buffer still at its block and the output's at the combine of the input blocks; the invariant is the
    scoped buffers no window stages and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  (before4_of (dat4 V c) 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  (before4_of (dat4 V c) 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  (before4_of (dat4 V c) 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  (before4_of (dat4 V c) 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  (before4_of (dat4 V c) 4 rfl (fun _ => rfl) (fun _ _ _ => rfl) (fun t => by rw [after4_4]; unfold Dat.blockOf iblk4; rw [A_eq4]; try rfl) t d).trans
    (by unfold Dat.fetched Dat.blockOf iblk4; rw [A_eq4]; try rfl)

/-- What the body is called with at block `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 4, at every block. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Combine5.lean ====
/-
  One combine step of the network, as the pipeline runs it: region 5 streams the aggregated messages and the
  destination features through 10 row blocks of 10000 rows; at each block the body reads the two row blocks, the
  two 64×64 weight matrices and the 1×64 bias row, and stores (block of messages)·Wl + (block of features)·Wr + bias
  into the output block.  This file states what every staging buffer holds before and after the body at each block
  and proves that the body, run on those contents, leaves exactly that.
-/
import proofs.«159478_j19920058318953_1_alg».proof.Proof.Gen.Kernel.Launch
import proofs.«159478_j19920058318953_1_alg».proof.Proof.Gen.Kernel.Skeleton
import proofs.«159478_j19920058318953_1_alg».proof.Proof.Gen.Kernel.Points
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows 10000·t … 10000·t+9999 of a streamed array, the whole of a
    resident one, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not (a resident operand is
    fetched once: its block index never moves). -/
theorem before5_of {c : Dev nD} (dat : Dat τ (Elt F) Unit ℕ (UR sig nD τ) ℕ cfg5 c) (w : Fin cfg5.W)
    (hw : (cfg5.win w).isOut = false) (hlive : ∀ i, cfg5.idle w i = false)
    (hclip : ∀ t t' : Fin cfg5.N, (cfg5.win w).index t = (cfg5.win w).index t' →
      (cfg5.win w).clip (cfg5.grid.coords t) = (cfg5.win w).clip (cfg5.grid.coords t'))
    (hkeep : ∀ t, (cfg5.win w).cut (cfg5.grid.coords t) (dat.after w t) = dat.blockOf w t)
    (t : Fin cfg5.N) (d) : dat.before w t d = dat.fetched w t d :=
  dat.before_in_eq_fetched w hw hlive hclip hkeep t d

abbrev rA5 : Rect S10000x64 := Rect.unit (s := S10000x64) ![0, 0] S10000x64.size inb_S10000x64_S10000x64_0_0
abbrev rW5 : Rect S64x64 := Rect.unit (s := S64x64) ![0, 0] S64x64.size inb_S64x64_S64x64_0_0
abbrev rB5 : Rect S1x64 := Rect.unit (s := S1x64) ![0, 0] S1x64.size inb_S1x64_S1x64_0_0

/-- What the body leaves in the output block: its one store, of the combine of the five input blocks. -/
def out5_5 (x0 x1 : Vec F S10000x64 .f32) (x2 x3 : Vec F S64x64 .f32) (x4 : Vec F S1x64 .f32) : Vec F S10000x64 .f32 :=
  View.canon [⟨rA5, k5_pay1 (View.ld x0 rA5) (View.ld x1 rA5) (View.ld x2 rW5) (View.ld x3 rW5) (View.ld x4 rB5)⟩]

/-- The store is of the whole block, so it covers it. -/
theorem cover5_5 (p0 : Vec F S10000x64 .f32) (y : S10000x64.Idx) :
    ∃ pc ∈ ([⟨rA5, p0⟩] : List (View.Piece (Elt F) S10000x64 .f32)), y ∈ pc.1.set :=
  View.cover_of_tiled [⟨rA5, p0⟩] S10000x64.size (by rfl) y

set_option maxHeartbeats 1000000 in
/-- The body on whole staging buffers: the five inputs at read contents `x0 … x4`, the output at anything, runs to
    the inputs as they were and the output at `out5_5` of them. -/
theorem sound_kernel5 (c : Dev nD) (E : Set ℕ) (i : grid5.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 x1 : Vec F S10000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__combine_kernel i arg1 harg1 arg2 harg2 arg3 harg3 arg4 harg4 arg5 harg5 arg6 harg6) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of region 5 on core `c`: the arrays as the region finds them; after the body at block `t` each
    input's buffer still at its block and the output's at the combine of the input blocks; the invariant is the
    scoped buffers no window stages and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  (before5_of (dat5 V c) 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  (before5_of (dat5 V c) 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  (before5_of (dat5 V c) 2 rfl (fun _ => rfl) (fun _ _ _ => rfl) (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  (before5_of (dat5 V c) 3 rfl (fun _ => rfl) (fun _ _ _ => rfl) (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  (before5_of (dat5 V c) 4 rfl (fun _ => rfl) (fun _ _ _ => rfl) (fun t => by rw [after5_4]; unfold Dat.blockOf iblk5; rw [A_eq5]; try rfl) t d).trans
    (by unfold Dat.fetched Dat.blockOf iblk5; rw [A_eq5]; try rfl)

/-- What the body is called with at block `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 5, at every block. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Pool.lean ====
/-
  The pooling step of the network, as the pipeline runs it: region 6 streams the two node-feature arrays through
  10 row blocks of 10000 rows.  A 1×64 scratch row carries the running column sums: at the first block it is set
  to zero, at every block the column sums of the two row blocks are added to it, and at the last block the body
  multiplies the finished row by the 64×1 weight column, adds the 1×1 bias and stores the 1×1 result.  This file
  states what every staging buffer and the scratch row hold before and after the body at each block, proves that
  the body, run on those contents, leaves exactly that, and says how the invariant is entered and left.
-/
import proofs.«159478_j19920058318953_1_alg».proof.Proof.Gen.Kernel.Launch
import proofs.«159478_j19920058318953_1_alg».proof.Proof.Gen.Kernel.Skeleton
import proofs.«159478_j19920058318953_1_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows 10000·t … 10000·t+9999 of a streamed array, the whole of a
    resident one, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not (a resident operand is
    fetched once: its block index never moves). -/
theorem before6_of {c : Dev nD} (dat : Dat τ (Elt F) Unit ℕ (UR sig nD τ) ℕ cfg6 c) (w : Fin cfg6.W)
    (hw : (cfg6.win w).isOut = false) (hlive : ∀ i, cfg6.idle w i = false)
    (hclip : ∀ t t' : Fin cfg6.N, (cfg6.win w).index t = (cfg6.win w).index t' →
      (cfg6.win w).clip (cfg6.grid.coords t) = (cfg6.win w).clip (cfg6.grid.coords t'))
    (hkeep : ∀ t, (cfg6.win w).cut (cfg6.grid.coords t) (dat.after w t) = dat.blockOf w t)
    (t : Fin cfg6.N) (d) : dat.before w t d = dat.fetched w t d :=
  dat.before_in_eq_fetched w hw hlive hclip hkeep t d

/-! ## The two conditionals, over the grid -/

/-- The first conditional's condition: the block is the first. -/
abbrev cond6_1 (i : grid6.Coords) : Prop := (Scalar.cmpi .ne (Scalar.extui (Scalar.cmpi .eq (BitVec.ofNat 32 (i 0).val) 0#32)) 0#32) = 1#1

/-- It holds at block 0 only. -/
theorem hcond6_1 : ∀ t : Fin cfg6.N, cond6_1 (grid6.coords t) ↔ t.val = 0 :=
  (by decide +kernel : ∀ t : Fin grid6.N, cond6_1 (grid6.coords t) ↔ t.val = 0)

/-- The second conditional's condition (the block is the last) holds at block 9 only. -/
theorem hcond6_2 : ∀ t : Fin cfg6.N, k6_cond2 (grid6.coords t) = 1#1 ↔ t.val = 9 :=
  (by decide +kernel : ∀ t : Fin grid6.N, k6_cond2 (grid6.coords t) = 1#1 ↔ t.val = 9)

/-- The output window is idle at every block but the last. -/
theorem idle6_4 : ∀ t : Fin cfg6.N, cfg6.idle 4 (cfg6.grid.coords t) = !decide (t.val = 9) :=
  (by decide +kernel : ∀ t : Fin grid6.N, idle6 4 (grid6.coords t) = !decide (t.val = 9))

/-! ## Whole-buffer loads and stores -/

/-- Both offsets of a whole-buffer access are zero. -/
theorem off6_zero : (![0, 0] : Fin 2 → ℕ) = fun _ => 0 := by
  funext a; fin_cases a <;> rfl

section Whole

variable {κ : Kind} {sp : Space} {S : Shape} {e : EltTy}

/-- A load of the whole buffer reads its contents. -/
theorem readAt_full (v : View sig κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store of the whole buffer, the last of a run, leaves its payload there whatever the earlier stores were. -/
theorem read_writes_full (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

end Whole

/-- The payloads respect equality of their arguments. -/
theorem pay2_congr6 {a a' : Vec F S1x64 .f32} {x x' y y' : Vec F S10000x64 .f32} (ha : a = a') (hx : x = x') (hy : y = y') :
    k6_pay2 a x y = k6_pay2 a' x' y' := by subst ha; subst hx; subst hy; rfl
theorem pay3_congr6 {a a' : Vec F S1x64 .f32} {w w' : Vec F S64x1 .f32} {b b' : Vec F S1x1 .f32} (ha : a = a') (hw : w = w') (hb : b = b') :
    k6_pay3 a w b = k6_pay3 a' w' b' := by subst ha; subst hw; subst hb; rfl

/-! ## The body's three runs -/

set_option maxHeartbeats 1000000 in
/-- At the FIRST block (the first conditional taken, the second not): the scratch row, whatever it held, is set to
    zero and the two blocks' column sums are added: it ends at `k6_pay2 k6_pay1 x1 x2`.  The streamed blocks are
    left as they were; the other buffers are not touched. -/
theorem sound_kernel6_first (c : Dev nD) (E : Set ℕ) (i : grid6.Coords)
    (arg1 : Memref sig .tc .vmem S10000x64 .f32) (harg1 : arg1.IsWhole) (arg2 : Memref sig .tc .vmem S10000x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x64 .f32) (harg6 : arg6.IsWhole)
    (hc1 : cond6_1 i) (hc2 : ¬k6_cond2 i = 1#1)
    (x1 x2 : Vec F S10000x64 .f32) (K : PUnit → sProp 𝕄) :
    iprop(owns (c : Thread nD τ) arg1 fullShare x1 ∗ owns (c : Thread nD τ) arg2 fullShare x2
        ∗ (∃ d, owns (c : Thread nD τ) arg6 fullShare d)
        ∗ (iprop(owns (c : Thread nD τ) arg1 fullShare x1 ∗ owns (c : Thread nD τ) arg2 fullShare x2
            ∗ owns (c : Thread nD τ) arg6 fullShare (k6_pay2 k6_pay1 x1 x2)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f1, %hf1, H1⟩, ⟨%f2, %hf2, H2⟩, ⟨%d6, %f6, -, H6⟩, Hk⟩
  subst hf1; subst hf2
  sl_exec (disch := first | exact hc1 | exact hc2)
  sl_step
  iapply Hk
  isplitl [H1]
  · iexists f1; isplitr; · ipureintro; rfl
    iexact H1
  isplitl [H2]
  · iexists f2; isplitr; · ipureintro; rfl
    iexact H2
  iexists _; isplitr
  swap; · iexact H6
  ipureintro
  sl_unfold_run_names
  exact (read_writes_full _ _ off6_zero _ _ _).trans
    (pay2_congr6 (View.readCov_unit_zero _ off6_zero _ _) (readAt_full _ _ off6_zero _) (readAt_full _ _ off6_zero _))

set_option maxHeartbeats 1000000 in
/-- At a MIDDLE block (neither conditional taken): the scratch row at `a` ends at `k6_pay2 a x1 x2`. -/
theorem sound_kernel6_mid (c : Dev nD) (E : Set ℕ) (i : grid6.Coords)
    (arg1 : Memref sig .tc .vmem S10000x64 .f32) (harg1 : arg1.IsWhole) (arg2 : Memref sig .tc .vmem S10000x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x64 .f32) (harg6 : arg6.IsWhole)
    (hc1 : ¬cond6_1 i) (hc2 : ¬k6_cond2 i = 1#1)
    (x1 x2 : Vec F S10000x64 .f32) (a : Vec F S1x64 .f32) (K : PUnit → sProp 𝕄) :
    iprop(owns (c : Thread nD τ) arg1 fullShare x1 ∗ owns (c : Thread nD τ) arg2 fullShare x2
        ∗ owns (c : Thread nD τ) arg6 fullShare a
        ∗ (iprop(owns (c : Thread nD τ) arg1 fullShare x1 ∗ owns (c : Thread nD τ) arg2 fullShare x2
            ∗ owns (c : Thread nD τ) arg6 fullShare (k6_pay2 a x1 x2)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f1, %hf1, H1⟩, ⟨%f2, %hf2, H2⟩, ⟨%f6, %hf6, H6⟩, Hk⟩
  subst hf1; subst hf2; subst hf6
  sl_exec (disch := first | exact hc1 | exact hc2)
  sl_step
  iapply Hk
  isplitl [H1]
  · iexists f1; isplitr; · ipureintro; rfl
    iexact H1
  isplitl [H2]
  · iexists f2; isplitr; · ipureintro; rfl
    iexact H2
  iexists _; isplitr
  swap; · iexact H6
  ipureintro
  sl_unfold_run_names
  exact (read_writes_full _ _ off6_zero _ _ _).trans
    (pay2_congr6 (readAt_full _ _ off6_zero _) (readAt_full _ _ off6_zero _) (readAt_full _ _ off6_zero _))

set_option maxHeartbeats 1000000 in
/-- At the LAST block (the second conditional taken): the scratch row at `a` ends at `k6_pay2 a x1 x2`, and the
    output buffer, whatever it held, at that row times the weight column plus the bias. -/
theorem sound_kernel6_last (c : Dev nD) (E : Set ℕ) (i : grid6.Coords)
    (arg1 : Memref sig .tc .vmem S10000x64 .f32) (harg1 : arg1.IsWhole) (arg2 : Memref sig .tc .vmem S10000x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x64 .f32) (harg6 : arg6.IsWhole)
    (hc1 : ¬cond6_1 i) (hc2 : k6_cond2 i = 1#1)
    (x1 x2 : Vec F S10000x64 .f32) (x3 : Vec F S64x1 .f32) (x4 : Vec F S1x1 .f32) (a : Vec F S1x64 .f32) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ owns (c : Thread nD τ) arg6 fullShare a
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (k6_pay3 (k6_pay2 a x1 x2) x3 x4)
            ∗ owns (c : Thread nD τ) arg6 fullShare (k6_pay2 a x1 x2)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    exact (read_writes_full _ _ off6_zero _ _ _).trans
      (pay3_congr6 ((View.readCov_unit_zero _ off6_zero _ _).trans
          (pay2_congr6 (readAt_full _ _ off6_zero _) (readAt_full _ _ off6_zero _) (readAt_full _ _ off6_zero _)))
        (readAt_full _ _ off6_zero _) (readAt_full _ _ off6_zero _))
  iexists _; isplitr
  swap; · iexact H6
  ipureintro
  sl_unfold_run_names
  exact (read_writes_full _ _ off6_zero _ _ _).trans
    (pay2_congr6 (readAt_full _ _ off6_zero _) (readAt_full _ _ off6_zero _) (readAt_full _ _ off6_zero _))

/-! ## The running column sums -/

/-- The scratch row after the first `n` blocks: zero before any, then at each block the row so far plus the column
    sums of the block's rows of the two node arrays. -/
def acc6 (c : Dev nD) : ℕ → Vec F S1x64 .f32
  | 0 => k6_pay1
  | n + 1 => if h : n < cfg6.N then k6_pay2 (acc6 c n) (iblk6 V c 0 ⟨n, h⟩) (iblk6 V c 1 ⟨n, h⟩) else acc6 c n

theorem acc6_zero (c : Dev nD) : acc6 V c 0 = k6_pay1 := rfl

/-- One step of the running sums, at block `t`. -/
theorem acc6_succ (c : Dev nD) (t : Fin cfg6.N) :
    acc6 V c (t.val + 1) = k6_pay2 (acc6 V c t.val) (iblk6 V c 0 t) (iblk6 V c 1 t) := by
  rw [acc6, dif_pos t.isLt]

/-! ## The invariant: the scratch row between blocks -/

/-- The scratch row's buffer, whole, as the pipeline hands it to the body. -/
abbrev scr6 : Memref sig .tc .vmem S1x64 .f32 := Memref.whole cc6_scratch0

/-- The scratch row before block `n`: anything before the first block, the running sums after it. -/
def scrAt6 (c : Dev nD) : ℕ → sProp 𝕄
  | 0 => iprop(∃ d, owns (c : Thread nD τ) scr6 fullShare d)
  | n + 1 => owns (c : Thread nD τ) scr6 fullShare (acc6 V c (n + 1))

theorem scrAt6_zero (c : Dev nD) : scrAt6 V c 0 = iprop(∃ d, owns (c : Thread nD τ) scr6 fullShare d) := rfl
theorem scrAt6_succ (c : Dev nD) (n : ℕ) : scrAt6 V c (n + 1) = owns (c : Thread nD τ) scr6 fullShare (acc6 V c (n + 1)) := rfl
theorem scrAt6_pos (c : Dev nD) (n : ℕ) (h : n ≠ 0) : scrAt6 V c n = owns (c : Thread nD τ) scr6 fullShare (acc6 V c n) := by
  cases n with
  | zero => exact absurd rfl h
  | succ n => rfl

/-- The invariant before block `n`: every scoped buffer no window stages other than the scratch row, at some
    contents; the generator register at some state; the scratch row as `scrAt6` says. -/
def ΦN6 (c : Dev nD) (n : ℕ) : sProp 𝕄 :=
  iprop(Pipeline.scopedRestBut (Ix := Unit) (Name := ℕ) (U := UR sig nD τ) (Lvl := ℕ) (Val := Elt F) spec6 c [cc6_scratch0]
    ∗ (∃ r, prngReg c r) ∗ scrAt6 V c n)

/-! ## The proof data -/

/-- The proof data of region 6 on core `c`: the arrays as the region finds them; after the body at block `t` each
    input's buffer still at its block, and the output's (stored at the last block only) at the finished row times the
    weight column plus the bias; the invariant above; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => k6_pay3 (acc6 V c (t.val + 1)) (iblk6 V c 2 t) (iblk6 V c 3 t)
  Φ t := ΦN6 V c t.val
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t
    = k6_pay3 (acc6 V c (t.val + 1)) (iblk6 V c 2 t) (iblk6 V c 3 t) := by dsimp only [dat6]

/-- What the output window holds after the last block: the ten blocks' running sums, times the weight column, plus
    the bias. -/
theorem after6_4_last (c : Dev nD) (t : Fin cfg6.N) (h : t.val = 9) : (dat6 V c).after 4 t
    = k6_pay3 (acc6 V c 10) (iblk6 V c 2 t) (iblk6 V c 3 t) := by
  rw [after6_4, h]

theorem Φ6_castSucc (c : Dev nD) (t : Fin cfg6.N) : (dat6 V c).Φ t.castSucc = ΦN6 V c t.val := rfl
theorem Φ6_succ (c : Dev nD) (t : Fin cfg6.N) : (dat6 V c).Φ t.succ = ΦN6 V c (t.val + 1) := rfl

theorem before6_0 (c : Dev nD) (t : Fin cfg6.N) (d) : (dat6 V c).before 0 t d = iblk6 V c 0 t :=
  (before6_of (dat6 V c) 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  (before6_of (dat6 V c) 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  (before6_of (dat6 V c) 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  (before6_of (dat6 V c) 3 rfl (fun _ => rfl) (fun _ _ _ => rfl) (fun t => by rw [after6_3]; unfold Dat.blockOf iblk6; rw [A_eq6]; try rfl) t d).trans
    (by unfold Dat.fetched Dat.blockOf iblk6; rw [A_eq6]; try rfl)

/-! ## The body obligation -/

/-- What the body is called with at block `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- what it returns of the output's buffer: where the window is idle and the block is not written back (every block
    but the last) the buffer as it was handed it, else the result; -/
def oPost6 (c : Dev nD) (t : Fin cfg6.N) : sProp 𝕄 :=
  match cfg6.idle 4 (cfg6.grid.coords t) with
  | true =>
    match (cfg6.win 4).flush t with
    | false => iprop(∃ d, owns (c : Thread nD τ) (st6_4 t) fullShare ((dat6 V c).before 4 t d))
    | true => owns (c : Thread nD τ) (st6_4 t) fullShare ((dat6 V c).after 4 t)
  | false => owns (c : Thread nD τ) (st6_4 t) fullShare ((dat6 V c).after 4 t)

/-- and all it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ oPost6 V c t)

/-- Before the last block the output's buffer is handed back as found; -/
theorem oPost6_idle (c : Dev nD) (t : Fin cfg6.N) (h : t.val ≠ 9) :
    oPost6 V c t = iprop(∃ d, owns (c : Thread nD τ) (st6_4 t) fullShare ((dat6 V c).before 4 t d)) := by
  have hN : t.val < 10 := lt_of_lt_of_eq t.isLt (show cfg6.N = 10 from N_6)
  have hi : cfg6.idle 4 (cfg6.grid.coords t) = true := by rw [idle6_4, decide_eq_false h]; rfl
  have hf : (cfg6.win 4).flush t = false :=
    Bool.eq_false_iff.mpr fun hh => by have := (flush6_4 t).mp hh; omega
  unfold oPost6; rw [hi, hf]

/-- at the last it holds the result. -/
theorem oPost6_last (c : Dev nD) (t : Fin cfg6.N) (h : t.val = 9) :
    oPost6 V c t = owns (c : Thread nD τ) (st6_4 t) fullShare ((dat6 V c).after 4 t) := by
  have hi : cfg6.idle 4 (cfg6.grid.coords t) = false := by rw [idle6_4, decide_eq_true h]; rfl
  unfold oPost6; rw [hi]

set_option maxHeartbeats 1000000 in
/-- The body at any block: the inputs' buffers hold their blocks; the block's number says which of the three runs
    applies; the scratch row goes from the running sums so far to the next; the output's buffer is handed back as
    found, or at the last block filled; the rest of the invariant and what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl,
    after6_0, after6_1, after6_2, after6_3, Φ6_castSucc, Φ6_succ]
  unfold ΦN6
  rw [scrAt6_succ, acc6_succ V c t]
  have hN : t.val < 10 := lt_of_lt_of_eq t.isLt (show cfg6.N = 10 from N_6)
  by_cases h0 : t.val = 0
  · -- the first block
    have h9 : t.val ≠ 9 := by omega
    have hc1 : cond6_1 (grid6.coords t) := (hcond6_1 t).mpr h0
    have hc2 : ¬k6_cond2 (grid6.coords t) = 1#1 := fun h => h9 ((hcond6_2 t).mp h)
    have hs : scrAt6 V c t.val = iprop(∃ d, owns (c : Thread nD τ) scr6 fullShare d) := by rw [h0]; rfl
    have ha : acc6 V c t.val = k6_pay1 := by rw [h0]; rfl
    rw [oPost6_idle V c t h9, hs, ha]
    iintro ⟨⟨Hrest, Hp, Hs⟩, Ho, ⟨%d0, H0⟩, ⟨%d1, H1⟩, ⟨%d2, H2⟩, ⟨%d3, H3⟩, H4⟩
    iapply (sound_kernel6_first c Set.univ _ _ _ _ _ _ _ _ _ _ _ _ _ hc1 hc2 (iblk6 V c 0 t) (iblk6 V c 1 t) _)
    isplitl [H0]; · iexact H0
    isplitl [H1]; · iexact H1
    isplitl [Hs]; · iexact Hs
    iintro ⟨H0, H1, Hs⟩
    isplitl [Hrest Hp Hs]
    · isplitl [Hrest]; · iexact Hrest
      isplitl [Hp]; · iexact Hp
      iexact Hs
    isplitl [Ho]; · iexact Ho
    isplitl [H0]; · iexact H0
    isplitl [H1]; · iexact H1
    isplitl [H2]; · iexact H2
    isplitl [H3]; · iexact H3
    iexact H4
  · have hc1 : ¬cond6_1 (grid6.coords t) := fun h => h0 ((hcond6_1 t).mp h)
    rw [scrAt6_pos V c t.val h0]
    by_cases h9 : t.val = 9
    · -- the last block
      have hc2 : k6_cond2 (grid6.coords t) = 1#1 := (hcond6_2 t).mpr h9
      rw [oPost6_last V c t h9, after6_4, acc6_succ V c t]
      iintro ⟨⟨Hrest, Hp, Hs⟩, Ho, ⟨%d0, H0⟩, ⟨%d1, H1⟩, ⟨%d2, H2⟩, ⟨%d3, H3⟩, ⟨%d4, H4⟩⟩
      iapply (sound_kernel6_last c Set.univ _ _ _ _ _ _ _ _ _ _ _ _ _ hc1 hc2 (iblk6 V c 0 t) (iblk6 V c 1 t)
        (iblk6 V c 2 t) (iblk6 V c 3 t) (acc6 V c t.val) _)
      isplitl [H0]; · iexact H0
      isplitl [H1]; · iexact H1
      isplitl [H2]; · iexact H2
      isplitl [H3]; · iexact H3
      isplitl [H4]; · iexists _; iexact H4
      isplitl [Hs]; · iexact Hs
      iintro ⟨H0, H1, H2, H3, H4, Hs⟩
      isplitl [Hrest Hp Hs]
      · isplitl [Hrest]; · iexact Hrest
        isplitl [Hp]; · iexact Hp
        iexact Hs
      isplitl [Ho]; · iexact Ho
      isplitl [H0]; · iexact H0
      isplitl [H1]; · iexact H1
      isplitl [H2]; · iexact H2
      isplitl [H3]; · iexact H3
      iexact H4
    · -- a middle block
      have hc2 : ¬k6_cond2 (grid6.coords t) = 1#1 := fun h => h9 ((hcond6_2 t).mp h)
      rw [oPost6_idle V c t h9]
      iintro ⟨⟨Hrest, Hp, Hs⟩, Ho, ⟨%d0, H0⟩, ⟨%d1, H1⟩, ⟨%d2, H2⟩, ⟨%d3, H3⟩, H4⟩
      iapply (sound_kernel6_mid c Set.univ _ _ _ _ _ _ _ _ _ _ _ _ _ hc1 hc2 (iblk6 V c 0 t) (iblk6 V c 1 t) (acc6 V c t.val) _)
      isplitl [H0]; · iexact H0
      isplitl [H1]; · iexact H1
      isplitl [Hs]; · iexact Hs
      iintro ⟨H0, H1, Hs⟩
      isplitl [Hrest Hp Hs]
      · isplitl [Hrest]; · iexact Hrest
        isplitl [Hp]; · iexact Hp
        iexact Hs
      isplitl [Ho]; · iexact Ho
      isplitl [H0]; · iexact H0
      isplitl [H1]; · iexact H1
      isplitl [H2]; · iexact H2
      isplitl [H3]; · iexact H3
      iexact H4

/-- The body obligation of region 6, at every block. -/
theorem body_obligation6 (c : Dev nD) : BodyObligation (dat6 (F := F) V c) (defs₀ (F := F)) Variants.none () Set.univ := fun t => by
  rw [bigSep_W6, bigSep_W6]
  exact sound_body6 V c t

/-! ## Entering and leaving the invariant -/

/-- What the region's entry hands the invariant: the generator register, and of the scoped buffers no window stages
    the scratch row at whatever it holds and the others unopened. -/
theorem hin6 (c : Dev nD) :
    iprop((∃ r, prngReg c r) ∗ Pipeline.prefHeld (pcfgs (F := F) 6).pre c (fun _ => fullShare) ((cfgs 6).toPCfg_adm).1
      ∗ Pipeline.scopedRest spec6 c) ⊢ ((dat6 V c).Φ 0 : sProp 𝕄) := by
  rw [show (dat6 V c).Φ 0 = ΦN6 V c 0 from rfl]; unfold ΦN6
  rw [scrAt6_zero, scopedRest6_split]
  iintro ⟨Hp, -, ⟨%f, Hs⟩, Hr⟩
  isplitl [Hr]; · iexact Hr
  isplitl [Hp]; · iexact Hp
  iexists f; rw [owns_whole]; iexact Hs

/-- And what it gives back after the last block: the same, the scratch row at the finished sums. -/
theorem hout6 (c : Dev nD) :
    (dat6 V c).Φ (Fin.last cfg6.N) ⊢ (iprop((∃ r, prngReg c r) ∗ Pipeline.scopedRest spec6 c) : sProp 𝕄) := by
  rw [show (dat6 V c).Φ (Fin.last cfg6.N) = ΦN6 V c cfg6.N from rfl]; unfold ΦN6
  rw [scrAt6_pos V c cfg6.N (by rw [show cfg6.N = 10 from N_6]; decide), scopedRest6_split, owns_whole]
  iintro ⟨Hr, Hp, Hs⟩
  isplitl [Hp]; · iexact Hp
  isplitl [Hs]
  · iexists _; iexact Hs
  iexact Hr

end Cert.Kernel.Hand
-- ==== Proof.K.Run.lean ====
/-
  The whole program as a chain of host stretches and kernel regions.  Between two items every unscoped buffer of a
  core holds a definite array: the launch contents, then what each host stretch computes from them, then, after a
  kernel region, the same except for the region's result array, which holds what the region's ten write-backs left.
  Each region is entered with its operand arrays split out of the unscoped buffers and left with them put back; the
  generator register and the core's (empty) debts ride along.  The run therefore ends with every unscoped buffer at
  the last array of the chain; no item ever writes an argument array.
-/
import proofs.«159478_j19920058318953_1_alg».proof.Proof.Gen.Kernel.Regions
import proofs.«159478_j19920058318953_1_alg».proof.Proof.K.Combine0
import proofs.«159478_j19920058318953_1_alg».proof.Proof.K.Combine1
import proofs.«159478_j19920058318953_1_alg».proof.Proof.K.Combine2
import proofs.«159478_j19920058318953_1_alg».proof.Proof.K.Combine3
import proofs.«159478_j19920058318953_1_alg».proof.Proof.K.Combine4
import proofs.«159478_j19920058318953_1_alg».proof.Proof.K.Combine5
import proofs.«159478_j19920058318953_1_alg».proof.Proof.K.Pool
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays between items -/

/-- At launch. -/
abbrev U0 (c : Dev nD) : Valuation τ sig (Elt F) := fun b => m (c, b)
/-- After host stretch 0: region 0's entry contents. -/
def U1 (c : Dev nD) : Valuation τ sig (Elt F) := StableHlo.after hostOps0 (U0 m c)
/-- The same read at the TensorCore's references. -/
abbrev Ve0 : (c : Dev nD) → (b : Ref sig .tc) → Buf (Elt F) ((c : Thread nD τ).loc b) := fun c b => U1 m c b
/-- What region 0's write-backs leave in its result array. -/
def o0 (c : Dev nD) : Buf (Elt F) ((c : Thread nD τ).loc main_v21) := (dat0 (Ve0 m) c).arrAt 5 cfg0.N
/-- After region 0: its result array at what the write-backs left, every other buffer as entered. -/
def U2 (c : Dev nD) : Valuation τ sig (Elt F) := Function.update (U1 m c) main_v21 (o0 m c)
abbrev Vx0 : (c : Dev nD) → (b : Ref sig .tc) → Buf (Elt F) ((c : Thread nD τ).loc b) := fun c b => U2 m c b
theorem U2_out (c : Dev nD) : U2 m c main_v21 = o0 m c := by
  unfold U2; exact Function.update_self ..
theorem U2_of_ne (c : Dev nD) (b : Ref sig .tc) (hb : b ≠ main_v21) : U2 m c b = U1 m c b := by
  unfold U2; exact Function.update_of_ne (StableHlo.devRef_ne_of_ne hb) ..
theorem U1_of (c : Dev nD) (b : Ref sig .tc) (hb : b ∉ hostOps0_W) : U1 m c b = U0 m c b := by
  unfold U1; exact StableHlo.after_of_writes_sub hostOps0 _ hostOps0_writes hb
/-- After host stretch 1: region 1's entry contents. -/
def U3 (c : Dev nD) : Valuation τ sig (Elt F) := StableHlo.after hostOps1 (U2 m c)
/-- The same read at the TensorCore's references. -/
abbrev Ve1 : (c : Dev nD) → (b : Ref sig .tc) → Buf (Elt F) ((c : Thread nD τ).loc b) := fun c b => U3 m c b
/-- What region 1's write-backs leave in its result array. -/
def o1 (c : Dev nD) : Buf (Elt F) ((c : Thread nD τ).loc main_v43) := (dat1 (Ve1 m) c).arrAt 5 cfg1.N
/-- After region 1: its result array at what the write-backs left, every other buffer as entered. -/
def U4 (c : Dev nD) : Valuation τ sig (Elt F) := Function.update (U3 m c) main_v43 (o1 m c)
abbrev Vx1 : (c : Dev nD) → (b : Ref sig .tc) → Buf (Elt F) ((c : Thread nD τ).loc b) := fun c b => U4 m c b
theorem U4_out (c : Dev nD) : U4 m c main_v43 = o1 m c := by
  unfold U4; exact Function.update_self ..
theorem U4_of_ne (c : Dev nD) (b : Ref sig .tc) (hb : b ≠ main_v43) : U4 m c b = U3 m c b := by
  unfold U4; exact Function.update_of_ne (StableHlo.devRef_ne_of_ne hb) ..
theorem U3_of (c : Dev nD) (b : Ref sig .tc) (hb : b ∉ hostOps1_W) : U3 m c b = U2 m c b := by
  unfold U3; exact StableHlo.after_of_writes_sub hostOps1 _ hostOps1_writes hb
/-- After host stretch 2: region 2's entry contents. -/
def U5 (c : Dev nD) : Valuation τ sig (Elt F) := StableHlo.after hostOps2 (U4 m c)
/-- The same read at the TensorCore's references. -/
abbrev Ve2 : (c : Dev nD) → (b : Ref sig .tc) → Buf (Elt F) ((c : Thread nD τ).loc b) := fun c b => U5 m c b
/-- What region 2's write-backs leave in its result array. -/
def o2 (c : Dev nD) : Buf (Elt F) ((c : Thread nD τ).loc main_v65) := (dat2 (Ve2 m) c).arrAt 5 cfg2.N
/-- After region 2: its result array at what the write-backs left, every other buffer as entered. -/
def U6 (c : Dev nD) : Valuation τ sig (Elt F) := Function.update (U5 m c) main_v65 (o2 m c)
abbrev Vx2 : (c : Dev nD) → (b : Ref sig .tc) → Buf (Elt F) ((c : Thread nD τ).loc b) := fun c b => U6 m c b
theorem U6_out (c : Dev nD) : U6 m c main_v65 = o2 m c := by
  unfold U6; exact Function.update_self ..
theorem U6_of_ne (c : Dev nD) (b : Ref sig .tc) (hb : b ≠ main_v65) : U6 m c b = U5 m c b := by
  unfold U6; exact Function.update_of_ne (StableHlo.devRef_ne_of_ne hb) ..
theorem U5_of (c : Dev nD) (b : Ref sig .tc) (hb : b ∉ hostOps2_W) : U5 m c b = U4 m c b := by
  unfold U5; exact StableHlo.after_of_writes_sub hostOps2 _ hostOps2_writes hb
/-- After host stretch 3: region 3's entry contents. -/
def U7 (c : Dev nD) : Valuation τ sig (Elt F) := StableHlo.after hostOps3 (U6 m c)
/-- The same read at the TensorCore's references. -/
abbrev Ve3 : (c : Dev nD) → (b : Ref sig .tc) → Buf (Elt F) ((c : Thread nD τ).loc b) := fun c b => U7 m c b
/-- What region 3's write-backs leave in its result array. -/
def o3 (c : Dev nD) : Buf (Elt F) ((c : Thread nD τ).loc main_v87) := (dat3 (Ve3 m) c).arrAt 5 cfg3.N
/-- After region 3: its result array at what the write-backs left, every other buffer as entered. -/
def U8 (c : Dev nD) : Valuation τ sig (Elt F) := Function.update (U7 m c) main_v87 (o3 m c)
abbrev Vx3 : (c : Dev nD) → (b : Ref sig .tc) → Buf (Elt F) ((c : Thread nD τ).loc b) := fun c b => U8 m c b
theorem U8_out (c : Dev nD) : U8 m c main_v87 = o3 m c := by
  unfold U8; exact Function.update_self ..
theorem U8_of_ne (c : Dev nD) (b : Ref sig .tc) (hb : b ≠ main_v87) : U8 m c b = U7 m c b := by
  unfold U8; exact Function.update_of_ne (StableHlo.devRef_ne_of_ne hb) ..
theorem U7_of (c : Dev nD) (b : Ref sig .tc) (hb : b ∉ hostOps3_W) : U7 m c b = U6 m c b := by
  unfold U7; exact StableHlo.after_of_writes_sub hostOps3 _ hostOps3_writes hb
/-- After host stretch 4: region 4's entry contents. -/
def U9 (c : Dev nD) : Valuation τ sig (Elt F) := StableHlo.after hostOps4 (U8 m c)
/-- The same read at the TensorCore's references. -/
abbrev Ve4 : (c : Dev nD) → (b : Ref sig .tc) → Buf (Elt F) ((c : Thread nD τ).loc b) := fun c b => U9 m c b
/-- What region 4's write-backs leave in its result array. -/
def o4 (c : Dev nD) : Buf (Elt F) ((c : Thread nD τ).loc main_v109) := (dat4 (Ve4 m) c).arrAt 5 cfg4.N
/-- After region 4: its result array at what the write-backs left, every other buffer as entered. -/
def U10 (c : Dev nD) : Valuation τ sig (Elt F) := Function.update (U9 m c) main_v109 (o4 m c)
abbrev Vx4 : (c : Dev nD) → (b : Ref sig .tc) → Buf (Elt F) ((c : Thread nD τ).loc b) := fun c b => U10 m c b
theorem U10_out (c : Dev nD) : U10 m c main_v109 = o4 m c := by
  unfold U10; exact Function.update_self ..
theorem U10_of_ne (c : Dev nD) (b : Ref sig .tc) (hb : b ≠ main_v109) : U10 m c b = U9 m c b := by
  unfold U10; exact Function.update_of_ne (StableHlo.devRef_ne_of_ne hb) ..
theorem U9_of (c : Dev nD) (b : Ref sig .tc) (hb : b ∉ hostOps4_W) : U9 m c b = U8 m c b := by
  unfold U9; exact StableHlo.after_of_writes_sub hostOps4 _ hostOps4_writes hb
/-- After host stretch 5: region 5's entry contents. -/
def U11 (c : Dev nD) : Valuation τ sig (Elt F) := StableHlo.after hostOps5 (U10 m c)
/-- The same read at the TensorCore's references. -/
abbrev Ve5 : (c : Dev nD) → (b : Ref sig .tc) → Buf (Elt F) ((c : Thread nD τ).loc b) := fun c b => U11 m c b
/-- What region 5's write-backs leave in its result array. -/
def o5 (c : Dev nD) : Buf (Elt F) ((c : Thread nD τ).loc main_v131) := (dat5 (Ve5 m) c).arrAt 5 cfg5.N
/-- After region 5: its result array at what the write-backs left, every other buffer as entered. -/
def U12 (c : Dev nD) : Valuation τ sig (Elt F) := Function.update (U11 m c) main_v131 (o5 m c)
abbrev Vx5 : (c : Dev nD) → (b : Ref sig .tc) → Buf (Elt F) ((c : Thread nD τ).loc b) := fun c b => U12 m c b
theorem U12_out (c : Dev nD) : U12 m c main_v131 = o5 m c := by
  unfold U12; exact Function.update_self ..
theorem U12_of_ne (c : Dev nD) (b : Ref sig .tc) (hb : b ≠ main_v131) : U12 m c b = U11 m c b := by
  unfold U12; exact Function.update_of_ne (StableHlo.devRef_ne_of_ne hb) ..
theorem U11_of (c : Dev nD) (b : Ref sig .tc) (hb : b ∉ hostOps5_W) : U11 m c b = U10 m c b := by
  unfold U11; exact StableHlo.after_of_writes_sub hostOps5 _ hostOps5_writes hb
/-- After host stretch 6: region 6's entry contents. -/
def U13 (c : Dev nD) : Valuation τ sig (Elt F) := StableHlo.after hostOps6 (U12 m c)
/-- The same read at the TensorCore's references. -/
abbrev Ve6 : (c : Dev nD) → (b : Ref sig .tc) → Buf (Elt F) ((c : Thread nD τ).loc b) := fun c b => U13 m c b
/-- What region 6's write-backs leave in its result array. -/
def o6 (c : Dev nD) : Buf (Elt F) ((c : Thread nD τ).loc main_v133) := (dat6 (Ve6 m) c).arrAt 4 cfg6.N
/-- After region 6: its result array at what the write-backs left, every other buffer as entered. -/
def U14 (c : Dev nD) : Valuation τ sig (Elt F) := Function.update (U13 m c) main_v133 (o6 m c)
abbrev Vx6 : (c : Dev nD) → (b : Ref sig .tc) → Buf (Elt F) ((c : Thread nD τ).loc b) := fun c b => U14 m c b
theorem U14_out (c : Dev nD) : U14 m c main_v133 = o6 m c := by
  unfold U14; exact Function.update_self ..
theorem U14_of_ne (c : Dev nD) (b : Ref sig .tc) (hb : b ≠ main_v133) : U14 m c b = U13 m c b := by
  unfold U14; exact Function.update_of_ne (StableHlo.devRef_ne_of_ne hb) ..
theorem U13_of (c : Dev nD) (b : Ref sig .tc) (hb : b ∉ hostOps6_W) : U13 m c b = U12 m c b := by
  unfold U13; exact StableHlo.after_of_writes_sub hostOps6 _ hostOps6_writes hb

/-- A buffer that no host stretch writes and that is no region's result ends as launched. -/
theorem U14_of (c : Dev nD) (b : Ref sig .tc)
    (h0 : b ∉ hostOps0_W) (g0 : b ≠ main_v21)
    (h1 : b ∉ hostOps1_W) (g1 : b ≠ main_v43)
    (h2 : b ∉ hostOps2_W) (g2 : b ≠ main_v65)
    (h3 : b ∉ hostOps3_W) (g3 : b ≠ main_v87)
    (h4 : b ∉ hostOps4_W) (g4 : b ≠ main_v109)
    (h5 : b ∉ hostOps5_W) (g5 : b ≠ main_v131)
    (h6 : b ∉ hostOps6_W) (g6 : b ≠ main_v133) :
    U14 m c b = m ((c : Thread nD τ).loc b) :=
  (U14_of_ne m c b g6).trans <| (U13_of m c b h6).trans <|
  (U12_of_ne m c b g5).trans <| (U11_of m c b h5).trans <|
  (U10_of_ne m c b g4).trans <| (U9_of m c b h4).trans <|
  (U8_of_ne m c b g3).trans <| (U7_of m c b h3).trans <|
  (U6_of_ne m c b g2).trans <| (U5_of m c b h2).trans <|
  (U4_of_ne m c b g1).trans <| (U3_of m c b h1).trans <|
  (U2_of_ne m c b g0).trans <| (U1_of m c b h0).trans <| rfl

theorem hF0_0 (c : Dev nD) : (dat0 (Ve0 m) c).arrAt 0 cfg0.N = Vx0 m c (Pipeline.arrRef spec0 0) :=
  (((dat0 (Ve0 m) c).arrAt_in 0 rfl _).trans (A_eq0 (Ve0 m) c 0)).trans (U2_of_ne m c (Pipeline.arrRef spec0 0) (by decide)).symm
theorem hF0_1 (c : Dev nD) : (dat0 (Ve0 m) c).arrAt 1 cfg0.N = Vx0 m c (Pipeline.arrRef spec0 1) :=
  (((dat0 (Ve0 m) c).arrAt_in 1 rfl _).trans (A_eq0 (Ve0 m) c 1)).trans (U2_of_ne m c (Pipeline.arrRef spec0 1) (by decide)).symm
theorem hF0_2 (c : Dev nD) : (dat0 (Ve0 m) c).arrAt 2 cfg0.N = Vx0 m c (Pipeline.arrRef spec0 2) :=
  (((dat0 (Ve0 m) c).arrAt_in 2 rfl _).trans (A_eq0 (Ve0 m) c 2)).trans (U2_of_ne m c (Pipeline.arrRef spec0 2) (by decide)).symm
theorem hF0_3 (c : Dev nD) : (dat0 (Ve0 m) c).arrAt 3 cfg0.N = Vx0 m c (Pipeline.arrRef spec0 3) :=
  (((dat0 (Ve0 m) c).arrAt_in 3 rfl _).trans (A_eq0 (Ve0 m) c 3)).trans (U2_of_ne m c (Pipeline.arrRef spec0 3) (by decide)).symm
theorem hF0_4 (c : Dev nD) : (dat0 (Ve0 m) c).arrAt 4 cfg0.N = Vx0 m c (Pipeline.arrRef spec0 4) :=
  (((dat0 (Ve0 m) c).arrAt_in 4 rfl _).trans (A_eq0 (Ve0 m) c 4)).trans (U2_of_ne m c (Pipeline.arrRef spec0 4) (by decide)).symm
theorem hF0_5 (c : Dev nD) : (dat0 (Ve0 m) c).arrAt 5 cfg0.N = Vx0 m c (Pipeline.arrRef spec0 5) :=
  (U2_out m c).symm
theorem hF0 (c : Dev nD) (w : Fin cfg0.W) : (dat0 (Ve0 m) c).arrAt w cfg0.N = Vx0 m c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
theorem hrest0 (c : Dev nD) : ∀ b, b ∉ Finset.univ.image (Pipeline.arrRef spec0) → Vx0 m c b = Ve0 m c b :=
  fun b hb => U2_of_ne m c b fun e => hb (Finset.mem_image.mpr ⟨5, Finset.mem_univ _, e ▸ rfl⟩)
theorem hF1_0 (c : Dev nD) : (dat1 (Ve1 m) c).arrAt 0 cfg1.N = Vx1 m c (Pipeline.arrRef spec1 0) :=
  (((dat1 (Ve1 m) c).arrAt_in 0 rfl _).trans (A_eq1 (Ve1 m) c 0)).trans (U4_of_ne m c (Pipeline.arrRef spec1 0) (by decide)).symm
theorem hF1_1 (c : Dev nD) : (dat1 (Ve1 m) c).arrAt 1 cfg1.N = Vx1 m c (Pipeline.arrRef spec1 1) :=
  (((dat1 (Ve1 m) c).arrAt_in 1 rfl _).trans (A_eq1 (Ve1 m) c 1)).trans (U4_of_ne m c (Pipeline.arrRef spec1 1) (by decide)).symm
theorem hF1_2 (c : Dev nD) : (dat1 (Ve1 m) c).arrAt 2 cfg1.N = Vx1 m c (Pipeline.arrRef spec1 2) :=
  (((dat1 (Ve1 m) c).arrAt_in 2 rfl _).trans (A_eq1 (Ve1 m) c 2)).trans (U4_of_ne m c (Pipeline.arrRef spec1 2) (by decide)).symm
theorem hF1_3 (c : Dev nD) : (dat1 (Ve1 m) c).arrAt 3 cfg1.N = Vx1 m c (Pipeline.arrRef spec1 3) :=
  (((dat1 (Ve1 m) c).arrAt_in 3 rfl _).trans (A_eq1 (Ve1 m) c 3)).trans (U4_of_ne m c (Pipeline.arrRef spec1 3) (by decide)).symm
theorem hF1_4 (c : Dev nD) : (dat1 (Ve1 m) c).arrAt 4 cfg1.N = Vx1 m c (Pipeline.arrRef spec1 4) :=
  (((dat1 (Ve1 m) c).arrAt_in 4 rfl _).trans (A_eq1 (Ve1 m) c 4)).trans (U4_of_ne m c (Pipeline.arrRef spec1 4) (by decide)).symm
theorem hF1_5 (c : Dev nD) : (dat1 (Ve1 m) c).arrAt 5 cfg1.N = Vx1 m c (Pipeline.arrRef spec1 5) :=
  (U4_out m c).symm
theorem hF1 (c : Dev nD) (w : Fin cfg1.W) : (dat1 (Ve1 m) c).arrAt w cfg1.N = Vx1 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
theorem hrest1 (c : Dev nD) : ∀ b, b ∉ Finset.univ.image (Pipeline.arrRef spec1) → Vx1 m c b = Ve1 m c b :=
  fun b hb => U4_of_ne m c b fun e => hb (Finset.mem_image.mpr ⟨5, Finset.mem_univ _, e ▸ rfl⟩)
theorem hF2_0 (c : Dev nD) : (dat2 (Ve2 m) c).arrAt 0 cfg2.N = Vx2 m c (Pipeline.arrRef spec2 0) :=
  (((dat2 (Ve2 m) c).arrAt_in 0 rfl _).trans (A_eq2 (Ve2 m) c 0)).trans (U6_of_ne m c (Pipeline.arrRef spec2 0) (by decide)).symm
theorem hF2_1 (c : Dev nD) : (dat2 (Ve2 m) c).arrAt 1 cfg2.N = Vx2 m c (Pipeline.arrRef spec2 1) :=
  (((dat2 (Ve2 m) c).arrAt_in 1 rfl _).trans (A_eq2 (Ve2 m) c 1)).trans (U6_of_ne m c (Pipeline.arrRef spec2 1) (by decide)).symm
theorem hF2_2 (c : Dev nD) : (dat2 (Ve2 m) c).arrAt 2 cfg2.N = Vx2 m c (Pipeline.arrRef spec2 2) :=
  (((dat2 (Ve2 m) c).arrAt_in 2 rfl _).trans (A_eq2 (Ve2 m) c 2)).trans (U6_of_ne m c (Pipeline.arrRef spec2 2) (by decide)).symm
theorem hF2_3 (c : Dev nD) : (dat2 (Ve2 m) c).arrAt 3 cfg2.N = Vx2 m c (Pipeline.arrRef spec2 3) :=
  (((dat2 (Ve2 m) c).arrAt_in 3 rfl _).trans (A_eq2 (Ve2 m) c 3)).trans (U6_of_ne m c (Pipeline.arrRef spec2 3) (by decide)).symm
theorem hF2_4 (c : Dev nD) : (dat2 (Ve2 m) c).arrAt 4 cfg2.N = Vx2 m c (Pipeline.arrRef spec2 4) :=
  (((dat2 (Ve2 m) c).arrAt_in 4 rfl _).trans (A_eq2 (Ve2 m) c 4)).trans (U6_of_ne m c (Pipeline.arrRef spec2 4) (by decide)).symm
theorem hF2_5 (c : Dev nD) : (dat2 (Ve2 m) c).arrAt 5 cfg2.N = Vx2 m c (Pipeline.arrRef spec2 5) :=
  (U6_out m c).symm
theorem hF2 (c : Dev nD) (w : Fin cfg2.W) : (dat2 (Ve2 m) c).arrAt w cfg2.N = Vx2 m c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
theorem hrest2 (c : Dev nD) : ∀ b, b ∉ Finset.univ.image (Pipeline.arrRef spec2) → Vx2 m c b = Ve2 m c b :=
  fun b hb => U6_of_ne m c b fun e => hb (Finset.mem_image.mpr ⟨5, Finset.mem_univ _, e ▸ rfl⟩)
theorem hF3_0 (c : Dev nD) : (dat3 (Ve3 m) c).arrAt 0 cfg3.N = Vx3 m c (Pipeline.arrRef spec3 0) :=
  (((dat3 (Ve3 m) c).arrAt_in 0 rfl _).trans (A_eq3 (Ve3 m) c 0)).trans (U8_of_ne m c (Pipeline.arrRef spec3 0) (by decide)).symm
theorem hF3_1 (c : Dev nD) : (dat3 (Ve3 m) c).arrAt 1 cfg3.N = Vx3 m c (Pipeline.arrRef spec3 1) :=
  (((dat3 (Ve3 m) c).arrAt_in 1 rfl _).trans (A_eq3 (Ve3 m) c 1)).trans (U8_of_ne m c (Pipeline.arrRef spec3 1) (by decide)).symm
theorem hF3_2 (c : Dev nD) : (dat3 (Ve3 m) c).arrAt 2 cfg3.N = Vx3 m c (Pipeline.arrRef spec3 2) :=
  (((dat3 (Ve3 m) c).arrAt_in 2 rfl _).trans (A_eq3 (Ve3 m) c 2)).trans (U8_of_ne m c (Pipeline.arrRef spec3 2) (by decide)).symm
theorem hF3_3 (c : Dev nD) : (dat3 (Ve3 m) c).arrAt 3 cfg3.N = Vx3 m c (Pipeline.arrRef spec3 3) :=
  (((dat3 (Ve3 m) c).arrAt_in 3 rfl _).trans (A_eq3 (Ve3 m) c 3)).trans (U8_of_ne m c (Pipeline.arrRef spec3 3) (by decide)).symm
theorem hF3_4 (c : Dev nD) : (dat3 (Ve3 m) c).arrAt 4 cfg3.N = Vx3 m c (Pipeline.arrRef spec3 4) :=
  (((dat3 (Ve3 m) c).arrAt_in 4 rfl _).trans (A_eq3 (Ve3 m) c 4)).trans (U8_of_ne m c (Pipeline.arrRef spec3 4) (by decide)).symm
theorem hF3_5 (c : Dev nD) : (dat3 (Ve3 m) c).arrAt 5 cfg3.N = Vx3 m c (Pipeline.arrRef spec3 5) :=
  (U8_out m c).symm
theorem hF3 (c : Dev nD) (w : Fin cfg3.W) : (dat3 (Ve3 m) c).arrAt w cfg3.N = Vx3 m c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
theorem hrest3 (c : Dev nD) : ∀ b, b ∉ Finset.univ.image (Pipeline.arrRef spec3) → Vx3 m c b = Ve3 m c b :=
  fun b hb => U8_of_ne m c b fun e => hb (Finset.mem_image.mpr ⟨5, Finset.mem_univ _, e ▸ rfl⟩)
theorem hF4_0 (c : Dev nD) : (dat4 (Ve4 m) c).arrAt 0 cfg4.N = Vx4 m c (Pipeline.arrRef spec4 0) :=
  (((dat4 (Ve4 m) c).arrAt_in 0 rfl _).trans (A_eq4 (Ve4 m) c 0)).trans (U10_of_ne m c (Pipeline.arrRef spec4 0) (by decide)).symm
theorem hF4_1 (c : Dev nD) : (dat4 (Ve4 m) c).arrAt 1 cfg4.N = Vx4 m c (Pipeline.arrRef spec4 1) :=
  (((dat4 (Ve4 m) c).arrAt_in 1 rfl _).trans (A_eq4 (Ve4 m) c 1)).trans (U10_of_ne m c (Pipeline.arrRef spec4 1) (by decide)).symm
theorem hF4_2 (c : Dev nD) : (dat4 (Ve4 m) c).arrAt 2 cfg4.N = Vx4 m c (Pipeline.arrRef spec4 2) :=
  (((dat4 (Ve4 m) c).arrAt_in 2 rfl _).trans (A_eq4 (Ve4 m) c 2)).trans (U10_of_ne m c (Pipeline.arrRef spec4 2) (by decide)).symm
theorem hF4_3 (c : Dev nD) : (dat4 (Ve4 m) c).arrAt 3 cfg4.N = Vx4 m c (Pipeline.arrRef spec4 3) :=
  (((dat4 (Ve4 m) c).arrAt_in 3 rfl _).trans (A_eq4 (Ve4 m) c 3)).trans (U10_of_ne m c (Pipeline.arrRef spec4 3) (by decide)).symm
theorem hF4_4 (c : Dev nD) : (dat4 (Ve4 m) c).arrAt 4 cfg4.N = Vx4 m c (Pipeline.arrRef spec4 4) :=
  (((dat4 (Ve4 m) c).arrAt_in 4 rfl _).trans (A_eq4 (Ve4 m) c 4)).trans (U10_of_ne m c (Pipeline.arrRef spec4 4) (by decide)).symm
theorem hF4_5 (c : Dev nD) : (dat4 (Ve4 m) c).arrAt 5 cfg4.N = Vx4 m c (Pipeline.arrRef spec4 5) :=
  (U10_out m c).symm
theorem hF4 (c : Dev nD) (w : Fin cfg4.W) : (dat4 (Ve4 m) c).arrAt w cfg4.N = Vx4 m c (Pipeline.arrRef spec4 w) :=
  match w with
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c
theorem hrest4 (c : Dev nD) : ∀ b, b ∉ Finset.univ.image (Pipeline.arrRef spec4) → Vx4 m c b = Ve4 m c b :=
  fun b hb => U10_of_ne m c b fun e => hb (Finset.mem_image.mpr ⟨5, Finset.mem_univ _, e ▸ rfl⟩)
theorem hF5_0 (c : Dev nD) : (dat5 (Ve5 m) c).arrAt 0 cfg5.N = Vx5 m c (Pipeline.arrRef spec5 0) :=
  (((dat5 (Ve5 m) c).arrAt_in 0 rfl _).trans (A_eq5 (Ve5 m) c 0)).trans (U12_of_ne m c (Pipeline.arrRef spec5 0) (by decide)).symm
theorem hF5_1 (c : Dev nD) : (dat5 (Ve5 m) c).arrAt 1 cfg5.N = Vx5 m c (Pipeline.arrRef spec5 1) :=
  (((dat5 (Ve5 m) c).arrAt_in 1 rfl _).trans (A_eq5 (Ve5 m) c 1)).trans (U12_of_ne m c (Pipeline.arrRef spec5 1) (by decide)).symm
theorem hF5_2 (c : Dev nD) : (dat5 (Ve5 m) c).arrAt 2 cfg5.N = Vx5 m c (Pipeline.arrRef spec5 2) :=
  (((dat5 (Ve5 m) c).arrAt_in 2 rfl _).trans (A_eq5 (Ve5 m) c 2)).trans (U12_of_ne m c (Pipeline.arrRef spec5 2) (by decide)).symm
theorem hF5_3 (c : Dev nD) : (dat5 (Ve5 m) c).arrAt 3 cfg5.N = Vx5 m c (Pipeline.arrRef spec5 3) :=
  (((dat5 (Ve5 m) c).arrAt_in 3 rfl _).trans (A_eq5 (Ve5 m) c 3)).trans (U12_of_ne m c (Pipeline.arrRef spec5 3) (by decide)).symm
theorem hF5_4 (c : Dev nD) : (dat5 (Ve5 m) c).arrAt 4 cfg5.N = Vx5 m c (Pipeline.arrRef spec5 4) :=
  (((dat5 (Ve5 m) c).arrAt_in 4 rfl _).trans (A_eq5 (Ve5 m) c 4)).trans (U12_of_ne m c (Pipeline.arrRef spec5 4) (by decide)).symm
theorem hF5_5 (c : Dev nD) : (dat5 (Ve5 m) c).arrAt 5 cfg5.N = Vx5 m c (Pipeline.arrRef spec5 5) :=
  (U12_out m c).symm
theorem hF5 (c : Dev nD) (w : Fin cfg5.W) : (dat5 (Ve5 m) c).arrAt w cfg5.N = Vx5 m c (Pipeline.arrRef spec5 w) :=
  match w with
  | ⟨0, _⟩ => hF5_0 m c
  | ⟨1, _⟩ => hF5_1 m c
  | ⟨2, _⟩ => hF5_2 m c
  | ⟨3, _⟩ => hF5_3 m c
  | ⟨4, _⟩ => hF5_4 m c
  | ⟨5, _⟩ => hF5_5 m c
theorem hrest5 (c : Dev nD) : ∀ b, b ∉ Finset.univ.image (Pipeline.arrRef spec5) → Vx5 m c b = Ve5 m c b :=
  fun b hb => U12_of_ne m c b fun e => hb (Finset.mem_image.mpr ⟨5, Finset.mem_univ _, e ▸ rfl⟩)
theorem hF6_0 (c : Dev nD) : (dat6 (Ve6 m) c).arrAt 0 cfg6.N = Vx6 m c (Pipeline.arrRef spec6 0) :=
  (((dat6 (Ve6 m) c).arrAt_in 0 rfl _).trans (A_eq6 (Ve6 m) c 0)).trans (U14_of_ne m c (Pipeline.arrRef spec6 0) (by decide)).symm
theorem hF6_1 (c : Dev nD) : (dat6 (Ve6 m) c).arrAt 1 cfg6.N = Vx6 m c (Pipeline.arrRef spec6 1) :=
  (((dat6 (Ve6 m) c).arrAt_in 1 rfl _).trans (A_eq6 (Ve6 m) c 1)).trans (U14_of_ne m c (Pipeline.arrRef spec6 1) (by decide)).symm
theorem hF6_2 (c : Dev nD) : (dat6 (Ve6 m) c).arrAt 2 cfg6.N = Vx6 m c (Pipeline.arrRef spec6 2) :=
  (((dat6 (Ve6 m) c).arrAt_in 2 rfl _).trans (A_eq6 (Ve6 m) c 2)).trans (U14_of_ne m c (Pipeline.arrRef spec6 2) (by decide)).symm
theorem hF6_3 (c : Dev nD) : (dat6 (Ve6 m) c).arrAt 3 cfg6.N = Vx6 m c (Pipeline.arrRef spec6 3) :=
  (((dat6 (Ve6 m) c).arrAt_in 3 rfl _).trans (A_eq6 (Ve6 m) c 3)).trans (U14_of_ne m c (Pipeline.arrRef spec6 3) (by decide)).symm
theorem hF6_4 (c : Dev nD) : (dat6 (Ve6 m) c).arrAt 4 cfg6.N = Vx6 m c (Pipeline.arrRef spec6 4) :=
  (U14_out m c).symm
theorem hF6 (c : Dev nD) (w : Fin cfg6.W) : (dat6 (Ve6 m) c).arrAt w cfg6.N = Vx6 m c (Pipeline.arrRef spec6 w) :=
  match w with
  | ⟨0, _⟩ => hF6_0 m c
  | ⟨1, _⟩ => hF6_1 m c
  | ⟨2, _⟩ => hF6_2 m c
  | ⟨3, _⟩ => hF6_3 m c
  | ⟨4, _⟩ => hF6_4 m c
theorem hrest6 (c : Dev nD) : ∀ b, b ∉ Finset.univ.image (Pipeline.arrRef spec6) → Vx6 m c b = Ve6 m c b :=
  fun b hb => U14_of_ne m c b fun e => hb (Finset.mem_image.mpr ⟨4, Finset.mem_univ _, e ▸ rfl⟩)

/-! ## The proof data family and the thread state -/

abbrev adm : (p : Fin 7) → (pcfgs (F := F) p).Adm := fun p => (cfgs p).toPCfg_adm
/-- Every region's proof data at its entry contents. -/
def pdats : (p : Fin 7) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c
  | ⟨4, _⟩ => fun c => dat4 (Ve4 m) c
  | ⟨5, _⟩ => fun c => dat5 (Ve5 m) c
  | ⟨6, _⟩ => fun c => dat6 (Ve6 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (U14 m c) ∗ ∃ r, prngReg c r)

/-! ## The regions as segments -/

set_option backward.isDefEq.respectTransparency.types false in
/-- Region 0: entered with every unscoped buffer at its entry contents, left with them at its exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at its entry contents, left with them at its exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at its entry contents, left with them at its exit contents. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at its entry contents, left with them at its exit contents. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ve3 m) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec3 c (Ve3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Ve3 m c) (Vx3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at its entry contents, left with them at its exit contents. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Ve4 m) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec4 c (Ve4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Ve4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Ve4 m c) (Vx4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at its entry contents, left with them at its exit contents. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Ve5 m) c).loose
  hwaits := Pipeline.hwaits_of_owed_zero _ _ _ _ L lv 5 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec5 c (Ve5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Ve5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Ve5 m c) (Vx5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered with every unscoped buffer at its entry contents, left with them at its exit contents. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Ve6 m) c).loose
  hwaits := Pipeline.hwaits_of_owed_zero _ _ _ _ L lv 6 fun _ _ => rfl
  pre c := iprop(StableHlo.held (c : Thread nD τ) (Pipeline.ucRefs τ sig) (U13 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (Ve6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Ve6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin6 (Ve6 m) c
  hout c := by
    rw [Pipeline.ownSems0_none]
    exact (hout6 (Ve6 m) c).trans (by iintro ⟨Hp, Hr⟩; isplitl [Hp]; · iexact Hp
                                      isplitr; · iempintro
                                      iexact Hr)
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Ve6 m c) (Vx6 m c) ((pdats m 6 c).arrAt · cfg6.N) (hF6 m c) (hrest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (U0 m)),
    .region (reg0 m),
    .host (hseg hostOps1 hostOps1_sub hostOps1_fresh (U2 m)),
    .region (reg1 m),
    .host (hseg hostOps2 hostOps2_sub hostOps2_fresh (U4 m)),
    .region (reg2 m),
    .host (hseg hostOps3 hostOps3_sub hostOps3_fresh (U6 m)),
    .region (reg3 m),
    .host (hseg hostOps4 hostOps4_sub hostOps4_fresh (U8 m)),
    .region (reg4 m),
    .host (hseg hostOps5 hostOps5_sub hostOps5_fresh (U10 m)),
    .region (reg5 m),
    .host (hseg hostOps6 hostOps6_sub hostOps6_fresh (U12 m)),
    .region (reg6 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution from memory `m` with zero counters terminates, nothing faulting, and every final
    state holds every unscoped buffer at the last array of the chain. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = U14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U14 m c b)
    (hfin := fun c s' => by
      iintro ⟨⟨Hh, -⟩, HSI⟩
      unfold StableHlo.held
      imodintro
      iapply (pointsTo_read_all (Pipeline.ucRefs τ sig) (fun b => (((c : Thread nD τ)).1, b)) (U14 m c) s')
      isplitl [Hh] <;> iassumption)
    (hQ := fun s h c => h c)

end Cert.Kernel.Hand

end
-- ==== Proof.K.Claims.lean ====
/-
  What the run gives for the claims: every argument array ends as launched (no host stretch writes an argument and
  no region's result array is one), and the program's result buffer ends at what the last region's write-back left.
-/
import proofs.«159478_j19920058318953_1_alg».proof.Proof.K.Run

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

theorem U14_arg0 (c : Dev nD) : U14 m c main_arg0 = m ((c : Thread nD τ).loc main_arg0) :=
  U14_of m c main_arg0 (by decide) (by decide) (by decide) (by decide) (by decide) (by decide) (by decide) (by decide) (by decide) (by decide) (by decide) (by decide) (by decide) (by decide)
theorem U14_arg1 (c : Dev nD) : U14 m c main_arg1 = m ((c : Thread nD τ).loc main_arg1) :=
  U14_of m c main_arg1 (by decide) (by decide) (by decide) (by decide) (by decide) (by decide) (by decide) (by decide) (by decide) (by decide) (by decide) (by decide) (by decide) (by decide)
theorem U14_arg2 (c : Dev nD) : U14 m c main_arg2 = m ((c : Thread nD τ).loc main_arg2) :=
  U14_of m c main_arg2 (by decide) (by decide) (by decide) (by decide) (by decide) (by decide) (by decide) (by decide) (by decide) (by decide) (by decide) (by decide) (by decide) (by decide)
theorem U14_arg3 (c : Dev nD) : U14 m c main_arg3 = m ((c : Thread nD τ).loc main_arg3) :=
  U14_of m c main_arg3 (by decide) (by decide) (by decide) (by decide) (by decide) (by decide) (by decide) (by decide) (by decide) (by decide) (by decide) (by decide) (by decide) (by decide)
theorem U14_arg4 (c : Dev nD) : U14 m c main_arg4 = m ((c : Thread nD τ).loc main_arg4) :=
  U14_of m c main_arg4 (by decide) (by decide) (by decide) (by decide) (by decide) (by decide) (by decide) (by decide) (by decide) (by decide) (by decide) (by decide) (by decide) (by decide)
theorem U14_arg5 (c : Dev nD) : U14 m c main_arg5 = m ((c : Thread nD τ).loc main_arg5) :=
  U14_of m c main_arg5 (by decide) (by decide) (by decide) (by decide) (by decide) (by decide) (by decide) (by decide) (by decide) (by decide) (by decide) (by decide) (by decide) (by decide)
theorem U14_arg6 (c : Dev nD) : U14 m c main_arg6 = m ((c : Thread nD τ).loc main_arg6) :=
  U14_of m c main_arg6 (by decide) (by decide) (by decide) (by decide) (by decide) (by decide) (by decide) (by decide) (by decide) (by decide) (by decide) (by decide) (by decide) (by decide)
theorem U14_arg7 (c : Dev nD) : U14 m c main_arg7 = m ((c : Thread nD τ).loc main_arg7) :=
  U14_of m c main_arg7 (by decide) (by decide) (by decide) (by decide) (by decide) (by decide) (by decide) (by decide) (by decide) (by decide) (by decide) (by decide) (by decide) (by decide)
theorem U14_arg8 (c : Dev nD) : U14 m c main_arg8 = m ((c : Thread nD τ).loc main_arg8) :=
  U14_of m c main_arg8 (by decide) (by decide) (by decide) (by decide) (by decide) (by decide) (by decide) (by decide) (by decide) (by decide) (by decide) (by decide) (by decide) (by decide)
theorem U14_arg9 (c : Dev nD) : U14 m c main_arg9 = m ((c : Thread nD τ).loc main_arg9) :=
  U14_of m c main_arg9 (by decide) (by decide) (by decide) (by decide) (by decide) (by decide) (by decide) (by decide) (by decide) (by decide) (by decide) (by decide) (by decide) (by decide)
theorem U14_arg10 (c : Dev nD) : U14 m c main_arg10 = m ((c : Thread nD τ).loc main_arg10) :=
  U14_of m c main_arg10 (by decide) (by decide) (by decide) (by decide) (by decide) (by decide) (by decide) (by decide) (by decide) (by decide) (by decide) (by decide) (by decide) (by decide)
theorem U14_arg11 (c : Dev nD) : U14 m c main_arg11 = m ((c : Thread nD τ).loc main_arg11) :=
  U14_of m c main_arg11 (by decide) (by decide) (by decide) (by decide) (by decide) (by decide) (by decide) (by decide) (by decide) (by decide) (by decide) (by decide) (by decide) (by decide)

/-- Every weakly fair execution terminates without a fault; the result buffer ends at the pool region's
    write-back and every argument array as launched. -/
theorem run_result (ρ : Dev nD → PrngReg) : θ_run defs (onTc (τ := τ) (main (F := F))) ⟨m, fun _ => 0, ρ⟩ (fun r => ∀ c : Dev nD,
      r.2.mem ((c.tc : Thread nD τ).loc main_v133) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v133 (by decide))).trans (U14_out m c),
      (h c _ (mem_uc main_arg0 (by decide))).trans (U14_arg0 m c),
      (h c _ (mem_uc main_arg1 (by decide))).trans (U14_arg1 m c),
      (h c _ (mem_uc main_arg2 (by decide))).trans (U14_arg2 m c),
      (h c _ (mem_uc main_arg3 (by decide))).trans (U14_arg3 m c),
      (h c _ (mem_uc main_arg4 (by decide))).trans (U14_arg4 m c),
      (h c _ (mem_uc main_arg5 (by decide))).trans (U14_arg5 m c),
      (h c _ (mem_uc main_arg6 (by decide))).trans (U14_arg6 m c),
      (h c _ (mem_uc main_arg7 (by decide))).trans (U14_arg7 m c),
      (h c _ (mem_uc main_arg8 (by decide))).trans (U14_arg8 m c),
      (h c _ (mem_uc main_arg9 (by decide))).trans (U14_arg9 m c),
      (h c _ (mem_uc main_arg10 (by decide))).trans (U14_arg10 m c),
      (h c _ (mem_uc main_arg11 (by decide))).trans (U14_arg11 m c)⟩)
    (run_all m ρ)

/-- The frame: it runs to the end, faults nowhere, and leaves its argument arrays unchanged. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.Kernel.Hand

end
-- ==== Proof.KI.Combine0.lean ====
/-
  One combine step of the network, as the pipeline runs it: region 0 streams the aggregated messages and the
  destination features through 10 row blocks of 10000 rows; at each block the body reads the two row blocks, the
  two 64×64 weight matrices and the 1×64 bias row, and stores (block of messages)·Wl + (block of features)·Wr + bias
  into the output block.  This file states what every staging buffer holds before and after the body at each block
  and proves that the body, run on those contents, leaves exactly that.
-/
import proofs.«159478_j19920058318953_1_alg».proof.Proof.Gen.KernelIdeal.Launch
import proofs.«159478_j19920058318953_1_alg».proof.Proof.Gen.KernelIdeal.Skeleton
import proofs.«159478_j19920058318953_1_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows 10000·t … 10000·t+9999 of a streamed array, the whole of a
    resident one, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a resident operand is
    fetched once: its block index never moves). -/
theorem before0_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hkeep : ∀ t, (cfg0.win w).cut (cfg0.grid.coords t) (dat.after w t) = dat.blockOf w t)
    (t : Fin cfg0.N) (d) : dat.before w t d = dat.fetched w t d :=
  dat.before_in_eq_fetched w hw hlive hclip hkeep t d

abbrev rA0 : Rect S10000x64 := Rect.unit (s := S10000x64) ![0, 0] S10000x64.size inb_S10000x64_S10000x64_0_0
abbrev rW0 : Rect S64x64 := Rect.unit (s := S64x64) ![0, 0] S64x64.size inb_S64x64_S64x64_0_0
abbrev rB0 : Rect S1x64 := Rect.unit (s := S1x64) ![0, 0] S1x64.size inb_S1x64_S1x64_0_0

/-- What the body leaves in the output block: its one store, of the combine of the five input blocks. -/
def out0_5 (x0 x1 : Vec F S10000x64 .f32) (x2 x3 : Vec F S64x64 .f32) (x4 : Vec F S1x64 .f32) : Vec F S10000x64 .f32 :=
  View.canon [⟨rA0, k0_pay1 (View.ld x0 rA0) (View.ld x1 rA0) (View.ld x2 rW0) (View.ld x3 rW0) (View.ld x4 rB0)⟩]

/-- The store is of the whole block, so it covers it. -/
theorem cover0_5 (p0 : Vec F S10000x64 .f32) (y : S10000x64.Idx) :
    ∃ pc ∈ ([⟨rA0, p0⟩] : List (View.Piece (Elt F) S10000x64 .f32)), y ∈ pc.1.set :=
  View.cover_of_tiled [⟨rA0, p0⟩] S10000x64.size (by rfl) y

set_option maxHeartbeats 1000000 in
/-- The body on whole staging buffers: the five inputs at read contents `x0 … x4`, the output at anything, runs to
    the inputs as they were and the output at `out0_5` of them. -/
theorem sound_kernel0 (c : Dev nD) (E : Set ℕ) (i : grid0.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 x1 : Vec F S10000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__combine_kernel i arg1 harg1 arg2 harg2 arg3 harg3 arg4 harg4 arg5 harg5 arg6 harg6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of region 0 on core `c`: the arrays as the region finds them; after the body at block `t` each
    input's buffer still at its block and the output's at the combine of the input blocks; the invariant is the
    scoped buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  (before0_of (dat0 V c) 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  (before0_of (dat0 V c) 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  (before0_of (dat0 V c) 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  (before0_of (dat0 V c) 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  (before0_of (dat0 V c) 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-- What the body is called with at block `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every block. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Combine1.lean ====
/-
  One combine step of the network, as the pipeline runs it: region 1 streams the aggregated messages and the
  destination features through 10 row blocks of 10000 rows; at each block the body reads the two row blocks, the
  two 64×64 weight matrices and the 1×64 bias row, and stores (block of messages)·Wl + (block of features)·Wr + bias
  into the output block.  This file states what every staging buffer holds before and after the body at each block
  and proves that the body, run on those contents, leaves exactly that.
-/
import proofs.«159478_j19920058318953_1_alg».proof.Proof.Gen.KernelIdeal.Launch
import proofs.«159478_j19920058318953_1_alg».proof.Proof.Gen.KernelIdeal.Skeleton
import proofs.«159478_j19920058318953_1_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows 10000·t … 10000·t+9999 of a streamed array, the whole of a
    resident one, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (a resident operand is
    fetched once: its block index never moves). -/
theorem before1_of {c : Dev nD} (dat : Dat τ (Elt F) Unit ℕ (UR sig nD τ) ℕ cfg1 c) (w : Fin cfg1.W)
    (hw : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hkeep : ∀ t, (cfg1.win w).cut (cfg1.grid.coords t) (dat.after w t) = dat.blockOf w t)
    (t : Fin cfg1.N) (d) : dat.before w t d = dat.fetched w t d :=
  dat.before_in_eq_fetched w hw hlive hclip hkeep t d

abbrev rA1 : Rect S10000x64 := Rect.unit (s := S10000x64) ![0, 0] S10000x64.size inb_S10000x64_S10000x64_0_0
abbrev rW1 : Rect S64x64 := Rect.unit (s := S64x64) ![0, 0] S64x64.size inb_S64x64_S64x64_0_0
abbrev rB1 : Rect S1x64 := Rect.unit (s := S1x64) ![0, 0] S1x64.size inb_S1x64_S1x64_0_0

/-- What the body leaves in the output block: its one store, of the combine of the five input blocks. -/
def out1_5 (x0 x1 : Vec F S10000x64 .f32) (x2 x3 : Vec F S64x64 .f32) (x4 : Vec F S1x64 .f32) : Vec F S10000x64 .f32 :=
  View.canon [⟨rA1, k1_pay1 (View.ld x0 rA1) (View.ld x1 rA1) (View.ld x2 rW1) (View.ld x3 rW1) (View.ld x4 rB1)⟩]

/-- The store is of the whole block, so it covers it. -/
theorem cover1_5 (p0 : Vec F S10000x64 .f32) (y : S10000x64.Idx) :
    ∃ pc ∈ ([⟨rA1, p0⟩] : List (View.Piece (Elt F) S10000x64 .f32)), y ∈ pc.1.set :=
  View.cover_of_tiled [⟨rA1, p0⟩] S10000x64.size (by rfl) y

set_option maxHeartbeats 1000000 in
/-- The body on whole staging buffers: the five inputs at read contents `x0 … x4`, the output at anything, runs to
    the inputs as they were and the output at `out1_5` of them. -/
theorem sound_kernel1 (c : Dev nD) (E : Set ℕ) (i : grid1.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 x1 : Vec F S10000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of region 1 on core `c`: the arrays as the region finds them; after the body at block `t` each
    input's buffer still at its block and the output's at the combine of the input blocks; the invariant is the
    scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  (before1_of (dat1 V c) 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  (before1_of (dat1 V c) 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  (before1_of (dat1 V c) 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  (before1_of (dat1 V c) 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  (before1_of (dat1 V c) 4 rfl (fun _ => rfl) (fun _ _ _ => rfl) (fun t => by rw [after1_4]; unfold Dat.blockOf iblk1; rw [A_eq1]; try rfl) t d).trans
    (by unfold Dat.fetched Dat.blockOf iblk1; rw [A_eq1]; try rfl)

/-- What the body is called with at block `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 1, at every block. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Combine2.lean ====
/-
  One combine step of the network, as the pipeline runs it: region 2 streams the aggregated messages and the
  destination features through 10 row blocks of 10000 rows; at each block the body reads the two row blocks, the
  two 64×64 weight matrices and the 1×64 bias row, and stores (block of messages)·Wl + (block of features)·Wr + bias
  into the output block.  This file states what every staging buffer holds before and after the body at each block
  and proves that the body, run on those contents, leaves exactly that.
-/
import proofs.«159478_j19920058318953_1_alg».proof.Proof.Gen.KernelIdeal.Launch
import proofs.«159478_j19920058318953_1_alg».proof.Proof.Gen.KernelIdeal.Skeleton
import proofs.«159478_j19920058318953_1_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows 10000·t … 10000·t+9999 of a streamed array, the whole of a
    resident one, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (a resident operand is
    fetched once: its block index never moves). -/
theorem before2_of {c : Dev nD} (dat : Dat τ (Elt F) Unit ℕ (UR sig nD τ) ℕ cfg2 c) (w : Fin cfg2.W)
    (hw : (cfg2.win w).isOut = false) (hlive : ∀ i, cfg2.idle w i = false)
    (hclip : ∀ t t' : Fin cfg2.N, (cfg2.win w).index t = (cfg2.win w).index t' →
      (cfg2.win w).clip (cfg2.grid.coords t) = (cfg2.win w).clip (cfg2.grid.coords t'))
    (hkeep : ∀ t, (cfg2.win w).cut (cfg2.grid.coords t) (dat.after w t) = dat.blockOf w t)
    (t : Fin cfg2.N) (d) : dat.before w t d = dat.fetched w t d :=
  dat.before_in_eq_fetched w hw hlive hclip hkeep t d

abbrev rA2 : Rect S10000x64 := Rect.unit (s := S10000x64) ![0, 0] S10000x64.size inb_S10000x64_S10000x64_0_0
abbrev rW2 : Rect S64x64 := Rect.unit (s := S64x64) ![0, 0] S64x64.size inb_S64x64_S64x64_0_0
abbrev rB2 : Rect S1x64 := Rect.unit (s := S1x64) ![0, 0] S1x64.size inb_S1x64_S1x64_0_0

/-- What the body leaves in the output block: its one store, of the combine of the five input blocks. -/
def out2_5 (x0 x1 : Vec F S10000x64 .f32) (x2 x3 : Vec F S64x64 .f32) (x4 : Vec F S1x64 .f32) : Vec F S10000x64 .f32 :=
  View.canon [⟨rA2, k2_pay1 (View.ld x0 rA2) (View.ld x1 rA2) (View.ld x2 rW2) (View.ld x3 rW2) (View.ld x4 rB2)⟩]

/-- The store is of the whole block, so it covers it. -/
theorem cover2_5 (p0 : Vec F S10000x64 .f32) (y : S10000x64.Idx) :
    ∃ pc ∈ ([⟨rA2, p0⟩] : List (View.Piece (Elt F) S10000x64 .f32)), y ∈ pc.1.set :=
  View.cover_of_tiled [⟨rA2, p0⟩] S10000x64.size (by rfl) y

set_option maxHeartbeats 1000000 in
/-- The body on whole staging buffers: the five inputs at read contents `x0 … x4`, the output at anything, runs to
    the inputs as they were and the output at `out2_5` of them. -/
theorem sound_kernel2 (c : Dev nD) (E : Set ℕ) (i : grid2.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 x1 : Vec F S10000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__combine_kernel i arg1 harg1 arg2 harg2 arg3 harg3 arg4 harg4 arg5 harg5 arg6 harg6) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of region 2 on core `c`: the arrays as the region finds them; after the body at block `t` each
    input's buffer still at its block and the output's at the combine of the input blocks; the invariant is the
    scoped buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  (before2_of (dat2 V c) 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  (before2_of (dat2 V c) 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  (before2_of (dat2 V c) 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  (before2_of (dat2 V c) 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  (before2_of (dat2 V c) 4 rfl (fun _ => rfl) (fun _ _ _ => rfl) (fun t => by rw [after2_4]; unfold Dat.blockOf iblk2; rw [A_eq2]; try rfl) t d).trans
    (by unfold Dat.fetched Dat.blockOf iblk2; rw [A_eq2]; try rfl)

/-- What the body is called with at block `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 2, at every block. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Combine3.lean ====
/-
  One combine step of the network, as the pipeline runs it: region 3 streams the aggregated messages and the
  destination features through 10 row blocks of 10000 rows; at each block the body reads the two row blocks, the
  two 64×64 weight matrices and the 1×64 bias row, and stores (block of messages)·Wl + (block of features)·Wr + bias
  into the output block.  This file states what every staging buffer holds before and after the body at each block
  and proves that the body, run on those contents, leaves exactly that.
-/
import proofs.«159478_j19920058318953_1_alg».proof.Proof.Gen.KernelIdeal.Launch
import proofs.«159478_j19920058318953_1_alg».proof.Proof.Gen.KernelIdeal.Skeleton
import proofs.«159478_j19920058318953_1_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows 10000·t … 10000·t+9999 of a streamed array, the whole of a
    resident one, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (a resident operand is
    fetched once: its block index never moves). -/
theorem before3_of {c : Dev nD} (dat : Dat τ (Elt F) Unit ℕ (UR sig nD τ) ℕ cfg3 c) (w : Fin cfg3.W)
    (hw : (cfg3.win w).isOut = false) (hlive : ∀ i, cfg3.idle w i = false)
    (hclip : ∀ t t' : Fin cfg3.N, (cfg3.win w).index t = (cfg3.win w).index t' →
      (cfg3.win w).clip (cfg3.grid.coords t) = (cfg3.win w).clip (cfg3.grid.coords t'))
    (hkeep : ∀ t, (cfg3.win w).cut (cfg3.grid.coords t) (dat.after w t) = dat.blockOf w t)
    (t : Fin cfg3.N) (d) : dat.before w t d = dat.fetched w t d :=
  dat.before_in_eq_fetched w hw hlive hclip hkeep t d

abbrev rA3 : Rect S10000x64 := Rect.unit (s := S10000x64) ![0, 0] S10000x64.size inb_S10000x64_S10000x64_0_0
abbrev rW3 : Rect S64x64 := Rect.unit (s := S64x64) ![0, 0] S64x64.size inb_S64x64_S64x64_0_0
abbrev rB3 : Rect S1x64 := Rect.unit (s := S1x64) ![0, 0] S1x64.size inb_S1x64_S1x64_0_0

/-- What the body leaves in the output block: its one store, of the combine of the five input blocks. -/
def out3_5 (x0 x1 : Vec F S10000x64 .f32) (x2 x3 : Vec F S64x64 .f32) (x4 : Vec F S1x64 .f32) : Vec F S10000x64 .f32 :=
  View.canon [⟨rA3, k3_pay1 (View.ld x0 rA3) (View.ld x1 rA3) (View.ld x2 rW3) (View.ld x3 rW3) (View.ld x4 rB3)⟩]

/-- The store is of the whole block, so it covers it. -/
theorem cover3_5 (p0 : Vec F S10000x64 .f32) (y : S10000x64.Idx) :
    ∃ pc ∈ ([⟨rA3, p0⟩] : List (View.Piece (Elt F) S10000x64 .f32)), y ∈ pc.1.set :=
  View.cover_of_tiled [⟨rA3, p0⟩] S10000x64.size (by rfl) y

set_option maxHeartbeats 1000000 in
/-- The body on whole staging buffers: the five inputs at read contents `x0 … x4`, the output at anything, runs to
    the inputs as they were and the output at `out3_5` of them. -/
theorem sound_kernel3 (c : Dev nD) (E : Set ℕ) (i : grid3.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 x1 : Vec F S10000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__combine_kernel i arg1 harg1 arg2 harg2 arg3 harg3 arg4 harg4 arg5 harg5 arg6 harg6) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of region 3 on core `c`: the arrays as the region finds them; after the body at block `t` each
    input's buffer still at its block and the output's at the combine of the input blocks; the invariant is the
    scoped buffers no window stages and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  (before3_of (dat3 V c) 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  (before3_of (dat3 V c) 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  (before3_of (dat3 V c) 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  (before3_of (dat3 V c) 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  (before3_of (dat3 V c) 4 rfl (fun _ => rfl) (fun _ _ _ => rfl) (fun t => by rw [after3_4]; unfold Dat.blockOf iblk3; rw [A_eq3]; try rfl) t d).trans
    (by unfold Dat.fetched Dat.blockOf iblk3; rw [A_eq3]; try rfl)

/-- What the body is called with at block `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 3, at every block. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Combine4.lean ====
/-
  One combine step of the network, as the pipeline runs it: region 4 streams the aggregated messages and the
  destination features through 10 row blocks of 10000 rows; at each block the body reads the two row blocks, the
  two 64×64 weight matrices and the 1×64 bias row, and stores (block of messages)·Wl + (block of features)·Wr + bias
  into the output block.  This file states what every staging buffer holds before and after the body at each block
  and proves that the body, run on those contents, leaves exactly that.
-/
import proofs.«159478_j19920058318953_1_alg».proof.Proof.Gen.KernelIdeal.Launch
import proofs.«159478_j19920058318953_1_alg».proof.Proof.Gen.KernelIdeal.Skeleton
import proofs.«159478_j19920058318953_1_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows 10000·t … 10000·t+9999 of a streamed array, the whole of a
    resident one, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not (a resident operand is
    fetched once: its block index never moves). -/
theorem before4_of {c : Dev nD} (dat : Dat τ (Elt F) Unit ℕ (UR sig nD τ) ℕ cfg4 c) (w : Fin cfg4.W)
    (hw : (cfg4.win w).isOut = false) (hlive : ∀ i, cfg4.idle w i = false)
    (hclip : ∀ t t' : Fin cfg4.N, (cfg4.win w).index t = (cfg4.win w).index t' →
      (cfg4.win w).clip (cfg4.grid.coords t) = (cfg4.win w).clip (cfg4.grid.coords t'))
    (hkeep : ∀ t, (cfg4.win w).cut (cfg4.grid.coords t) (dat.after w t) = dat.blockOf w t)
    (t : Fin cfg4.N) (d) : dat.before w t d = dat.fetched w t d :=
  dat.before_in_eq_fetched w hw hlive hclip hkeep t d

abbrev rA4 : Rect S10000x64 := Rect.unit (s := S10000x64) ![0, 0] S10000x64.size inb_S10000x64_S10000x64_0_0
abbrev rW4 : Rect S64x64 := Rect.unit (s := S64x64) ![0, 0] S64x64.size inb_S64x64_S64x64_0_0
abbrev rB4 : Rect S1x64 := Rect.unit (s := S1x64) ![0, 0] S1x64.size inb_S1x64_S1x64_0_0

/-- What the body leaves in the output block: its one store, of the combine of the five input blocks. -/
def out4_5 (x0 x1 : Vec F S10000x64 .f32) (x2 x3 : Vec F S64x64 .f32) (x4 : Vec F S1x64 .f32) : Vec F S10000x64 .f32 :=
  View.canon [⟨rA4, k4_pay1 (View.ld x0 rA4) (View.ld x1 rA4) (View.ld x2 rW4) (View.ld x3 rW4) (View.ld x4 rB4)⟩]

/-- The store is of the whole block, so it covers it. -/
theorem cover4_5 (p0 : Vec F S10000x64 .f32) (y : S10000x64.Idx) :
    ∃ pc ∈ ([⟨rA4, p0⟩] : List (View.Piece (Elt F) S10000x64 .f32)), y ∈ pc.1.set :=
  View.cover_of_tiled [⟨rA4, p0⟩] S10000x64.size (by rfl) y

set_option maxHeartbeats 1000000 in
/-- The body on whole staging buffers: the five inputs at read contents `x0 … x4`, the output at anything, runs to
    the inputs as they were and the output at `out4_5` of them. -/
theorem sound_kernel4 (c : Dev nD) (E : Set ℕ) (i : grid4.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 x1 : Vec F S10000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E (cc4__combine_kernel i arg1 harg1 arg2 harg2 arg3 harg3 arg4 harg4 arg5 harg5 arg6 harg6) K := by
  simp only [cc4__combine_kernel_eq_skeleton]; unfold cc4__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of region 4 on core `c`: the arrays as the region finds them; after the body at block `t` each
    input's buffer still at its block and the output's at the combine of the input blocks; the invariant is the
    scoped buffers no window stages and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  (before4_of (dat4 V c) 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  (before4_of (dat4 V c) 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  (before4_of (dat4 V c) 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  (before4_of (dat4 V c) 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  (before4_of (dat4 V c) 4 rfl (fun _ => rfl) (fun _ _ _ => rfl) (fun t => by rw [after4_4]; unfold Dat.blockOf iblk4; rw [A_eq4]; try rfl) t d).trans
    (by unfold Dat.fetched Dat.blockOf iblk4; rw [A_eq4]; try rfl)

/-- What the body is called with at block `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 4, at every block. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Combine5.lean ====
/-
  One combine step of the network, as the pipeline runs it: region 5 streams the aggregated messages and the
  destination features through 10 row blocks of 10000 rows; at each block the body reads the two row blocks, the
  two 64×64 weight matrices and the 1×64 bias row, and stores (block of messages)·Wl + (block of features)·Wr + bias
  into the output block.  This file states what every staging buffer holds before and after the body at each block
  and proves that the body, run on those contents, leaves exactly that.
-/
import proofs.«159478_j19920058318953_1_alg».proof.Proof.Gen.KernelIdeal.Launch
import proofs.«159478_j19920058318953_1_alg».proof.Proof.Gen.KernelIdeal.Skeleton
import proofs.«159478_j19920058318953_1_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows 10000·t … 10000·t+9999 of a streamed array, the whole of a
    resident one, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, fetched there or not (a resident operand is
    fetched once: its block index never moves). -/
theorem before5_of {c : Dev nD} (dat : Dat τ (Elt F) Unit ℕ (UR sig nD τ) ℕ cfg5 c) (w : Fin cfg5.W)
    (hw : (cfg5.win w).isOut = false) (hlive : ∀ i, cfg5.idle w i = false)
    (hclip : ∀ t t' : Fin cfg5.N, (cfg5.win w).index t = (cfg5.win w).index t' →
      (cfg5.win w).clip (cfg5.grid.coords t) = (cfg5.win w).clip (cfg5.grid.coords t'))
    (hkeep : ∀ t, (cfg5.win w).cut (cfg5.grid.coords t) (dat.after w t) = dat.blockOf w t)
    (t : Fin cfg5.N) (d) : dat.before w t d = dat.fetched w t d :=
  dat.before_in_eq_fetched w hw hlive hclip hkeep t d

abbrev rA5 : Rect S10000x64 := Rect.unit (s := S10000x64) ![0, 0] S10000x64.size inb_S10000x64_S10000x64_0_0
abbrev rW5 : Rect S64x64 := Rect.unit (s := S64x64) ![0, 0] S64x64.size inb_S64x64_S64x64_0_0
abbrev rB5 : Rect S1x64 := Rect.unit (s := S1x64) ![0, 0] S1x64.size inb_S1x64_S1x64_0_0

/-- What the body leaves in the output block: its one store, of the combine of the five input blocks. -/
def out5_5 (x0 x1 : Vec F S10000x64 .f32) (x2 x3 : Vec F S64x64 .f32) (x4 : Vec F S1x64 .f32) : Vec F S10000x64 .f32 :=
  View.canon [⟨rA5, k5_pay1 (View.ld x0 rA5) (View.ld x1 rA5) (View.ld x2 rW5) (View.ld x3 rW5) (View.ld x4 rB5)⟩]

/-- The store is of the whole block, so it covers it. -/
theorem cover5_5 (p0 : Vec F S10000x64 .f32) (y : S10000x64.Idx) :
    ∃ pc ∈ ([⟨rA5, p0⟩] : List (View.Piece (Elt F) S10000x64 .f32)), y ∈ pc.1.set :=
  View.cover_of_tiled [⟨rA5, p0⟩] S10000x64.size (by rfl) y

set_option maxHeartbeats 1000000 in
/-- The body on whole staging buffers: the five inputs at read contents `x0 … x4`, the output at anything, runs to
    the inputs as they were and the output at `out5_5` of them. -/
theorem sound_kernel5 (c : Dev nD) (E : Set ℕ) (i : grid5.Coords)
    (arg1 : Memref sig .tc .vmem S10000x64 .f32) (harg1 : arg1.IsWhole) (arg2 : Memref sig .tc .vmem S10000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S10000x64 .f32) (harg6 : arg6.IsWhole)
    (x0 x1 : Vec F S10000x64 .f32) (x2 x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__combine_kernel i arg1 harg1 arg2 harg2 arg3 harg3 arg4 harg4 arg5 harg5 arg6 harg6) K := by
  simp only [cc5__combine_kernel_eq_skeleton]; unfold cc5__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of region 5 on core `c`: the arrays as the region finds them; after the body at block `t` each
    input's buffer still at its block and the output's at the combine of the input blocks; the invariant is the
    scoped buffers no window stages and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  (before5_of (dat5 V c) 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  (before5_of (dat5 V c) 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  (before5_of (dat5 V c) 2 rfl (fun _ => rfl) (fun _ _ _ => rfl) (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  (before5_of (dat5 V c) 3 rfl (fun _ => rfl) (fun _ _ _ => rfl) (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  (before5_of (dat5 V c) 4 rfl (fun _ => rfl) (fun _ _ _ => rfl) (fun t => by rw [after5_4]; unfold Dat.blockOf iblk5; rw [A_eq5]; try rfl) t d).trans
    (by unfold Dat.fetched Dat.blockOf iblk5; rw [A_eq5]; try rfl)

/-- What the body is called with at block `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 5, at every block. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Pool.lean ====
/-
  The pooling step of the network, as the pipeline runs it: region 6 streams the two node-feature arrays through
  10 row blocks of 10000 rows.  A 1×64 scratch row carries the running column sums: at the first block it is set
  to zero, at every block the column sums of the two row blocks are added to it, and at the last block the body
  multiplies the finished row by the 64×1 weight column, adds the 1×1 bias and stores the 1×1 result.  This file
  states what every staging buffer and the scratch row hold before and after the body at each block, proves that
  the body, run on those contents, leaves exactly that, and says how the invariant is entered and left.
-/
import proofs.«159478_j19920058318953_1_alg».proof.Proof.Gen.KernelIdeal.Launch
import proofs.«159478_j19920058318953_1_alg».proof.Proof.Gen.KernelIdeal.Skeleton
import proofs.«159478_j19920058318953_1_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows 10000·t … 10000·t+9999 of a streamed array, the whole of a
    resident one, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's staging buffer holds its block at every point, fetched there or not (a resident operand is
    fetched once: its block index never moves). -/
theorem before6_of {c : Dev nD} (dat : Dat τ (Elt F) Unit ℕ (UR sig nD τ) ℕ cfg6 c) (w : Fin cfg6.W)
    (hw : (cfg6.win w).isOut = false) (hlive : ∀ i, cfg6.idle w i = false)
    (hclip : ∀ t t' : Fin cfg6.N, (cfg6.win w).index t = (cfg6.win w).index t' →
      (cfg6.win w).clip (cfg6.grid.coords t) = (cfg6.win w).clip (cfg6.grid.coords t'))
    (hkeep : ∀ t, (cfg6.win w).cut (cfg6.grid.coords t) (dat.after w t) = dat.blockOf w t)
    (t : Fin cfg6.N) (d) : dat.before w t d = dat.fetched w t d :=
  dat.before_in_eq_fetched w hw hlive hclip hkeep t d

/-! ## The two conditionals, over the grid -/

/-- The first conditional's condition: the block is the first. -/
abbrev cond6_1 (i : grid6.Coords) : Prop := (Scalar.cmpi .ne (Scalar.extui (Scalar.cmpi .eq (BitVec.ofNat 32 (i 0).val) 0#32)) 0#32) = 1#1

/-- It holds at block 0 only. -/
theorem hcond6_1 : ∀ t : Fin cfg6.N, cond6_1 (grid6.coords t) ↔ t.val = 0 :=
  (by decide +kernel : ∀ t : Fin grid6.N, cond6_1 (grid6.coords t) ↔ t.val = 0)

/-- The second conditional's condition (the block is the last) holds at block 9 only. -/
theorem hcond6_2 : ∀ t : Fin cfg6.N, k6_cond2 (grid6.coords t) = 1#1 ↔ t.val = 9 :=
  (by decide +kernel : ∀ t : Fin grid6.N, k6_cond2 (grid6.coords t) = 1#1 ↔ t.val = 9)

/-- The output window is idle at every block but the last. -/
theorem idle6_4 : ∀ t : Fin cfg6.N, cfg6.idle 4 (cfg6.grid.coords t) = !decide (t.val = 9) :=
  (by decide +kernel : ∀ t : Fin grid6.N, idle6 4 (grid6.coords t) = !decide (t.val = 9))

/-! ## Whole-buffer loads and stores -/

/-- Both offsets of a whole-buffer access are zero. -/
theorem off6_zero : (![0, 0] : Fin 2 → ℕ) = fun _ => 0 := by
  funext a; fin_cases a <;> rfl

section Whole

variable {κ : Kind} {sp : Space} {S : Shape} {e : EltTy}

/-- A load of the whole buffer reads its contents. -/
theorem readAt_full (v : View sig κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  (View.readAt_eq_ld v f _).trans (View.ld_unit_zero h inb _)

/-- A store of the whole buffer, the last of a run, leaves its payload there whatever the earlier stores were. -/
theorem read_writes_full (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

end Whole

/-- The payloads respect equality of their arguments. -/
theorem pay2_congr6 {a a' : Vec F S1x64 .f32} {x x' y y' : Vec F S10000x64 .f32} (ha : a = a') (hx : x = x') (hy : y = y') :
    k6_pay2 a x y = k6_pay2 a' x' y' := by subst ha; subst hx; subst hy; rfl
theorem pay3_congr6 {a a' : Vec F S1x64 .f32} {w w' : Vec F S64x1 .f32} {b b' : Vec F S1x1 .f32} (ha : a = a') (hw : w = w') (hb : b = b') :
    k6_pay3 a w b = k6_pay3 a' w' b' := by subst ha; subst hw; subst hb; rfl

/-! ## The body's three runs -/

set_option maxHeartbeats 1000000 in
/-- At the FIRST block (the first conditional taken, the second not): the scratch row, whatever it held, is set to
    zero and the two blocks' column sums are added: it ends at `k6_pay2 k6_pay1 x1 x2`.  The streamed blocks are
    left as they were; the other buffers are not touched. -/
theorem sound_kernel6_first (c : Dev nD) (E : Set ℕ) (i : grid6.Coords)
    (arg1 : Memref sig .tc .vmem S10000x64 .f32) (harg1 : arg1.IsWhole) (arg2 : Memref sig .tc .vmem S10000x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x64 .f32) (harg6 : arg6.IsWhole)
    (hc1 : cond6_1 i) (hc2 : ¬k6_cond2 i = 1#1)
    (x1 x2 : Vec F S10000x64 .f32) (K : PUnit → sProp 𝕄) :
    iprop(owns (c : Thread nD τ) arg1 fullShare x1 ∗ owns (c : Thread nD τ) arg2 fullShare x2
        ∗ (∃ d, owns (c : Thread nD τ) arg6 fullShare d)
        ∗ (iprop(owns (c : Thread nD τ) arg1 fullShare x1 ∗ owns (c : Thread nD τ) arg2 fullShare x2
            ∗ owns (c : Thread nD τ) arg6 fullShare (k6_pay2 k6_pay1 x1 x2)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f1, %hf1, H1⟩, ⟨%f2, %hf2, H2⟩, ⟨%d6, %f6, -, H6⟩, Hk⟩
  subst hf1; subst hf2
  sl_exec (disch := first | exact hc1 | exact hc2)
  sl_step
  iapply Hk
  isplitl [H1]
  · iexists f1; isplitr; · ipureintro; rfl
    iexact H1
  isplitl [H2]
  · iexists f2; isplitr; · ipureintro; rfl
    iexact H2
  iexists _; isplitr
  swap; · iexact H6
  ipureintro
  sl_unfold_run_names
  exact (read_writes_full _ _ off6_zero _ _ _).trans
    (pay2_congr6 (View.readCov_unit_zero _ off6_zero _ _) (readAt_full _ _ off6_zero _) (readAt_full _ _ off6_zero _))

set_option maxHeartbeats 1000000 in
/-- At a MIDDLE block (neither conditional taken): the scratch row at `a` ends at `k6_pay2 a x1 x2`. -/
theorem sound_kernel6_mid (c : Dev nD) (E : Set ℕ) (i : grid6.Coords)
    (arg1 : Memref sig .tc .vmem S10000x64 .f32) (harg1 : arg1.IsWhole) (arg2 : Memref sig .tc .vmem S10000x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x64 .f32) (harg6 : arg6.IsWhole)
    (hc1 : ¬cond6_1 i) (hc2 : ¬k6_cond2 i = 1#1)
    (x1 x2 : Vec F S10000x64 .f32) (a : Vec F S1x64 .f32) (K : PUnit → sProp 𝕄) :
    iprop(owns (c : Thread nD τ) arg1 fullShare x1 ∗ owns (c : Thread nD τ) arg2 fullShare x2
        ∗ owns (c : Thread nD τ) arg6 fullShare a
        ∗ (iprop(owns (c : Thread nD τ) arg1 fullShare x1 ∗ owns (c : Thread nD τ) arg2 fullShare x2
            ∗ owns (c : Thread nD τ) arg6 fullShare (k6_pay2 a x1 x2)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f1, %hf1, H1⟩, ⟨%f2, %hf2, H2⟩, ⟨%f6, %hf6, H6⟩, Hk⟩
  subst hf1; subst hf2; subst hf6
  sl_exec (disch := first | exact hc1 | exact hc2)
  sl_step
  iapply Hk
  isplitl [H1]
  · iexists f1; isplitr; · ipureintro; rfl
    iexact H1
  isplitl [H2]
  · iexists f2; isplitr; · ipureintro; rfl
    iexact H2
  iexists _; isplitr
  swap; · iexact H6
  ipureintro
  sl_unfold_run_names
  exact (read_writes_full _ _ off6_zero _ _ _).trans
    (pay2_congr6 (readAt_full _ _ off6_zero _) (readAt_full _ _ off6_zero _) (readAt_full _ _ off6_zero _))

set_option maxHeartbeats 1000000 in
/-- At the LAST block (the second conditional taken): the scratch row at `a` ends at `k6_pay2 a x1 x2`, and the
    output buffer, whatever it held, at that row times the weight column plus the bias. -/
theorem sound_kernel6_last (c : Dev nD) (E : Set ℕ) (i : grid6.Coords)
    (arg1 : Memref sig .tc .vmem S10000x64 .f32) (harg1 : arg1.IsWhole) (arg2 : Memref sig .tc .vmem S10000x64 .f32) (harg2 : arg2.IsWhole)
    (arg3 : Memref sig .tc .vmem S64x1 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x64 .f32) (harg6 : arg6.IsWhole)
    (hc1 : ¬cond6_1 i) (hc2 : k6_cond2 i = 1#1)
    (x1 x2 : Vec F S10000x64 .f32) (x3 : Vec F S64x1 .f32) (x4 : Vec F S1x1 .f32) (a : Vec F S1x64 .f32) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d) ∗ owns (c : Thread nD τ) arg6 fullShare a
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (k6_pay3 (k6_pay2 a x1 x2) x3 x4)
            ∗ owns (c : Thread nD τ) arg6 fullShare (k6_pay2 a x1 x2)) -∗ K ⟨⟩))
      ⊢ wp frame (wpE (defs₀ (F := F)) Variants.none c none) E (cc6__pool_kernel i arg1 harg1 arg2 harg2 arg3 harg3 arg4 harg4 arg5 harg5 arg6 harg6) K := by
  simp only [cc6__pool_kernel_eq_skeleton]; unfold cc6__pool_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1; subst hf2; subst hf3; subst hf4; subst hf6
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    exact (read_writes_full _ _ off6_zero _ _ _).trans
      (pay3_congr6 ((View.readCov_unit_zero _ off6_zero _ _).trans
          (pay2_congr6 (readAt_full _ _ off6_zero _) (readAt_full _ _ off6_zero _) (readAt_full _ _ off6_zero _)))
        (readAt_full _ _ off6_zero _) (readAt_full _ _ off6_zero _))
  iexists _; isplitr
  swap; · iexact H6
  ipureintro
  sl_unfold_run_names
  exact (read_writes_full _ _ off6_zero _ _ _).trans
    (pay2_congr6 (readAt_full _ _ off6_zero _) (readAt_full _ _ off6_zero _) (readAt_full _ _ off6_zero _))

/-! ## The running column sums -/

/-- The scratch row after the first `n` blocks: zero before any, then at each block the row so far plus the column
    sums of the block's rows of the two node arrays. -/
def acc6 (c : Dev nD) : ℕ → Vec F S1x64 .f32
  | 0 => k6_pay1
  | n + 1 => if h : n < cfg6.N then k6_pay2 (acc6 c n) (iblk6 V c 0 ⟨n, h⟩) (iblk6 V c 1 ⟨n, h⟩) else acc6 c n

theorem acc6_zero (c : Dev nD) : acc6 V c 0 = k6_pay1 := rfl

/-- One step of the running sums, at block `t`. -/
theorem acc6_succ (c : Dev nD) (t : Fin cfg6.N) :
    acc6 V c (t.val + 1) = k6_pay2 (acc6 V c t.val) (iblk6 V c 0 t) (iblk6 V c 1 t) := by
  rw [acc6, dif_pos t.isLt]

/-! ## The invariant: the scratch row between blocks -/

/-- The scratch row's buffer, whole, as the pipeline hands it to the body. -/
abbrev scr6 : Memref sig .tc .vmem S1x64 .f32 := Memref.whole cc6_scratch0

/-- The scratch row before block `n`: anything before the first block, the running sums after it. -/
def scrAt6 (c : Dev nD) : ℕ → sProp 𝕄
  | 0 => iprop(∃ d, owns (c : Thread nD τ) scr6 fullShare d)
  | n + 1 => owns (c : Thread nD τ) scr6 fullShare (acc6 V c (n + 1))

theorem scrAt6_zero (c : Dev nD) : scrAt6 V c 0 = iprop(∃ d, owns (c : Thread nD τ) scr6 fullShare d) := rfl
theorem scrAt6_succ (c : Dev nD) (n : ℕ) : scrAt6 V c (n + 1) = owns (c : Thread nD τ) scr6 fullShare (acc6 V c (n + 1)) := rfl
theorem scrAt6_pos (c : Dev nD) (n : ℕ) (h : n ≠ 0) : scrAt6 V c n = owns (c : Thread nD τ) scr6 fullShare (acc6 V c n) := by
  cases n with
  | zero => exact absurd rfl h
  | succ n => rfl

/-- The invariant before block `n`: every scoped buffer no window stages other than the scratch row, at some
    contents; the generator register at some state; the scratch row as `scrAt6` says. -/
def ΦN6 (c : Dev nD) (n : ℕ) : sProp 𝕄 :=
  iprop(Pipeline.scopedRestBut (Ix := Unit) (Name := ℕ) (U := UR sig nD τ) (Lvl := ℕ) (Val := Elt F) spec6 c [cc6_scratch0]
    ∗ (∃ r, prngReg c r) ∗ scrAt6 V c n)

/-! ## The proof data -/

/-- The proof data of region 6 on core `c`: the arrays as the region finds them; after the body at block `t` each
    input's buffer still at its block, and the output's (stored at the last block only) at the finished row times the
    weight column plus the bias; the invariant above; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => k6_pay3 (acc6 V c (t.val + 1)) (iblk6 V c 2 t) (iblk6 V c 3 t)
  Φ t := ΦN6 V c t.val
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t
    = k6_pay3 (acc6 V c (t.val + 1)) (iblk6 V c 2 t) (iblk6 V c 3 t) := by dsimp only [dat6]

/-- What the output window holds after the last block: the ten blocks' running sums, times the weight column, plus
    the bias. -/
theorem after6_4_last (c : Dev nD) (t : Fin cfg6.N) (h : t.val = 9) : (dat6 V c).after 4 t
    = k6_pay3 (acc6 V c 10) (iblk6 V c 2 t) (iblk6 V c 3 t) := by
  rw [after6_4, h]

theorem Φ6_castSucc (c : Dev nD) (t : Fin cfg6.N) : (dat6 V c).Φ t.castSucc = ΦN6 V c t.val := rfl
theorem Φ6_succ (c : Dev nD) (t : Fin cfg6.N) : (dat6 V c).Φ t.succ = ΦN6 V c (t.val + 1) := rfl

theorem before6_0 (c : Dev nD) (t : Fin cfg6.N) (d) : (dat6 V c).before 0 t d = iblk6 V c 0 t :=
  (before6_of (dat6 V c) 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  (before6_of (dat6 V c) 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  (before6_of (dat6 V c) 2 rfl (fun _ => rfl) (fun _ _ _ => rfl) (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  (before6_of (dat6 V c) 3 rfl (fun _ => rfl) (fun _ _ _ => rfl) (fun t => by rw [after6_3]; unfold Dat.blockOf iblk6; rw [A_eq6]; try rfl) t d).trans
    (by unfold Dat.fetched Dat.blockOf iblk6; rw [A_eq6]; try rfl)

/-! ## The body obligation -/

/-- What the body is called with at block `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- what it returns of the output's buffer: where the window is idle and the block is not written back (every block
    but the last) the buffer as it was handed it, else the result; -/
def oPost6 (c : Dev nD) (t : Fin cfg6.N) : sProp 𝕄 :=
  match cfg6.idle 4 (cfg6.grid.coords t) with
  | true =>
    match (cfg6.win 4).flush t with
    | false => iprop(∃ d, owns (c : Thread nD τ) (st6_4 t) fullShare ((dat6 V c).before 4 t d))
    | true => owns (c : Thread nD τ) (st6_4 t) fullShare ((dat6 V c).after 4 t)
  | false => owns (c : Thread nD τ) (st6_4 t) fullShare ((dat6 V c).after 4 t)

/-- and all it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ oPost6 V c t)

/-- Before the last block the output's buffer is handed back as found; -/
theorem oPost6_idle (c : Dev nD) (t : Fin cfg6.N) (h : t.val ≠ 9) :
    oPost6 V c t = iprop(∃ d, owns (c : Thread nD τ) (st6_4 t) fullShare ((dat6 V c).before 4 t d)) := by
  have hN : t.val < 10 := lt_of_lt_of_eq t.isLt (show cfg6.N = 10 from N_6)
  have hi : cfg6.idle 4 (cfg6.grid.coords t) = true := by rw [idle6_4, decide_eq_false h]; rfl
  have hf : (cfg6.win 4).flush t = false :=
    Bool.eq_false_iff.mpr fun hh => by have := (flush6_4 t).mp hh; omega
  unfold oPost6; rw [hi, hf]

/-- at the last it holds the result. -/
theorem oPost6_last (c : Dev nD) (t : Fin cfg6.N) (h : t.val = 9) :
    oPost6 V c t = owns (c : Thread nD τ) (st6_4 t) fullShare ((dat6 V c).after 4 t) := by
  have hi : cfg6.idle 4 (cfg6.grid.coords t) = false := by rw [idle6_4, decide_eq_true h]; rfl
  unfold oPost6; rw [hi]

set_option maxHeartbeats 1000000 in
/-- The body at any block: the inputs' buffers hold their blocks; the block's number says which of the three runs
    applies; the scratch row goes from the running sums so far to the next; the output's buffer is handed back as
    found, or at the last block filled; the rest of the invariant and what the core owes pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl,
    after6_0, after6_1, after6_2, after6_3, Φ6_castSucc, Φ6_succ]
  unfold ΦN6
  rw [scrAt6_succ, acc6_succ V c t]
  have hN : t.val < 10 := lt_of_lt_of_eq t.isLt (show cfg6.N = 10 from N_6)
  by_cases h0 : t.val = 0
  · -- the first block
    have h9 : t.val ≠ 9 := by omega
    have hc1 : cond6_1 (grid6.coords t) := (hcond6_1 t).mpr h0
    have hc2 : ¬k6_cond2 (grid6.coords t) = 1#1 := fun h => h9 ((hcond6_2 t).mp h)
    have hs : scrAt6 V c t.val = iprop(∃ d, owns (c : Thread nD τ) scr6 fullShare d) := by rw [h0]; rfl
    have ha : acc6 V c t.val = k6_pay1 := by rw [h0]; rfl
    rw [oPost6_idle V c t h9, hs, ha]
    iintro ⟨⟨Hrest, Hp, Hs⟩, Ho, ⟨%d0, H0⟩, ⟨%d1, H1⟩, ⟨%d2, H2⟩, ⟨%d3, H3⟩, H4⟩
    iapply (sound_kernel6_first c Set.univ _ _ _ _ _ _ _ _ _ _ _ _ _ hc1 hc2 (iblk6 V c 0 t) (iblk6 V c 1 t) _)
    isplitl [H0]; · iexact H0
    isplitl [H1]; · iexact H1
    isplitl [Hs]; · iexact Hs
    iintro ⟨H0, H1, Hs⟩
    isplitl [Hrest Hp Hs]
    · isplitl [Hrest]; · iexact Hrest
      isplitl [Hp]; · iexact Hp
      iexact Hs
    isplitl [Ho]; · iexact Ho
    isplitl [H0]; · iexact H0
    isplitl [H1]; · iexact H1
    isplitl [H2]; · iexact H2
    isplitl [H3]; · iexact H3
    iexact H4
  · have hc1 : ¬cond6_1 (grid6.coords t) := fun h => h0 ((hcond6_1 t).mp h)
    rw [scrAt6_pos V c t.val h0]
    by_cases h9 : t.val = 9
    · -- the last block
      have hc2 : k6_cond2 (grid6.coords t) = 1#1 := (hcond6_2 t).mpr h9
      rw [oPost6_last V c t h9, after6_4, acc6_succ V c t]
      iintro ⟨⟨Hrest, Hp, Hs⟩, Ho, ⟨%d0, H0⟩, ⟨%d1, H1⟩, ⟨%d2, H2⟩, ⟨%d3, H3⟩, ⟨%d4, H4⟩⟩
      iapply (sound_kernel6_last c Set.univ _ _ _ _ _ _ _ _ _ _ _ _ _ hc1 hc2 (iblk6 V c 0 t) (iblk6 V c 1 t)
        (iblk6 V c 2 t) (iblk6 V c 3 t) (acc6 V c t.val) _)
      isplitl [H0]; · iexact H0
      isplitl [H1]; · iexact H1
      isplitl [H2]; · iexact H2
      isplitl [H3]; · iexact H3
      isplitl [H4]; · iexists _; iexact H4
      isplitl [Hs]; · iexact Hs
      iintro ⟨H0, H1, H2, H3, H4, Hs⟩
      isplitl [Hrest Hp Hs]
      · isplitl [Hrest]; · iexact Hrest
        isplitl [Hp]; · iexact Hp
        iexact Hs
      isplitl [Ho]; · iexact Ho
      isplitl [H0]; · iexact H0
      isplitl [H1]; · iexact H1
      isplitl [H2]; · iexact H2
      isplitl [H3]; · iexact H3
      iexact H4
    · -- a middle block
      have hc2 : ¬k6_cond2 (grid6.coords t) = 1#1 := fun h => h9 ((hcond6_2 t).mp h)
      rw [oPost6_idle V c t h9]
      iintro ⟨⟨Hrest, Hp, Hs⟩, Ho, ⟨%d0, H0⟩, ⟨%d1, H1⟩, ⟨%d2, H2⟩, ⟨%d3, H3⟩, H4⟩
      iapply (sound_kernel6_mid c Set.univ _ _ _ _ _ _ _ _ _ _ _ _ _ hc1 hc2 (iblk6 V c 0 t) (iblk6 V c 1 t) (acc6 V c t.val) _)
      isplitl [H0]; · iexact H0
      isplitl [H1]; · iexact H1
      isplitl [Hs]; · iexact Hs
      iintro ⟨H0, H1, Hs⟩
      isplitl [Hrest Hp Hs]
      · isplitl [Hrest]; · iexact Hrest
        isplitl [Hp]; · iexact Hp
        iexact Hs
      isplitl [Ho]; · iexact Ho
      isplitl [H0]; · iexact H0
      isplitl [H1]; · iexact H1
      isplitl [H2]; · iexact H2
      isplitl [H3]; · iexact H3
      iexact H4

/-- The body obligation of region 6, at every block. -/
theorem body_obligation6 (c : Dev nD) : BodyObligation (dat6 (F := F) V c) (defs₀ (F := F)) Variants.none () Set.univ := fun t => by
  rw [bigSep_W6, bigSep_W6]
  exact sound_body6 V c t

/-! ## Entering and leaving the invariant -/

/-- What the region's entry hands the invariant: the generator register, and of the scoped buffers no window stages
    the scratch row at whatever it holds and the others unopened. -/
theorem hin6 (c : Dev nD) :
    iprop((∃ r, prngReg c r) ∗ Pipeline.prefHeld (pcfgs (F := F) 6).pre c (fun _ => fullShare) ((cfgs 6).toPCfg_adm).1
      ∗ Pipeline.scopedRest spec6 c) ⊢ ((dat6 V c).Φ 0 : sProp 𝕄) := by
  rw [show (dat6 V c).Φ 0 = ΦN6 V c 0 from rfl]; unfold ΦN6
  rw [scrAt6_zero, scopedRest6_split]
  iintro ⟨Hp, -, ⟨%f, Hs⟩, Hr⟩
  isplitl [Hr]; · iexact Hr
  isplitl [Hp]; · iexact Hp
  iexists f; rw [owns_whole]; iexact Hs

/-- And what it gives back after the last block: the same, the scratch row at the finished sums. -/
theorem hout6 (c : Dev nD) :
    (dat6 V c).Φ (Fin.last cfg6.N) ⊢ (iprop((∃ r, prngReg c r) ∗ Pipeline.scopedRest spec6 c) : sProp 𝕄) := by
  rw [show (dat6 V c).Φ (Fin.last cfg6.N) = ΦN6 V c cfg6.N from rfl]; unfold ΦN6
  rw [scrAt6_pos V c cfg6.N (by rw [show cfg6.N = 10 from N_6]; decide), scopedRest6_split, owns_whole]
  iintro ⟨Hr, Hp, Hs⟩
  isplitl [Hp]; · iexact Hp
  isplitl [Hs]
  · iexists _; iexact Hs
  iexact Hr

end Cert.KernelIdeal.Hand
-- ==== Proof.KI.Run.lean ====
/-
  The whole program as a chain of host stretches and kernel regions.  Between two items every unscoped buffer of a
  core holds a definite array: the launch contents, then what each host stretch computes from them, then, after a
  kernel region, the same except for the region's result array, which holds what the region's ten write-backs left.
  Each region is entered with its operand arrays split out of the unscoped buffers and left with them put back; the
  generator register and the core's (empty) debts ride along.  The run therefore ends with every unscoped buffer at
  the last array of the chain; no item ever writes an argument array.
-/
import proofs.«159478_j19920058318953_1_alg».proof.Proof.Gen.KernelIdeal.Regions
import proofs.«159478_j19920058318953_1_alg».proof.Proof.KI.Combine0
import proofs.«159478_j19920058318953_1_alg».proof.Proof.KI.Combine1
import proofs.«159478_j19920058318953_1_alg».proof.Proof.KI.Combine2
import proofs.«159478_j19920058318953_1_alg».proof.Proof.KI.Combine3
import proofs.«159478_j19920058318953_1_alg».proof.Proof.KI.Combine4
import proofs.«159478_j19920058318953_1_alg».proof.Proof.KI.Combine5
import proofs.«159478_j19920058318953_1_alg».proof.Proof.KI.Pool
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays between items -/

/-- At launch. -/
abbrev U0 (c : Dev nD) : Valuation τ sig (Elt F) := fun b => m (c, b)
/-- After host stretch 0: region 0's entry contents. -/
def U1 (c : Dev nD) : Valuation τ sig (Elt F) := StableHlo.after hostOps0 (U0 m c)
/-- The same read at the TensorCore's references. -/
abbrev Ve0 : (c : Dev nD) → (b : Ref sig .tc) → Buf (Elt F) ((c : Thread nD τ).loc b) := fun c b => U1 m c b
/-- What region 0's write-backs leave in its result array. -/
def o0 (c : Dev nD) : Buf (Elt F) ((c : Thread nD τ).loc main_v21) := (dat0 (Ve0 m) c).arrAt 5 cfg0.N
/-- After region 0: its result array at what the write-backs left, every other buffer as entered. -/
def U2 (c : Dev nD) : Valuation τ sig (Elt F) := Function.update (U1 m c) main_v21 (o0 m c)
abbrev Vx0 : (c : Dev nD) → (b : Ref sig .tc) → Buf (Elt F) ((c : Thread nD τ).loc b) := fun c b => U2 m c b
theorem U2_out (c : Dev nD) : U2 m c main_v21 = o0 m c := by
  unfold U2; exact Function.update_self ..
theorem U2_of_ne (c : Dev nD) (b : Ref sig .tc) (hb : b ≠ main_v21) : U2 m c b = U1 m c b := by
  unfold U2; exact Function.update_of_ne (StableHlo.devRef_ne_of_ne hb) ..
theorem U1_of (c : Dev nD) (b : Ref sig .tc) (hb : b ∉ hostOps0_W) : U1 m c b = U0 m c b := by
  unfold U1; exact StableHlo.after_of_writes_sub hostOps0 _ hostOps0_writes hb
/-- After host stretch 1: region 1's entry contents. -/
def U3 (c : Dev nD) : Valuation τ sig (Elt F) := StableHlo.after hostOps1 (U2 m c)
/-- The same read at the TensorCore's references. -/
abbrev Ve1 : (c : Dev nD) → (b : Ref sig .tc) → Buf (Elt F) ((c : Thread nD τ).loc b) := fun c b => U3 m c b
/-- What region 1's write-backs leave in its result array. -/
def o1 (c : Dev nD) : Buf (Elt F) ((c : Thread nD τ).loc main_v43) := (dat1 (Ve1 m) c).arrAt 5 cfg1.N
/-- After region 1: its result array at what the write-backs left, every other buffer as entered. -/
def U4 (c : Dev nD) : Valuation τ sig (Elt F) := Function.update (U3 m c) main_v43 (o1 m c)
abbrev Vx1 : (c : Dev nD) → (b : Ref sig .tc) → Buf (Elt F) ((c : Thread nD τ).loc b) := fun c b => U4 m c b
theorem U4_out (c : Dev nD) : U4 m c main_v43 = o1 m c := by
  unfold U4; exact Function.update_self ..
theorem U4_of_ne (c : Dev nD) (b : Ref sig .tc) (hb : b ≠ main_v43) : U4 m c b = U3 m c b := by
  unfold U4; exact Function.update_of_ne (StableHlo.devRef_ne_of_ne hb) ..
theorem U3_of (c : Dev nD) (b : Ref sig .tc) (hb : b ∉ hostOps1_W) : U3 m c b = U2 m c b := by
  unfold U3; exact StableHlo.after_of_writes_sub hostOps1 _ hostOps1_writes hb
/-- After host stretch 2: region 2's entry contents. -/
def U5 (c : Dev nD) : Valuation τ sig (Elt F) := StableHlo.after hostOps2 (U4 m c)
/-- The same read at the TensorCore's references. -/
abbrev Ve2 : (c : Dev nD) → (b : Ref sig .tc) → Buf (Elt F) ((c : Thread nD τ).loc b) := fun c b => U5 m c b
/-- What region 2's write-backs leave in its result array. -/
def o2 (c : Dev nD) : Buf (Elt F) ((c : Thread nD τ).loc main_v65) := (dat2 (Ve2 m) c).arrAt 5 cfg2.N
/-- After region 2: its result array at what the write-backs left, every other buffer as entered. -/
def U6 (c : Dev nD) : Valuation τ sig (Elt F) := Function.update (U5 m c) main_v65 (o2 m c)
abbrev Vx2 : (c : Dev nD) → (b : Ref sig .tc) → Buf (Elt F) ((c : Thread nD τ).loc b) := fun c b => U6 m c b
theorem U6_out (c : Dev nD) : U6 m c main_v65 = o2 m c := by
  unfold U6; exact Function.update_self ..
theorem U6_of_ne (c : Dev nD) (b : Ref sig .tc) (hb : b ≠ main_v65) : U6 m c b = U5 m c b := by
  unfold U6; exact Function.update_of_ne (StableHlo.devRef_ne_of_ne hb) ..
theorem U5_of (c : Dev nD) (b : Ref sig .tc) (hb : b ∉ hostOps2_W) : U5 m c b = U4 m c b := by
  unfold U5; exact StableHlo.after_of_writes_sub hostOps2 _ hostOps2_writes hb
/-- After host stretch 3: region 3's entry contents. -/
def U7 (c : Dev nD) : Valuation τ sig (Elt F) := StableHlo.after hostOps3 (U6 m c)
/-- The same read at the TensorCore's references. -/
abbrev Ve3 : (c : Dev nD) → (b : Ref sig .tc) → Buf (Elt F) ((c : Thread nD τ).loc b) := fun c b => U7 m c b
/-- What region 3's write-backs leave in its result array. -/
def o3 (c : Dev nD) : Buf (Elt F) ((c : Thread nD τ).loc main_v87) := (dat3 (Ve3 m) c).arrAt 5 cfg3.N
/-- After region 3: its result array at what the write-backs left, every other buffer as entered. -/
def U8 (c : Dev nD) : Valuation τ sig (Elt F) := Function.update (U7 m c) main_v87 (o3 m c)
abbrev Vx3 : (c : Dev nD) → (b : Ref sig .tc) → Buf (Elt F) ((c : Thread nD τ).loc b) := fun c b => U8 m c b
theorem U8_out (c : Dev nD) : U8 m c main_v87 = o3 m c := by
  unfold U8; exact Function.update_self ..
theorem U8_of_ne (c : Dev nD) (b : Ref sig .tc) (hb : b ≠ main_v87) : U8 m c b = U7 m c b := by
  unfold U8; exact Function.update_of_ne (StableHlo.devRef_ne_of_ne hb) ..
theorem U7_of (c : Dev nD) (b : Ref sig .tc) (hb : b ∉ hostOps3_W) : U7 m c b = U6 m c b := by
  unfold U7; exact StableHlo.after_of_writes_sub hostOps3 _ hostOps3_writes hb
/-- After host stretch 4: region 4's entry contents. -/
def U9 (c : Dev nD) : Valuation τ sig (Elt F) := StableHlo.after hostOps4 (U8 m c)
/-- The same read at the TensorCore's references. -/
abbrev Ve4 : (c : Dev nD) → (b : Ref sig .tc) → Buf (Elt F) ((c : Thread nD τ).loc b) := fun c b => U9 m c b
/-- What region 4's write-backs leave in its result array. -/
def o4 (c : Dev nD) : Buf (Elt F) ((c : Thread nD τ).loc main_v109) := (dat4 (Ve4 m) c).arrAt 5 cfg4.N
/-- After region 4: its result array at what the write-backs left, every other buffer as entered. -/
def U10 (c : Dev nD) : Valuation τ sig (Elt F) := Function.update (U9 m c) main_v109 (o4 m c)
abbrev Vx4 : (c : Dev nD) → (b : Ref sig .tc) → Buf (Elt F) ((c : Thread nD τ).loc b) := fun c b => U10 m c b
theorem U10_out (c : Dev nD) : U10 m c main_v109 = o4 m c := by
  unfold U10; exact Function.update_self ..
theorem U10_of_ne (c : Dev nD) (b : Ref sig .tc) (hb : b ≠ main_v109) : U10 m c b = U9 m c b := by
  unfold U10; exact Function.update_of_ne (StableHlo.devRef_ne_of_ne hb) ..
theorem U9_of (c : Dev nD) (b : Ref sig .tc) (hb : b ∉ hostOps4_W) : U9 m c b = U8 m c b := by
  unfold U9; exact StableHlo.after_of_writes_sub hostOps4 _ hostOps4_writes hb
/-- After host stretch 5: region 5's entry contents. -/
def U11 (c : Dev nD) : Valuation τ sig (Elt F) := StableHlo.after hostOps5 (U10 m c)
/-- The same read at the TensorCore's references. -/
abbrev Ve5 : (c : Dev nD) → (b : Ref sig .tc) → Buf (Elt F) ((c : Thread nD τ).loc b) := fun c b => U11 m c b
/-- What region 5's write-backs leave in its result array. -/
def o5 (c : Dev nD) : Buf (Elt F) ((c : Thread nD τ).loc main_v131) := (dat5 (Ve5 m) c).arrAt 5 cfg5.N
/-- After region 5: its result array at what the write-backs left, every other buffer as entered. -/
def U12 (c : Dev nD) : Valuation τ sig (Elt F) := Function.update (U11 m c) main_v131 (o5 m c)
abbrev Vx5 : (c : Dev nD) → (b : Ref sig .tc) → Buf (Elt F) ((c : Thread nD τ).loc b) := fun c b => U12 m c b
theorem U12_out (c : Dev nD) : U12 m c main_v131 = o5 m c := by
  unfold U12; exact Function.update_self ..
theorem U12_of_ne (c : Dev nD) (b : Ref sig .tc) (hb : b ≠ main_v131) : U12 m c b = U11 m c b := by
  unfold U12; exact Function.update_of_ne (StableHlo.devRef_ne_of_ne hb) ..
theorem U11_of (c : Dev nD) (b : Ref sig .tc) (hb : b ∉ hostOps5_W) : U11 m c b = U10 m c b := by
  unfold U11; exact StableHlo.after_of_writes_sub hostOps5 _ hostOps5_writes hb
/-- After host stretch 6: region 6's entry contents. -/
def U13 (c : Dev nD) : Valuation τ sig (Elt F) := StableHlo.after hostOps6 (U12 m c)
/-- The same read at the TensorCore's references. -/
abbrev Ve6 : (c : Dev nD) → (b : Ref sig .tc) → Buf (Elt F) ((c : Thread nD τ).loc b) := fun c b => U13 m c b
/-- What region 6's write-backs leave in its result array. -/
def o6 (c : Dev nD) : Buf (Elt F) ((c : Thread nD τ).loc main_v133) := (dat6 (Ve6 m) c).arrAt 4 cfg6.N
/-- After region 6: its result array at what the write-backs left, every other buffer as entered. -/
def U14 (c : Dev nD) : Valuation τ sig (Elt F) := Function.update (U13 m c) main_v133 (o6 m c)
abbrev Vx6 : (c : Dev nD) → (b : Ref sig .tc) → Buf (Elt F) ((c : Thread nD τ).loc b) := fun c b => U14 m c b
theorem U14_out (c : Dev nD) : U14 m c main_v133 = o6 m c := by
  unfold U14; exact Function.update_self ..
theorem U14_of_ne (c : Dev nD) (b : Ref sig .tc) (hb : b ≠ main_v133) : U14 m c b = U13 m c b := by
  unfold U14; exact Function.update_of_ne (StableHlo.devRef_ne_of_ne hb) ..
theorem U13_of (c : Dev nD) (b : Ref sig .tc) (hb : b ∉ hostOps6_W) : U13 m c b = U12 m c b := by
  unfold U13; exact StableHlo.after_of_writes_sub hostOps6 _ hostOps6_writes hb

/-- A buffer that no host stretch writes and that is no region's result ends as launched. -/
theorem U14_of (c : Dev nD) (b : Ref sig .tc)
    (h0 : b ∉ hostOps0_W) (g0 : b ≠ main_v21)
    (h1 : b ∉ hostOps1_W) (g1 : b ≠ main_v43)
    (h2 : b ∉ hostOps2_W) (g2 : b ≠ main_v65)
    (h3 : b ∉ hostOps3_W) (g3 : b ≠ main_v87)
    (h4 : b ∉ hostOps4_W) (g4 : b ≠ main_v109)
    (h5 : b ∉ hostOps5_W) (g5 : b ≠ main_v131)
    (h6 : b ∉ hostOps6_W) (g6 : b ≠ main_v133) :
    U14 m c b = m ((c : Thread nD τ).loc b) :=
  (U14_of_ne m c b g6).trans <| (U13_of m c b h6).trans <|
  (U12_of_ne m c b g5).trans <| (U11_of m c b h5).trans <|
  (U10_of_ne m c b g4).trans <| (U9_of m c b h4).trans <|
  (U8_of_ne m c b g3).trans <| (U7_of m c b h3).trans <|
  (U6_of_ne m c b g2).trans <| (U5_of m c b h2).trans <|
  (U4_of_ne m c b g1).trans <| (U3_of m c b h1).trans <|
  (U2_of_ne m c b g0).trans <| (U1_of m c b h0).trans <| rfl

theorem hF0_0 (c : Dev nD) : (dat0 (Ve0 m) c).arrAt 0 cfg0.N = Vx0 m c (Pipeline.arrRef spec0 0) :=
  (((dat0 (Ve0 m) c).arrAt_in 0 rfl _).trans (A_eq0 (Ve0 m) c 0)).trans (U2_of_ne m c (Pipeline.arrRef spec0 0) (by decide)).symm
theorem hF0_1 (c : Dev nD) : (dat0 (Ve0 m) c).arrAt 1 cfg0.N = Vx0 m c (Pipeline.arrRef spec0 1) :=
  (((dat0 (Ve0 m) c).arrAt_in 1 rfl _).trans (A_eq0 (Ve0 m) c 1)).trans (U2_of_ne m c (Pipeline.arrRef spec0 1) (by decide)).symm
theorem hF0_2 (c : Dev nD) : (dat0 (Ve0 m) c).arrAt 2 cfg0.N = Vx0 m c (Pipeline.arrRef spec0 2) :=
  (((dat0 (Ve0 m) c).arrAt_in 2 rfl _).trans (A_eq0 (Ve0 m) c 2)).trans (U2_of_ne m c (Pipeline.arrRef spec0 2) (by decide)).symm
theorem hF0_3 (c : Dev nD) : (dat0 (Ve0 m) c).arrAt 3 cfg0.N = Vx0 m c (Pipeline.arrRef spec0 3) :=
  (((dat0 (Ve0 m) c).arrAt_in 3 rfl _).trans (A_eq0 (Ve0 m) c 3)).trans (U2_of_ne m c (Pipeline.arrRef spec0 3) (by decide)).symm
theorem hF0_4 (c : Dev nD) : (dat0 (Ve0 m) c).arrAt 4 cfg0.N = Vx0 m c (Pipeline.arrRef spec0 4) :=
  (((dat0 (Ve0 m) c).arrAt_in 4 rfl _).trans (A_eq0 (Ve0 m) c 4)).trans (U2_of_ne m c (Pipeline.arrRef spec0 4) (by decide)).symm
theorem hF0_5 (c : Dev nD) : (dat0 (Ve0 m) c).arrAt 5 cfg0.N = Vx0 m c (Pipeline.arrRef spec0 5) :=
  (U2_out m c).symm
theorem hF0 (c : Dev nD) (w : Fin cfg0.W) : (dat0 (Ve0 m) c).arrAt w cfg0.N = Vx0 m c (Pipeline.arrRef spec0 w) :=
  match w with
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
theorem hrest0 (c : Dev nD) : ∀ b, b ∉ Finset.univ.image (Pipeline.arrRef spec0) → Vx0 m c b = Ve0 m c b :=
  fun b hb => U2_of_ne m c b fun e => hb (Finset.mem_image.mpr ⟨5, Finset.mem_univ _, e ▸ rfl⟩)
theorem hF1_0 (c : Dev nD) : (dat1 (Ve1 m) c).arrAt 0 cfg1.N = Vx1 m c (Pipeline.arrRef spec1 0) :=
  (((dat1 (Ve1 m) c).arrAt_in 0 rfl _).trans (A_eq1 (Ve1 m) c 0)).trans (U4_of_ne m c (Pipeline.arrRef spec1 0) (by decide)).symm
theorem hF1_1 (c : Dev nD) : (dat1 (Ve1 m) c).arrAt 1 cfg1.N = Vx1 m c (Pipeline.arrRef spec1 1) :=
  (((dat1 (Ve1 m) c).arrAt_in 1 rfl _).trans (A_eq1 (Ve1 m) c 1)).trans (U4_of_ne m c (Pipeline.arrRef spec1 1) (by decide)).symm
theorem hF1_2 (c : Dev nD) : (dat1 (Ve1 m) c).arrAt 2 cfg1.N = Vx1 m c (Pipeline.arrRef spec1 2) :=
  (((dat1 (Ve1 m) c).arrAt_in 2 rfl _).trans (A_eq1 (Ve1 m) c 2)).trans (U4_of_ne m c (Pipeline.arrRef spec1 2) (by decide)).symm
theorem hF1_3 (c : Dev nD) : (dat1 (Ve1 m) c).arrAt 3 cfg1.N = Vx1 m c (Pipeline.arrRef spec1 3) :=
  (((dat1 (Ve1 m) c).arrAt_in 3 rfl _).trans (A_eq1 (Ve1 m) c 3)).trans (U4_of_ne m c (Pipeline.arrRef spec1 3) (by decide)).symm
theorem hF1_4 (c : Dev nD) : (dat1 (Ve1 m) c).arrAt 4 cfg1.N = Vx1 m c (Pipeline.arrRef spec1 4) :=
  (((dat1 (Ve1 m) c).arrAt_in 4 rfl _).trans (A_eq1 (Ve1 m) c 4)).trans (U4_of_ne m c (Pipeline.arrRef spec1 4) (by decide)).symm
theorem hF1_5 (c : Dev nD) : (dat1 (Ve1 m) c).arrAt 5 cfg1.N = Vx1 m c (Pipeline.arrRef spec1 5) :=
  (U4_out m c).symm
theorem hF1 (c : Dev nD) (w : Fin cfg1.W) : (dat1 (Ve1 m) c).arrAt w cfg1.N = Vx1 m c (Pipeline.arrRef spec1 w) :=
  match w with
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
theorem hrest1 (c : Dev nD) : ∀ b, b ∉ Finset.univ.image (Pipeline.arrRef spec1) → Vx1 m c b = Ve1 m c b :=
  fun b hb => U4_of_ne m c b fun e => hb (Finset.mem_image.mpr ⟨5, Finset.mem_univ _, e ▸ rfl⟩)
theorem hF2_0 (c : Dev nD) : (dat2 (Ve2 m) c).arrAt 0 cfg2.N = Vx2 m c (Pipeline.arrRef spec2 0) :=
  (((dat2 (Ve2 m) c).arrAt_in 0 rfl _).trans (A_eq2 (Ve2 m) c 0)).trans (U6_of_ne m c (Pipeline.arrRef spec2 0) (by decide)).symm
theorem hF2_1 (c : Dev nD) : (dat2 (Ve2 m) c).arrAt 1 cfg2.N = Vx2 m c (Pipeline.arrRef spec2 1) :=
  (((dat2 (Ve2 m) c).arrAt_in 1 rfl _).trans (A_eq2 (Ve2 m) c 1)).trans (U6_of_ne m c (Pipeline.arrRef spec2 1) (by decide)).symm
theorem hF2_2 (c : Dev nD) : (dat2 (Ve2 m) c).arrAt 2 cfg2.N = Vx2 m c (Pipeline.arrRef spec2 2) :=
  (((dat2 (Ve2 m) c).arrAt_in 2 rfl _).trans (A_eq2 (Ve2 m) c 2)).trans (U6_of_ne m c (Pipeline.arrRef spec2 2) (by decide)).symm
theorem hF2_3 (c : Dev nD) : (dat2 (Ve2 m) c).arrAt 3 cfg2.N = Vx2 m c (Pipeline.arrRef spec2 3) :=
  (((dat2 (Ve2 m) c).arrAt_in 3 rfl _).trans (A_eq2 (Ve2 m) c 3)).trans (U6_of_ne m c (Pipeline.arrRef spec2 3) (by decide)).symm
theorem hF2_4 (c : Dev nD) : (dat2 (Ve2 m) c).arrAt 4 cfg2.N = Vx2 m c (Pipeline.arrRef spec2 4) :=
  (((dat2 (Ve2 m) c).arrAt_in 4 rfl _).trans (A_eq2 (Ve2 m) c 4)).trans (U6_of_ne m c (Pipeline.arrRef spec2 4) (by decide)).symm
theorem hF2_5 (c : Dev nD) : (dat2 (Ve2 m) c).arrAt 5 cfg2.N = Vx2 m c (Pipeline.arrRef spec2 5) :=
  (U6_out m c).symm
theorem hF2 (c : Dev nD) (w : Fin cfg2.W) : (dat2 (Ve2 m) c).arrAt w cfg2.N = Vx2 m c (Pipeline.arrRef spec2 w) :=
  match w with
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
theorem hrest2 (c : Dev nD) : ∀ b, b ∉ Finset.univ.image (Pipeline.arrRef spec2) → Vx2 m c b = Ve2 m c b :=
  fun b hb => U6_of_ne m c b fun e => hb (Finset.mem_image.mpr ⟨5, Finset.mem_univ _, e ▸ rfl⟩)
theorem hF3_0 (c : Dev nD) : (dat3 (Ve3 m) c).arrAt 0 cfg3.N = Vx3 m c (Pipeline.arrRef spec3 0) :=
  (((dat3 (Ve3 m) c).arrAt_in 0 rfl _).trans (A_eq3 (Ve3 m) c 0)).trans (U8_of_ne m c (Pipeline.arrRef spec3 0) (by decide)).symm
theorem hF3_1 (c : Dev nD) : (dat3 (Ve3 m) c).arrAt 1 cfg3.N = Vx3 m c (Pipeline.arrRef spec3 1) :=
  (((dat3 (Ve3 m) c).arrAt_in 1 rfl _).trans (A_eq3 (Ve3 m) c 1)).trans (U8_of_ne m c (Pipeline.arrRef spec3 1) (by decide)).symm
theorem hF3_2 (c : Dev nD) : (dat3 (Ve3 m) c).arrAt 2 cfg3.N = Vx3 m c (Pipeline.arrRef spec3 2) :=
  (((dat3 (Ve3 m) c).arrAt_in 2 rfl _).trans (A_eq3 (Ve3 m) c 2)).trans (U8_of_ne m c (Pipeline.arrRef spec3 2) (by decide)).symm
theorem hF3_3 (c : Dev nD) : (dat3 (Ve3 m) c).arrAt 3 cfg3.N = Vx3 m c (Pipeline.arrRef spec3 3) :=
  (((dat3 (Ve3 m) c).arrAt_in 3 rfl _).trans (A_eq3 (Ve3 m) c 3)).trans (U8_of_ne m c (Pipeline.arrRef spec3 3) (by decide)).symm
theorem hF3_4 (c : Dev nD) : (dat3 (Ve3 m) c).arrAt 4 cfg3.N = Vx3 m c (Pipeline.arrRef spec3 4) :=
  (((dat3 (Ve3 m) c).arrAt_in 4 rfl _).trans (A_eq3 (Ve3 m) c 4)).trans (U8_of_ne m c (Pipeline.arrRef spec3 4) (by decide)).symm
theorem hF3_5 (c : Dev nD) : (dat3 (Ve3 m) c).arrAt 5 cfg3.N = Vx3 m c (Pipeline.arrRef spec3 5) :=
  (U8_out m c).symm
theorem hF3 (c : Dev nD) (w : Fin cfg3.W) : (dat3 (Ve3 m) c).arrAt w cfg3.N = Vx3 m c (Pipeline.arrRef spec3 w) :=
  match w with
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c
theorem hrest3 (c : Dev nD) : ∀ b, b ∉ Finset.univ.image (Pipeline.arrRef spec3) → Vx3 m c b = Ve3 m c b :=
  fun b hb => U8_of_ne m c b fun e => hb (Finset.mem_image.mpr ⟨5, Finset.mem_univ _, e ▸ rfl⟩)
theorem hF4_0 (c : Dev nD) : (dat4 (Ve4 m) c).arrAt 0 cfg4.N = Vx4 m c (Pipeline.arrRef spec4 0) :=
  (((dat4 (Ve4 m) c).arrAt_in 0 rfl _).trans (A_eq4 (Ve4 m) c 0)).trans (U10_of_ne m c (Pipeline.arrRef spec4 0) (by decide)).symm
theorem hF4_1 (c : Dev nD) : (dat4 (Ve4 m) c).arrAt 1 cfg4.N = Vx4 m c (Pipeline.arrRef spec4 1) :=
  (((dat4 (Ve4 m) c).arrAt_in 1 rfl _).trans (A_eq4 (Ve4 m) c 1)).trans (U10_of_ne m c (Pipeline.arrRef spec4 1) (by decide)).symm
theorem hF4_2 (c : Dev nD) : (dat4 (Ve4 m) c).arrAt 2 cfg4.N = Vx4 m c (Pipeline.arrRef spec4 2) :=
  (((dat4 (Ve4 m) c).arrAt_in 2 rfl _).trans (A_eq4 (Ve4 m) c 2)).trans (U10_of_ne m c (Pipeline.arrRef spec4 2) (by decide)).symm
theorem hF4_3 (c : Dev nD) : (dat4 (Ve4 m) c).arrAt 3 cfg4.N = Vx4 m c (Pipeline.arrRef spec4 3) :=
  (((dat4 (Ve4 m) c).arrAt_in 3 rfl _).trans (A_eq4 (Ve4 m) c 3)).trans (U10_of_ne m c (Pipeline.arrRef spec4 3) (by decide)).symm
theorem hF4_4 (c : Dev nD) : (dat4 (Ve4 m) c).arrAt 4 cfg4.N = Vx4 m c (Pipeline.arrRef spec4 4) :=
  (((dat4 (Ve4 m) c).arrAt_in 4 rfl _).trans (A_eq4 (Ve4 m) c 4)).trans (U10_of_ne m c (Pipeline.arrRef spec4 4) (by decide)).symm
theorem hF4_5 (c : Dev nD) : (dat4 (Ve4 m) c).arrAt 5 cfg4.N = Vx4 m c (Pipeline.arrRef spec4 5) :=
  (U10_out m c).symm
theorem hF4 (c : Dev nD) (w : Fin cfg4.W) : (dat4 (Ve4 m) c).arrAt w cfg4.N = Vx4 m c (Pipeline.arrRef spec4 w) :=
  match w with
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c
theorem hrest4 (c : Dev nD) : ∀ b, b ∉ Finset.univ.image (Pipeline.arrRef spec4) → Vx4 m c b = Ve4 m c b :=
  fun b hb => U10_of_ne m c b fun e => hb (Finset.mem_image.mpr ⟨5, Finset.mem_univ _, e ▸ rfl⟩)
theorem hF5_0 (c : Dev nD) : (dat5 (Ve5 m) c).arrAt 0 cfg5.N = Vx5 m c (Pipeline.arrRef spec5 0) :=
  (((dat5 (Ve5 m) c).arrAt_in 0 rfl _).trans (A_eq5 (Ve5 m) c 0)).trans (U12_of_ne m c (Pipeline.arrRef spec5 0) (by decide)).symm
theorem hF5_1 (c : Dev nD) : (dat5 (Ve5 m) c).arrAt 1 cfg5.N = Vx5 m c (Pipeline.arrRef spec5 1) :=
  (((dat5 (Ve5 m) c).arrAt_in 1 rfl _).trans (A_eq5 (Ve5 m) c 1)).trans (U12_of_ne m c (Pipeline.arrRef spec5 1) (by decide)).symm
theorem hF5_2 (c : Dev nD) : (dat5 (Ve5 m) c).arrAt 2 cfg5.N = Vx5 m c (Pipeline.arrRef spec5 2) :=
  (((dat5 (Ve5 m) c).arrAt_in 2 rfl _).trans (A_eq5 (Ve5 m) c 2)).trans (U12_of_ne m c (Pipeline.arrRef spec5 2) (by decide)).symm
theorem hF5_3 (c : Dev nD) : (dat5 (Ve5 m) c).arrAt 3 cfg5.N = Vx5 m c (Pipeline.arrRef spec5 3) :=
  (((dat5 (Ve5 m) c).arrAt_in 3 rfl _).trans (A_eq5 (Ve5 m) c 3)).trans (U12_of_ne m c (Pipeline.arrRef spec5 3) (by decide)).symm
theorem hF5_4 (c : Dev nD) : (dat5 (Ve5 m) c).arrAt 4 cfg5.N = Vx5 m c (Pipeline.arrRef spec5 4) :=
  (((dat5 (Ve5 m) c).arrAt_in 4 rfl _).trans (A_eq5 (Ve5 m) c 4)).trans (U12_of_ne m c (Pipeline.arrRef spec5 4) (by decide)).symm
theorem hF5_5 (c : Dev nD) : (dat5 (Ve5 m) c).arrAt 5 cfg5.N = Vx5 m c (Pipeline.arrRef spec5 5) :=
  (U12_out m c).symm
theorem hF5 (c : Dev nD) (w : Fin cfg5.W) : (dat5 (Ve5 m) c).arrAt w cfg5.N = Vx5 m c (Pipeline.arrRef spec5 w) :=
  match w with
  | ⟨0, _⟩ => hF5_0 m c
  | ⟨1, _⟩ => hF5_1 m c
  | ⟨2, _⟩ => hF5_2 m c
  | ⟨3, _⟩ => hF5_3 m c
  | ⟨4, _⟩ => hF5_4 m c
  | ⟨5, _⟩ => hF5_5 m c
theorem hrest5 (c : Dev nD) : ∀ b, b ∉ Finset.univ.image (Pipeline.arrRef spec5) → Vx5 m c b = Ve5 m c b :=
  fun b hb => U12_of_ne m c b fun e => hb (Finset.mem_image.mpr ⟨5, Finset.mem_univ _, e ▸ rfl⟩)
theorem hF6_0 (c : Dev nD) : (dat6 (Ve6 m) c).arrAt 0 cfg6.N = Vx6 m c (Pipeline.arrRef spec6 0) :=
  (((dat6 (Ve6 m) c).arrAt_in 0 rfl _).trans (A_eq6 (Ve6 m) c 0)).trans (U14_of_ne m c (Pipeline.arrRef spec6 0) (by decide)).symm
theorem hF6_1 (c : Dev nD) : (dat6 (Ve6 m) c).arrAt 1 cfg6.N = Vx6 m c (Pipeline.arrRef spec6 1) :=
  (((dat6 (Ve6 m) c).arrAt_in 1 rfl _).trans (A_eq6 (Ve6 m) c 1)).trans (U14_of_ne m c (Pipeline.arrRef spec6 1) (by decide)).symm
theorem hF6_2 (c : Dev nD) : (dat6 (Ve6 m) c).arrAt 2 cfg6.N = Vx6 m c (Pipeline.arrRef spec6 2) :=
  (((dat6 (Ve6 m) c).arrAt_in 2 rfl _).trans (A_eq6 (Ve6 m) c 2)).trans (U14_of_ne m c (Pipeline.arrRef spec6 2) (by decide)).symm
theorem hF6_3 (c : Dev nD) : (dat6 (Ve6 m) c).arrAt 3 cfg6.N = Vx6 m c (Pipeline.arrRef spec6 3) :=
  (((dat6 (Ve6 m) c).arrAt_in 3 rfl _).trans (A_eq6 (Ve6 m) c 3)).trans (U14_of_ne m c (Pipeline.arrRef spec6 3) (by decide)).symm
theorem hF6_4 (c : Dev nD) : (dat6 (Ve6 m) c).arrAt 4 cfg6.N = Vx6 m c (Pipeline.arrRef spec6 4) :=
  (U14_out m c).symm
theorem hF6 (c : Dev nD) (w : Fin cfg6.W) : (dat6 (Ve6 m) c).arrAt w cfg6.N = Vx6 m c (Pipeline.arrRef spec6 w) :=
  match w with
  | ⟨0, _⟩ => hF6_0 m c
  | ⟨1, _⟩ => hF6_1 m c
  | ⟨2, _⟩ => hF6_2 m c
  | ⟨3, _⟩ => hF6_3 m c
  | ⟨4, _⟩ => hF6_4 m c
theorem hrest6 (c : Dev nD) : ∀ b, b ∉ Finset.univ.image (Pipeline.arrRef spec6) → Vx6 m c b = Ve6 m c b :=
  fun b hb => U14_of_ne m c b fun e => hb (Finset.mem_image.mpr ⟨4, Finset.mem_univ _, e ▸ rfl⟩)

/-! ## The proof data family and the thread state -/

abbrev adm : (p : Fin 7) → (pcfgs (F := F) p).Adm := fun p => (cfgs p).toPCfg_adm
/-- Every region's proof data at its entry contents. -/
def pdats : (p : Fin 7) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
  | ⟨2, _⟩ => fun c => dat2 (Ve2 m) c
  | ⟨3, _⟩ => fun c => dat3 (Ve3 m) c
  | ⟨4, _⟩ => fun c => dat4 (Ve4 m) c
  | ⟨5, _⟩ => fun c => dat5 (Ve5 m) c
  | ⟨6, _⟩ => fun c => dat6 (Ve6 m) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (U14 m c) ∗ ∃ r, prngReg c r)

/-! ## The regions as segments -/

set_option backward.isDefEq.respectTransparency.types false in
/-- Region 0: entered with every unscoped buffer at its entry contents, left with them at its exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at its entry contents, left with them at its exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at its entry contents, left with them at its exit contents. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve2 m c) (Vx2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered with every unscoped buffer at its entry contents, left with them at its exit contents. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ve3 m) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec3 c (Ve3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Ve3 m c) (Vx3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered with every unscoped buffer at its entry contents, left with them at its exit contents. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Ve4 m) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec4 c (Ve4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Ve4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Ve4 m c) (Vx4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered with every unscoped buffer at its entry contents, left with them at its exit contents. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Ve5 m) c).loose
  hwaits := Pipeline.hwaits_of_owed_zero _ _ _ _ L lv 5 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec5 c (Ve5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Ve5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Ve5 m c) (Vx5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered with every unscoped buffer at its entry contents, left with them at its exit contents. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Ve6 m) c).loose
  hwaits := Pipeline.hwaits_of_owed_zero _ _ _ _ L lv 6 fun _ _ => rfl
  pre c := iprop(StableHlo.held (c : Thread nD τ) (Pipeline.ucRefs τ sig) (U13 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (Ve6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Ve6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin6 (Ve6 m) c
  hout c := by
    rw [Pipeline.ownSems0_none]
    exact (hout6 (Ve6 m) c).trans (by iintro ⟨Hp, Hr⟩; isplitl [Hp]; · iexact Hp
                                      isplitr; · iempintro
                                      iexact Hr)
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Ve6 m c) (Vx6 m c) ((pdats m 6 c).arrAt · cfg6.N) (hF6 m c) (hrest6 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (U0 m)),
    .region (reg0 m),
    .host (hseg hostOps1 hostOps1_sub hostOps1_fresh (U2 m)),
    .region (reg1 m),
    .host (hseg hostOps2 hostOps2_sub hostOps2_fresh (U4 m)),
    .region (reg2 m),
    .host (hseg hostOps3 hostOps3_sub hostOps3_fresh (U6 m)),
    .region (reg3 m),
    .host (hseg hostOps4 hostOps4_sub hostOps4_fresh (U8 m)),
    .region (reg4 m),
    .host (hseg hostOps5 hostOps5_sub hostOps5_fresh (U10 m)),
    .region (reg5 m),
    .host (hseg hostOps6 hostOps6_sub hostOps6_fresh (U12 m)),
    .region (reg6 m) ]

theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution from memory `m` with zero counters terminates, nothing faulting, and every final
    state holds every unscoped buffer at the last array of the chain. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = U14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U14 m c b)
    (hfin := fun c s' => by
      iintro ⟨⟨Hh, -⟩, HSI⟩
      unfold StableHlo.held
      imodintro
      iapply (pointsTo_read_all (Pipeline.ucRefs τ sig) (fun b => (((c : Thread nD τ)).1, b)) (U14 m c) s')
      isplitl [Hh] <;> iassumption)
    (hQ := fun s h c => h c)

end Cert.KernelIdeal.Hand

end
-- ==== Proof.KI.Claims.lean ====
/-
  What the run gives for the claims: every argument array ends as launched (no host stretch writes an argument and
  no region's result array is one), and the program's result buffer ends at what the last region's write-back left.
-/
import proofs.«159478_j19920058318953_1_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem U14_arg0 (c : Dev nD) : U14 m c main_arg0 = m ((c : Thread nD τ).loc main_arg0) :=
  U14_of m c main_arg0 (by decide) (by decide) (by decide) (by decide) (by decide) (by decide) (by decide) (by decide) (by decide) (by decide) (by decide) (by decide) (by decide) (by decide)
theorem U14_arg1 (c : Dev nD) : U14 m c main_arg1 = m ((c : Thread nD τ).loc main_arg1) :=
  U14_of m c main_arg1 (by decide) (by decide) (by decide) (by decide) (by decide) (by decide) (by decide) (by decide) (by decide) (by decide) (by decide) (by decide) (by decide) (by decide)
theorem U14_arg2 (c : Dev nD) : U14 m c main_arg2 = m ((c : Thread nD τ).loc main_arg2) :=
  U14_of m c main_arg2 (by decide) (by decide) (by decide) (by decide) (by decide) (by decide) (by decide) (by decide) (by decide) (by decide) (by decide) (by decide) (by decide) (by decide)
theorem U14_arg3 (c : Dev nD) : U14 m c main_arg3 = m ((c : Thread nD τ).loc main_arg3) :=
  U14_of m c main_arg3 (by decide) (by decide) (by decide) (by decide) (by decide) (by decide) (by decide) (by decide) (by decide) (by decide) (by decide) (by decide) (by decide) (by decide)
theorem U14_arg4 (c : Dev nD) : U14 m c main_arg4 = m ((c : Thread nD τ).loc main_arg4) :=
  U14_of m c main_arg4 (by decide) (by decide) (by decide) (by decide) (by decide) (by decide) (by decide) (by decide) (by decide) (by decide) (by decide) (by decide) (by decide) (by decide)
theorem U14_arg5 (c : Dev nD) : U14 m c main_arg5 = m ((c : Thread nD τ).loc main_arg5) :=
  U14_of m c main_arg5 (by decide) (by decide) (by decide) (by decide) (by decide) (by decide) (by decide) (by decide) (by decide) (by decide) (by decide) (by decide) (by decide) (by decide)
theorem U14_arg6 (c : Dev nD) : U14 m c main_arg6 = m ((c : Thread nD τ).loc main_arg6) :=
  U14_of m c main_arg6 (by decide) (by decide) (by decide) (by decide) (by decide) (by decide) (by decide) (by decide) (by decide) (by decide) (by decide) (by decide) (by decide) (by decide)
theorem U14_arg7 (c : Dev nD) : U14 m c main_arg7 = m ((c : Thread nD τ).loc main_arg7) :=
  U14_of m c main_arg7 (by decide) (by decide) (by decide) (by decide) (by decide) (by decide) (by decide) (by decide) (by decide) (by decide) (by decide) (by decide) (by decide) (by decide)
theorem U14_arg8 (c : Dev nD) : U14 m c main_arg8 = m ((c : Thread nD τ).loc main_arg8) :=
  U14_of m c main_arg8 (by decide) (by decide) (by decide) (by decide) (by decide) (by decide) (by decide) (by decide) (by decide) (by decide) (by decide) (by decide) (by decide) (by decide)
theorem U14_arg9 (c : Dev nD) : U14 m c main_arg9 = m ((c : Thread nD τ).loc main_arg9) :=
  U14_of m c main_arg9 (by decide) (by decide) (by decide) (by decide) (by decide) (by decide) (by decide) (by decide) (by decide) (by decide) (by decide) (by decide) (by decide) (by decide)
theorem U14_arg10 (c : Dev nD) : U14 m c main_arg10 = m ((c : Thread nD τ).loc main_arg10) :=
  U14_of m c main_arg10 (by decide) (by decide) (by decide) (by decide) (by decide) (by decide) (by decide) (by decide) (by decide) (by decide) (by decide) (by decide) (by decide) (by decide)
theorem U14_arg11 (c : Dev nD) : U14 m c main_arg11 = m ((c : Thread nD τ).loc main_arg11) :=
  U14_of m c main_arg11 (by decide) (by decide) (by decide) (by decide) (by decide) (by decide) (by decide) (by decide) (by decide) (by decide) (by decide) (by decide) (by decide) (by decide)

/-- Every weakly fair execution terminates without a fault; the result buffer ends at the pool region's
    write-back and every argument array as launched. -/
theorem run_result (ρ : Dev nD → PrngReg) : θ_run defs (onTc (τ := τ) (main (F := F))) ⟨m, fun _ => 0, ρ⟩ (fun r => ∀ c : Dev nD,
      r.2.mem ((c.tc : Thread nD τ).loc main_v133) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v133 (by decide))).trans (U14_out m c),
      (h c _ (mem_uc main_arg0 (by decide))).trans (U14_arg0 m c),
      (h c _ (mem_uc main_arg1 (by decide))).trans (U14_arg1 m c),
      (h c _ (mem_uc main_arg2 (by decide))).trans (U14_arg2 m c),
      (h c _ (mem_uc main_arg3 (by decide))).trans (U14_arg3 m c),
      (h c _ (mem_uc main_arg4 (by decide))).trans (U14_arg4 m c),
      (h c _ (mem_uc main_arg5 (by decide))).trans (U14_arg5 m c),
      (h c _ (mem_uc main_arg6 (by decide))).trans (U14_arg6 m c),
      (h c _ (mem_uc main_arg7 (by decide))).trans (U14_arg7 m c),
      (h c _ (mem_uc main_arg8 (by decide))).trans (U14_arg8 m c),
      (h c _ (mem_uc main_arg9 (by decide))).trans (U14_arg9 m c),
      (h c _ (mem_uc main_arg10 (by decide))).trans (U14_arg10 m c),
      (h c _ (mem_uc main_arg11 (by decide))).trans (U14_arg11 m c)⟩)
    (run_all m ρ)

/-- The frame: it runs to the end, faults nowhere, and leaves its argument arrays unchanged. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_result m ρ)

end Cert.KernelIdeal.Hand

end
-- ==== Proof.Math.Spec.lean ====
/-
  One combine step as a function of whole arrays: entry (p, q) of a·Wl + x·Wr + b is
  (Σ_k a(p,k)·Wl(k,q)) + (Σ_k x(p,k)·Wr(k,q)) + b(0,q), over the extended reals.
-/
import Idealize.ShloMosaic.PureOps.Ideal
import Idealize.ShloMosaic.Lib.ValueIdx

noncomputable section

namespace Cert.Math

open Idealize.ShloMosaic Idealize.ShloMosaic.ValueIdx

/-- Entry (p, q) of a·Wl + x·Wr + b, for N rows. -/
def combineAt {N : Nat} (a x : Vec Ideal ⟨2, ![N, 64]⟩ .f32) (wl wr : Vec Ideal ⟨2, ![64, 64]⟩ .f32)
    (b : Vec Ideal ⟨2, ![1, 64]⟩ .f32) (p : Fin N) (q : Fin 64) : EReal :=
  (∑ k : Fin 64, a (ix2 p k) * wl (ix2 k q)) + (∑ k : Fin 64, x (ix2 p k) * wr (ix2 k q)) + b (ix2 (0 : Fin 1) q)

/-- a·Wl + x·Wr + b as an array of 100000 rows. -/
def combineSpec (a x : Vec Ideal ⟨2, ![100000, 64]⟩ .f32) (wl wr : Vec Ideal ⟨2, ![64, 64]⟩ .f32)
    (b : Vec Ideal ⟨2, ![1, 64]⟩ .f32) : Vec Ideal ⟨2, ![100000, 64]⟩ .f32 :=
  fun i => combineAt a x wl wr b (i 0) (i 1)

theorem combineSpec_apply (a x : Vec Ideal ⟨2, ![100000, 64]⟩ .f32) (wl wr : Vec Ideal ⟨2, ![64, 64]⟩ .f32)
    (b : Vec Ideal ⟨2, ![1, 64]⟩ .f32) (p : Fin 100000) (q : Fin 64) :
    combineSpec a x wl wr b (ix2 p q) = combineAt a x wl wr b p q := rfl

end Cert.Math

end
-- ==== Proof.LibPlainMatmul.lean ====
/-
  A plain matrix product read at one entry, over the extended reals.

  The product of an M×K matrix by a K×N matrix with no batch axis contracts the left operand's columns against the
  right operand's rows.  Added into the all-zero matrix, its entry (p, q) is the plain sum
      Σ_{k < K}  lhs (p, k) · rhs (k, q),
  the sum over the one contraction axis re-indexed by that axis's coordinate.  Nothing of real arithmetic is used
  beyond 0 + x = x, so the statement holds at the infinities as well.

  A one-row matrix laid along every row of an M×N matrix reads, at (p, q), its entry (0, q).

  Together: entry (p, q) of  f (lhs · rhs + row)  applied entrywise, for any scalar function f.
-/
import Idealize.ShloMosaic.Lib.ValueIdx
import Idealize.ShloMosaic.Lib.Pipeline.Value
import Idealize.ShloMosaic.PureOps.Ideal.Laws

noncomputable section

open scoped BigOperators

namespace Idealize.ShloMosaic.PlainMatmul

open Idealize.ShloMosaic Idealize.ShloMosaic.ValueIdx

variable {M K N : Nat}

/-- The dimension numbers of a plain product: the left operand contracts its columns (axis 1), the right operand its
    rows (axis 0); the remaining axes are the result's rows and columns; there is no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable (D : DotDims ⟨2, ![M, K]⟩ ⟨2, ![K, N]⟩ ⟨2, ![M, N]⟩)

/-- One axis is contracted … -/
theorem contr_rank (hD : IsPlain D) : D.contr.rank = 1 := by
  rw [D.rank_contr, hD.lc]; rfl

/-- … and its extent is the left operand's number of columns. -/
theorem contr_size (hD : IsPlain D) : D.contr.size ⟨0, by rw [contr_rank D hD]; exact Nat.one_pos⟩ = K := by
  have h1 : 0 < D.lhsContracting.length := by rw [hD.lc]; exact Nat.one_pos
  have h2 : D.lhsContracting[0]'h1 = (1 : Fin 2) := List.getElem_of_eq hD.lc h1
  rw [D.size_contr 0 h1, h2]
  rfl

/-- The left operand is read in the result's row … -/
theorem lhsIdx_row (hD : IsPlain D) (j : (⟨2, ![M, N]⟩ : Shape).Idx) (k : D.contr.Idx) : (D.lhsIdx j k 0).val = (j 0).val := by
  obtain ⟨lc, rc, ln, rn, lb, rb, wf⟩ := D
  obtain ⟨h1, h2, h3, h4, h5, h6⟩ := hD
  dsimp only at h1 h2 h3 h4 h5 h6
  subst h1 h2 h3 h4 h5 h6
  rfl

/-- … and the right operand in the result's column. -/
theorem rhsIdx_col (hD : IsPlain D) (j : (⟨2, ![M, N]⟩ : Shape).Idx) (k : D.contr.Idx) : (D.rhsIdx j k 1).val = (j 1).val := by
  obtain ⟨lc, rc, ln, rn, lb, rb, wf⟩ := D
  obtain ⟨h1, h2, h3, h4, h5, h6⟩ := hD
  dsimp only at h1 h2 h3 h4 h5 h6
  subst h1 h2 h3 h4 h5 h6
  rfl

/-- The contraction position, as a number below the common extent. -/
abbrev contrFin (hD : IsPlain D) : D.contr.Idx ≃ Fin K := contrEquiv1 D K (contr_rank D hD) (contr_size D hD)

/-- At contraction position `k` the left operand is read at (row, k) … -/
theorem lhsIdx_eq (hD : IsPlain D) (p : Fin M) (q : Fin N) (k : Fin K) :
    D.lhsIdx (ix2 p q) ((contrFin D hD).symm k) = ix2 p k := by
  funext a
  apply Fin.ext
  match a with
  | ⟨0, _⟩ => exact lhsIdx_row D hD _ _
  | ⟨1, _⟩ => exact (D.lhsIdx_val_of_single hD.lc _ _).trans (contrEquiv1_symm_val D K _ _ k)

/-- … and the right operand at (k, column). -/
theorem rhsIdx_eq (hD : IsPlain D) (p : Fin M) (q : Fin N) (k : Fin K) :
    D.rhsIdx (ix2 p q) ((contrFin D hD).symm k) = ix2 k q := by
  funext a
  apply Fin.ext
  match a with
  | ⟨0, _⟩ => exact (D.rhsIdx_val_of_single hD.rc _ _).trans (contrEquiv1_symm_val D K _ _ k)
  | ⟨1, _⟩ => exact rhsIdx_col D hD _ _

/-- ENTRY (p, q) OF A PLAIN PRODUCT added into the zero matrix: Σ_k lhs (p, k) · rhs (k, q). -/
theorem matmul_zero_apply (hD : IsPlain D) {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrFin D hD).symm]
  refine Finset.sum_congr rfl fun k _ => ?_
  rw [lhsIdx_eq D hD p q k, rhsIdx_eq D hD p q k]

/-- A one-row matrix laid along every row reads, at (p, q), its entry (0, q). -/
theorem broadcastRow_apply {α : Type} (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 (0 : Fin 1) q) := by
  refine broadcastTo_apply b h (ix2 p q) (ix2 (0 : Fin 1) q) fun a => ?_
  match a with
  | ⟨0, _⟩ => exact (if_pos rfl).symm
  | ⟨1, _⟩ =>
    by_cases hN : N = 1
    · subst hN
      show (q : ℕ) = if (1 : ℕ) = 1 then 0 else (q : ℕ)
      rw [if_pos rfl]; exact Nat.lt_one_iff.mp q.isLt
    · exact (if_neg hN).symm

/-- ENTRY (p, q) of a scalar function applied entrywise to (product + broadcast row). -/
theorem entry_apply (hD : IsPlain D) {φ₁ φ₂ : FTy} (prec : Option ContractPrecision) (f : EReal → EReal)
    (lhs : FVec Ideal ⟨2, ![M, K]⟩ φ₁) (rhs : FVec Ideal ⟨2, ![K, N]⟩ φ₂)
    (b : FVec Ideal ⟨2, ![1, N]⟩ .f32) (h : (⟨2, ![1, N]⟩ : Shape).Broadcasts ⟨2, ![M, N]⟩) (p : Fin M) (q : Fin N) :
    f (FloatOps.matmul D prec lhs rhs (constant (F := Ideal) ⟨2, ![M, N]⟩ .f32 0x00000000#32) (ix2 p q)
        + broadcastTo ⟨2, ![M, N]⟩ b h (ix2 p q))
      = f ((∑ k : Fin K, lhs (ix2 p k) * rhs (ix2 k q)) + b (ix2 (0 : Fin 1) q)) := by
  rw [matmul_zero_apply D hD, broadcastRow_apply]

end Idealize.ShloMosaic.PlainMatmul

end
-- ==== Proof.Math.Combine.lean ====
/-
  One step of the layer update, read at one entry, over the extended reals.

  A block of rows of the update is  agg · Wl + x · Wr + b : two plain matrix products, each added into the all-zero
  matrix, their sum, and a one-row bias laid along every row.  Narrowing the operands before the products changes
  nothing over the extended reals.  Entry (r, q) of the block is therefore
      (Σ_k agg (r, k) · Wl (k, q)) + (Σ_k x (r, k) · Wr (k, q)) + b (0, q).
-/
import proofs.«159478_j19920058318953_1_alg».proof.Proof.Gen.KernelIdeal.Skeleton
import proofs.«159478_j19920058318953_1_alg».proof.Proof.LibPlainMatmul
import proofs.«159478_j19920058318953_1_alg».proof.Proof.Math.Spec

noncomputable section

open scoped BigOperators

namespace Cert.Math

open Idealize.ShloMosaic Idealize.ShloMosaic.ValueIdx Cert.KernelIdeal

/-- The block product's dimension numbers are those of a plain product. -/
theorem dotBlock_isPlain :
    PlainMatmul.IsPlain (M := 10000) (K := 64) (N := 64) Cert.KernelIdeal.dot_S10000x64_S64x64_S10000x64_1_0_0_1_n_n :=
  ⟨rfl, rfl, rfl, rfl, rfl, rfl⟩

/-- ENTRY (r, q) OF ONE BLOCK of the update as the kernel computes it. -/
theorem k0_pay1_apply (a x : Vec Ideal S10000x64 .f32) (wl wr : Vec Ideal S64x64 .f32) (b : Vec Ideal S1x64 .f32)
    (r : Fin 10000) (q : Fin 64) :
    Cert.KernelIdeal.Gen.k0_pay1 (F := Ideal) a x wl wr b (ix2 r q)
      = combineAt a x wl wr b r q := by
  unfold Cert.KernelIdeal.Gen.k0_pay1
  simp only [shapeCast_self, matmul]
  rw [addf_apply, addf_apply, PlainMatmul.matmul_zero_apply _ dotBlock_isPlain,
    PlainMatmul.matmul_zero_apply _ dotBlock_isPlain, PlainMatmul.broadcastRow_apply]
  rfl

end Cert.Math

end
-- ==== Proof.KI.ValC0.lean ====
/-
  What region 0 leaves in its result array, over the extended reals: the ten row blocks the grid writes back tile
  the 100000 rows, and block t holds, at row r and column q, the combine (Σ_k a(10000·t+r,k)·Wl(k,q)) +
  (Σ_k x(10000·t+r,k)·Wr(k,q)) + b(0,q) of the operand arrays as the region found them.  So the whole array is the
  combine of the whole operand arrays.
-/
import proofs.«159478_j19920058318953_1_alg».proof.Proof.KI.Combine0
import proofs.«159478_j19920058318953_1_alg».proof.Proof.Math.Spec
import proofs.«159478_j19920058318953_1_alg».proof.Proof.Math.Combine
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The printed block index maps over the grid: the streamed operands and the result move one row block per
    point, the resident operands stay at block (0, 0). -/
theorem idx_facts0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A streamed operand's block at point t is rows 10000·t … 10000·t+9999 of its array. -/
theorem iblk0_0_apply (c : Dev nD) (t : Fin cfg0.N) (r : Fin 10000) (k : Fin 64) (p : Fin 100000) (hp : p.val = 10000 * t.val + r.val) :
    (iblk0 V c 0 t : Vec Ideal S10000x64 .f32) (ix2 r k) = (V c (Pipeline.arrRef spec0 0) : S100000x64.Idx → EReal) (ix2 p k) := by
  obtain ⟨e0, e1, -⟩ := idx_facts0 t
  unfold iblk0
  rw [View.read_apply]
  refine congrArg (V c (Pipeline.arrRef spec0 0) : S100000x64.Idx → EReal) ?_
  funext a
  apply Fin.ext
  match a with
  | ⟨0, _⟩ => show win0_0.index t (0 : Fin 2) * 10000 + 1 * r.val = p.val; rw [e0, hp]; omega
  | ⟨1, _⟩ => show win0_0.index t (1 : Fin 2) * 64 + 1 * k.val = k.val; rw [e1]; omega
theorem iblk0_1_apply (c : Dev nD) (t : Fin cfg0.N) (r : Fin 10000) (k : Fin 64) (p : Fin 100000) (hp : p.val = 10000 * t.val + r.val) :
    (iblk0 V c 1 t : Vec Ideal S10000x64 .f32) (ix2 r k) = (V c (Pipeline.arrRef spec0 1) : S100000x64.Idx → EReal) (ix2 p k) := by
  obtain ⟨-, -, e0, e1, -⟩ := idx_facts0 t
  unfold iblk0
  rw [View.read_apply]
  refine congrArg (V c (Pipeline.arrRef spec0 1) : S100000x64.Idx → EReal) ?_
  funext a
  apply Fin.ext
  match a with
  | ⟨0, _⟩ => show win0_1.index t (0 : Fin 2) * 10000 + 1 * r.val = p.val; rw [e0, hp]; omega
  | ⟨1, _⟩ => show win0_1.index t (1 : Fin 2) * 64 + 1 * k.val = k.val; rw [e1]; omega
/-- A resident operand's block at every point is its whole array. -/
theorem iblk0_2_apply (c : Dev nD) (t : Fin cfg0.N) (k : Fin 64) (q : Fin 64) :
    (iblk0 V c 2 t : Vec Ideal S64x64 .f32) (ix2 k q) = (V c (Pipeline.arrRef spec0 2) : S64x64.Idx → EReal) (ix2 k q) := by
  obtain ⟨-, -, -, -, e0, e1, -⟩ := idx_facts0 t
  unfold iblk0
  rw [View.read_apply]
  refine congrArg (V c (Pipeline.arrRef spec0 2) : S64x64.Idx → EReal) ?_
  funext a
  apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega
theorem iblk0_3_apply (c : Dev nD) (t : Fin cfg0.N) (k : Fin 64) (q : Fin 64) :
    (iblk0 V c 3 t : Vec Ideal S64x64 .f32) (ix2 k q) = (V c (Pipeline.arrRef spec0 3) : S64x64.Idx → EReal) (ix2 k q) := by
  obtain ⟨-, -, -, -, -, -, e0, e1, -⟩ := idx_facts0 t
  unfold iblk0
  rw [View.read_apply]
  refine congrArg (V c (Pipeline.arrRef spec0 3) : S64x64.Idx → EReal) ?_
  funext a
  apply Fin.ext
  match a with
  | ⟨0, _⟩ => show win0_3.index t (0 : Fin 2) * 64 + 1 * k.val = k.val; rw [e0]; omega
  | ⟨1, _⟩ => show win0_3.index t (1 : Fin 2) * 64 + 1 * q.val = q.val; rw [e1]; omega
theorem iblk0_4_apply (c : Dev nD) (t : Fin cfg0.N) (z : Fin 1) (q : Fin 64) :
    (iblk0 V c 4 t : Vec Ideal S1x64 .f32) (ix2 z q) = (V c (Pipeline.arrRef spec0 4) : S1x64.Idx → EReal) (ix2 z q) := by
  obtain ⟨-, -, -, -, -, -, -, -, e0, e1, -⟩ := idx_facts0 t
  unfold iblk0
  rw [View.read_apply]
  refine congrArg (V c (Pipeline.arrRef spec0 4) : S1x64.Idx → EReal) ?_
  funext a
  apply Fin.ext
  match a with
  | ⟨0, _⟩ => show win0_4.index t (0 : Fin 2) * 1 + 1 * z.val = z.val; rw [e0]; omega
  | ⟨1, _⟩ => show win0_4.index t (1 : Fin 2) * 64 + 1 * q.val = q.val; rw [e1]; omega

/-- The combine of the operand arrays as region 0 finds them. -/
abbrev G0 (c : Dev nD) : S100000x64.Idx → EReal :=
  Cert.Math.combineSpec (V c (Pipeline.arrRef spec0 0)) (V c (Pipeline.arrRef spec0 1)) (V c (Pipeline.arrRef spec0 2))
    (V c (Pipeline.arrRef spec0 3)) (V c (Pipeline.arrRef spec0 4))

/-- What point t writes back is block t of the combine of the whole arrays. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz0]
  simp only [View.ld_unit_zero (S := S10000x64) hz0, View.ld_unit_zero (S := S64x64) hz0, View.ld_unit_zero (S := S1x64) hz0]
  funext j
  obtain ⟨r, q, rfl⟩ : ∃ (r : Fin 10000) (q : Fin 64), j = ix2 r q := ⟨j 0, j 1, eq_ix2 j⟩
  obtain ⟨-, -, -, -, -, -, -, -, -, -, e0, e1⟩ := idx_facts0 t
  have ht : t.val < 10 := Nat.lt_of_lt_of_eq t.isLt N_0
  let p : Fin 100000 := ⟨10000 * t.val + r.val, by have := r.isLt; omega⟩
  have hemb : ((cfg0.win 5).blk t).view.emb (ix2 r q) = (ix2 p q : S100000x64.Idx) := by
    funext a
    apply Fin.ext
    match a with
    | ⟨0, _⟩ => show win0_5.index t (0 : Fin 2) * 10000 + 1 * r.val = 10000 * t.val + r.val; rw [e0]; omega
    | ⟨1, _⟩ => show win0_5.index t (1 : Fin 2) * 64 + 1 * q.val = q.val; rw [e1]; omega
  refine (Cert.Math.k0_pay1_apply _ _ _ _ _ r q).trans ?_
  rw [View.read_apply, hemb]
  show _ = Cert.Math.combineAt _ _ _ _ _ p q
  unfold Cert.Math.combineAt
  simp only [iblk0_0_apply V c t r _ p rfl, iblk0_1_apply V c t r _ p rfl, iblk0_2_apply V c t, iblk0_3_apply V c t, iblk0_4_apply V c t, shapeCast_self]

/-- Every row lies in some point's block: row i is in block i / 10000. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨-, -, -, -, -, -, -, -, -, -, e0, e1⟩ := idx_facts0 t
  refine ⟨t, flush0_5 t, ?_⟩
  show i ∈ ((View.whole main_v21).slice (win0_5.rect t)).set
  rw [View.set_slice_whole, Rect.mem_set_unit]
  intro a
  match a with
  | ⟨0, _⟩ => show win0_5.index t (0 : Fin 2) * 10000 ≤ (i 0).val ∧ (i 0).val < win0_5.index t (0 : Fin 2) * 10000 + 10000
              rw [e0]; show (i 0).val / 10000 * 10000 ≤ (i 0).val ∧ (i 0).val < (i 0).val / 10000 * 10000 + 10000; omega
  | ⟨1, _⟩ => show win0_5.index t (1 : Fin 2) * 64 ≤ (i 1).val ∧ (i 1).val < win0_5.index t (1 : Fin 2) * 64 + 64
              rw [e1]; omega

/-- The result array after region 0: the combine of its operand arrays. -/
theorem final0 (c : Dev nD) : (dat0 (F := Ideal) V c).arrAt 5 cfg0.N = G0 V c :=
  (dat0 V c).arrAt_eq_of_cover 5 (G0 V c) (fun t _ => flushed0_eq V c t) (cover0)

end Cert.KernelIdeal.Hand

end
-- ==== Proof.KI.HostFns.lean ====
/-
  The host side of one message-passing step, as functions of whole arrays over the extended reals: from the
  2×E edge list, row 0 (negative entries wrapped by +100000) gives the source row of every edge and row 1 its
  destination row; the aggregate adds, into a zero 100000×64 array, the source row of every edge at its destination
  row; layer l of a stacked weight or bias is its l-th slice.  One step is the combine of the aggregate, the
  destination features and the layer's slices.
-/
import proofs.«159478_j19920058318953_1_alg».proof.Proof.Gen.KernelIdeal
import proofs.«159478_j19920058318953_1_alg».proof.Proof.Math.Spec

noncomputable section

namespace Cert.KernelIdeal.Hand

open Cert.KernelIdeal Cert.KernelIdeal.Gen Idealize.ShloMosaic

abbrev ANode := (⟨S100000x64, .f32⟩ : BufTy).Contents (Elt Ideal)
abbrev AEdges := (⟨S2x3200000, .i32⟩ : BufTy).Contents (Elt Ideal)
abbrev AW3 := (⟨S3x64x64, .f32⟩ : BufTy).Contents (Elt Ideal)
abbrev AB3 := (⟨S3x64, .f32⟩ : BufTy).Contents (Elt Ideal)

/-- Row 0 of the edge list: the source node of every edge. -/
def edgeRow0 (e : AEdges) : (⟨S3200000, .i32⟩ : BufTy).Contents (Elt Ideal) :=
  shapeCast S3200000 (extractStridedSlice S1x3200000 ![0, 0] e slices_S2x3200000_S1x3200000_0_0) shapeCasts_S1x3200000_S3200000
/-- Row 1 of the edge list: the destination node of every edge. -/
def edgeRow1 (e : AEdges) : (⟨S3200000, .i32⟩ : BufTy).Contents (Elt Ideal) :=
  shapeCast S3200000 (extractStridedSlice S1x3200000 ![1, 0] e slices_S2x3200000_S1x3200000_1_0) shapeCasts_S1x3200000_S3200000
/-- The source rows as a column of start indices, a negative entry wrapped by +100000. -/
def srcIdx (e : AEdges) : (⟨S3200000x1, .i32⟩ : BufTy).Contents (Elt Ideal) :=
  broadcastInDim S3200000x1 ![0] bcast_S3200000_S3200000x1_0
    (select (cmpi .slt (edgeRow0 e) (broadcastInDim S3200000 ![] bcast_S_S3200000 (constantI S_ 32 0#32)))
      (addi (edgeRow0 e) (broadcastInDim S3200000 ![] bcast_S_S3200000 (constantI S_ 32 100000#32))) (edgeRow0 e))
/-- The destination rows as a column of scatter indices. -/
def dstIdx (e : AEdges) : (⟨S3200000x1, .i32⟩ : BufTy).Contents (Elt Ideal) :=
  broadcastInDim S3200000x1 ![0] bcast_S3200000_S3200000x1_0 (edgeRow1 e)
/-- The aggregate: Σ over edges of the source row, at the destination row. -/
def agg (x : ANode) (e : AEdges) : ANode :=
  Host.scatterAdd scatter_S100000x64_S3200000x1_S3200000x64_1_0_0_1
    (broadcastInDim S100000x64 ![] bcast_S_S100000x64 (constant (F := Ideal) S_ .f32 0x00000000#32)) (dstIdx e)
    (Host.gather gather_S100000x64_S3200000x1_S3200000x64_1_0_n_n_0_1_164 x (srcIdx e))

/-- Layer 0 / 1 / 2 of a stacked 3×64×64 weight. -/
def wSl0 (w : AW3) : (⟨S64x64, .f32⟩ : BufTy).Contents (Elt Ideal) :=
  shapeCast S64x64 (extractStridedSlice S1x64x64 ![0, 0, 0] w slices_S3x64x64_S1x64x64_0_0_0) shapeCasts_S1x64x64_S64x64
def wSl1 (w : AW3) : (⟨S64x64, .f32⟩ : BufTy).Contents (Elt Ideal) :=
  shapeCast S64x64 (extractStridedSlice S1x64x64 ![1, 0, 0] w slices_S3x64x64_S1x64x64_1_0_0) shapeCasts_S1x64x64_S64x64
def wSl2 (w : AW3) : (⟨S64x64, .f32⟩ : BufTy).Contents (Elt Ideal) :=
  shapeCast S64x64 (extractStridedSlice S1x64x64 ![2, 0, 0] w slices_S3x64x64_S1x64x64_2_0_0) shapeCasts_S1x64x64_S64x64
/-- Layer 0 / 1 / 2 of a stacked 3×64 bias, as a vector of 64. -/
def bVec0 (b : AB3) : (⟨S64, .f32⟩ : BufTy).Contents (Elt Ideal) :=
  shapeCast S64 (extractStridedSlice S1x64 ![0, 0] b slices_S3x64_S1x64_0_0) shapeCasts_S1x64_S64
def bVec1 (b : AB3) : (⟨S64, .f32⟩ : BufTy).Contents (Elt Ideal) :=
  shapeCast S64 (extractStridedSlice S1x64 ![1, 0] b slices_S3x64_S1x64_1_0) shapeCasts_S1x64_S64
def bVec2 (b : AB3) : (⟨S64, .f32⟩ : BufTy).Contents (Elt Ideal) :=
  shapeCast S64 (extractStridedSlice S1x64 ![2, 0] b slices_S3x64_S1x64_2_0) shapeCasts_S1x64_S64
/-- A vector of 64 as a 1×64 row. -/
def bRow (v : (⟨S64, .f32⟩ : BufTy).Contents (Elt Ideal)) : (⟨S1x64, .f32⟩ : BufTy).Contents (Elt Ideal) :=
  shapeCast S1x64 v shapeCasts_S64_S1x64

/-- One step at layer 0 / 1 / 2: combine of the aggregate over the edges, the destination features, the layer's slices. -/
def sage0 (xsrc xdst : ANode) (e : AEdges) (wl wr : AW3) (b : AB3) : ANode :=
  Cert.Math.combineSpec (agg xsrc e) xdst (wSl0 wl) (wSl0 wr) (bRow (bVec0 b))
def sage1 (xsrc xdst : ANode) (e : AEdges) (wl wr : AW3) (b : AB3) : ANode :=
  Cert.Math.combineSpec (agg xsrc e) xdst (wSl1 wl) (wSl1 wr) (bRow (bVec1 b))
def sage2 (xsrc xdst : ANode) (e : AEdges) (wl wr : AW3) (b : AB3) : ANode :=
  Cert.Math.combineSpec (agg xsrc e) xdst (wSl2 wl) (wSl2 wr) (bRow (bVec2 b))

end Cert.KernelIdeal.Hand

end
-- ==== Proof.KI.ValH0.lean ====
/-
  Region 0's result array in closed form: its aggregate operand is what the host stretch before it computes from
  the source features and the edge list, its weights and bias are layer 0 of the stacked arguments, so the
  result is one message-passing step of the arrays the stretch reads.
-/
import proofs.«159478_j19920058318953_1_alg».proof.Proof.KI.Run
import proofs.«159478_j19920058318953_1_alg».proof.Proof.KI.ValC0
import proofs.«159478_j19920058318953_1_alg».proof.Proof.KI.HostFns
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

set_option maxHeartbeats 2000000 in
theorem o0_eq (c : Dev nD) :
    o0 (F := Ideal) m c = sage0 (U0 m c main_arg0) (U0 m c main_arg1) (U0 m c main_arg2) (U0 m c main_arg4) (U0 m c main_arg5) (U0 m c main_arg6) := by
  have hG : o0 (F := Ideal) m c = G0 (Ve0 m) c := by unfold o0; exact final0 (Ve0 m) c
  refine hG.trans ?_
  show Cert.Math.combineSpec (U1 m c main_v19) (U1 m c main_arg1) (U1 m c main_v1) (U1 m c main_v3) (U1 m c main_v20) = _
  have ha : U1 m c main_v19 = agg (U0 m c main_arg0) (U0 m c main_arg2) := by
    unfold U1; dsimp only [hostOps0]; after_results_simp; rfl
  have hwl : U1 m c main_v1 = wSl0 (U0 m c main_arg4) := by
    unfold U1; dsimp only [hostOps0]; after_results_simp; rfl
  have hwr : U1 m c main_v3 = wSl0 (U0 m c main_arg5) := by
    unfold U1; dsimp only [hostOps0]; after_results_simp; rfl
  have hb : U1 m c main_v20 = bRow (bVec0 (U0 m c main_arg6)) := by
    unfold U1; dsimp only [hostOps0]; after_results_simp; rfl
  have hd : U1 m c main_arg1 = U0 m c main_arg1 := (U1_of m c main_arg1 (by decide)).trans <| rfl
  have hs : U0 m c main_arg0 = U0 m c main_arg0 := rfl
  have he : U0 m c main_arg2 = U0 m c main_arg2 := rfl
  have h1 : U0 m c main_arg4 = U0 m c main_arg4 := rfl
  have h2 : U0 m c main_arg5 = U0 m c main_arg5 := rfl
  have h3 : U0 m c main_arg6 = U0 m c main_arg6 := rfl
  rw [ha, hwl, hwr, hb, hd, hs, he, h1, h2, h3]
  rfl

end Cert.KernelIdeal.Hand

end
-- ==== Proof.KI.ValC1.lean ====
/-
  What region 1 leaves in its result array, over the extended reals: the ten row blocks the grid writes back tile
  the 100000 rows, and block t holds, at row r and column q, the combine (Σ_k a(10000·t+r,k)·Wl(k,q)) +
  (Σ_k x(10000·t+r,k)·Wr(k,q)) + b(0,q) of the operand arrays as the region found them.  So the whole array is the
  combine of the whole operand arrays.
-/
import proofs.«159478_j19920058318953_1_alg».proof.Proof.KI.Combine1
import proofs.«159478_j19920058318953_1_alg».proof.Proof.Math.Spec
import proofs.«159478_j19920058318953_1_alg».proof.Proof.Math.Combine
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The printed block index maps over the grid: the streamed operands and the result move one row block per
    point, the resident operands stay at block (0, 0). -/
theorem idx_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A streamed operand's block at point t is rows 10000·t … 10000·t+9999 of its array. -/
theorem iblk1_0_apply (c : Dev nD) (t : Fin cfg1.N) (r : Fin 10000) (k : Fin 64) (p : Fin 100000) (hp : p.val = 10000 * t.val + r.val) :
    (iblk1 V c 0 t : Vec Ideal S10000x64 .f32) (ix2 r k) = (V c (Pipeline.arrRef spec1 0) : S100000x64.Idx → EReal) (ix2 p k) := by
  obtain ⟨e0, e1, -⟩ := idx_facts1 t
  unfold iblk1
  rw [View.read_apply]
  refine congrArg (V c (Pipeline.arrRef spec1 0) : S100000x64.Idx → EReal) ?_
  funext a
  apply Fin.ext
  match a with
  | ⟨0, _⟩ => show win1_0.index t (0 : Fin 2) * 10000 + 1 * r.val = p.val; rw [e0, hp]; omega
  | ⟨1, _⟩ => show win1_0.index t (1 : Fin 2) * 64 + 1 * k.val = k.val; rw [e1]; omega
theorem iblk1_1_apply (c : Dev nD) (t : Fin cfg1.N) (r : Fin 10000) (k : Fin 64) (p : Fin 100000) (hp : p.val = 10000 * t.val + r.val) :
    (iblk1 V c 1 t : Vec Ideal S10000x64 .f32) (ix2 r k) = (V c (Pipeline.arrRef spec1 1) : S100000x64.Idx → EReal) (ix2 p k) := by
  obtain ⟨-, -, e0, e1, -⟩ := idx_facts1 t
  unfold iblk1
  rw [View.read_apply]
  refine congrArg (V c (Pipeline.arrRef spec1 1) : S100000x64.Idx → EReal) ?_
  funext a
  apply Fin.ext
  match a with
  | ⟨0, _⟩ => show win1_1.index t (0 : Fin 2) * 10000 + 1 * r.val = p.val; rw [e0, hp]; omega
  | ⟨1, _⟩ => show win1_1.index t (1 : Fin 2) * 64 + 1 * k.val = k.val; rw [e1]; omega
/-- A resident operand's block at every point is its whole array. -/
theorem iblk1_2_apply (c : Dev nD) (t : Fin cfg1.N) (k : Fin 64) (q : Fin 64) :
    (iblk1 V c 2 t : Vec Ideal S64x64 .f32) (ix2 k q) = (V c (Pipeline.arrRef spec1 2) : S64x64.Idx → EReal) (ix2 k q) := by
  obtain ⟨-, -, -, -, e0, e1, -⟩ := idx_facts1 t
  unfold iblk1
  rw [View.read_apply]
  refine congrArg (V c (Pipeline.arrRef spec1 2) : S64x64.Idx → EReal) ?_
  funext a
  apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega
theorem iblk1_3_apply (c : Dev nD) (t : Fin cfg1.N) (k : Fin 64) (q : Fin 64) :
    (iblk1 V c 3 t : Vec Ideal S64x64 .f32) (ix2 k q) = (V c (Pipeline.arrRef spec1 3) : S64x64.Idx → EReal) (ix2 k q) := by
  obtain ⟨-, -, -, -, -, -, e0, e1, -⟩ := idx_facts1 t
  unfold iblk1
  rw [View.read_apply]
  refine congrArg (V c (Pipeline.arrRef spec1 3) : S64x64.Idx → EReal) ?_
  funext a
  apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega
theorem iblk1_4_apply (c : Dev nD) (t : Fin cfg1.N) (z : Fin 1) (q : Fin 64) :
    (iblk1 V c 4 t : Vec Ideal S1x64 .f32) (ix2 z q) = (V c (Pipeline.arrRef spec1 4) : S1x64.Idx → EReal) (ix2 z q) := by
  obtain ⟨-, -, -, -, -, -, -, -, e0, e1, -⟩ := idx_facts1 t
  unfold iblk1
  rw [View.read_apply]
  refine congrArg (V c (Pipeline.arrRef spec1 4) : S1x64.Idx → EReal) ?_
  funext a
  apply Fin.ext
  match a with
  | ⟨0, _⟩ => show win1_4.index t (0 : Fin 2) * 1 + 1 * z.val = z.val; rw [e0]; omega
  | ⟨1, _⟩ => show win1_4.index t (1 : Fin 2) * 64 + 1 * q.val = q.val; rw [e1]; omega

/-- The combine of the operand arrays as region 1 finds them. -/
abbrev G1 (c : Dev nD) : S100000x64.Idx → EReal :=
  Cert.Math.combineSpec (V c (Pipeline.arrRef spec1 0)) (V c (Pipeline.arrRef spec1 1)) (V c (Pipeline.arrRef spec1 2))
    (V c (Pipeline.arrRef spec1 3)) (V c (Pipeline.arrRef spec1 4))

/-- What point t writes back is block t of the combine of the whole arrays. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S10000x64) hz1, View.ld_unit_zero (S := S64x64) hz1, View.ld_unit_zero (S := S1x64) hz1]
  funext j
  obtain ⟨r, q, rfl⟩ : ∃ (r : Fin 10000) (q : Fin 64), j = ix2 r q := ⟨j 0, j 1, eq_ix2 j⟩
  obtain ⟨-, -, -, -, -, -, -, -, -, -, e0, e1⟩ := idx_facts1 t
  have ht : t.val < 10 := Nat.lt_of_lt_of_eq t.isLt N_1
  let p : Fin 100000 := ⟨10000 * t.val + r.val, by have := r.isLt; omega⟩
  have hemb : ((cfg1.win 5).blk t).view.emb (ix2 r q) = (ix2 p q : S100000x64.Idx) := by
    funext a
    apply Fin.ext
    match a with
    | ⟨0, _⟩ => show win1_5.index t (0 : Fin 2) * 10000 + 1 * r.val = 10000 * t.val + r.val; rw [e0]; omega
    | ⟨1, _⟩ => show win1_5.index t (1 : Fin 2) * 64 + 1 * q.val = q.val; rw [e1]; omega
  refine (Cert.Math.k0_pay1_apply _ _ _ _ _ r q).trans ?_
  rw [View.read_apply, hemb]
  show _ = Cert.Math.combineAt _ _ _ _ _ p q
  unfold Cert.Math.combineAt
  simp only [iblk1_0_apply V c t r _ p rfl, iblk1_1_apply V c t r _ p rfl, iblk1_2_apply V c t, iblk1_3_apply V c t, iblk1_4_apply V c t, shapeCast_self]

/-- Every row lies in some point's block: row i is in block i / 10000. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 10000, by rw [show cfg1.N = 10 from N_1]; omega⟩
  obtain ⟨-, -, -, -, -, -, -, -, -, -, e0, e1⟩ := idx_facts1 t
  refine ⟨t, flush1_5 t, ?_⟩
  show i ∈ ((View.whole main_v43).slice (win1_5.rect t)).set
  rw [View.set_slice_whole, Rect.mem_set_unit]
  intro a
  match a with
  | ⟨0, _⟩ => show win1_5.index t (0 : Fin 2) * 10000 ≤ (i 0).val ∧ (i 0).val < win1_5.index t (0 : Fin 2) * 10000 + 10000
              rw [e0]; show (i 0).val / 10000 * 10000 ≤ (i 0).val ∧ (i 0).val < (i 0).val / 10000 * 10000 + 10000; omega
  | ⟨1, _⟩ => show win1_5.index t (1 : Fin 2) * 64 ≤ (i 1).val ∧ (i 1).val < win1_5.index t (1 : Fin 2) * 64 + 64
              rw [e1]; omega

/-- The result array after region 1: the combine of its operand arrays. -/
theorem final1 (c : Dev nD) : (dat1 (F := Ideal) V c).arrAt 5 cfg1.N = G1 V c :=
  (dat1 V c).arrAt_eq_of_cover 5 (G1 V c) (fun t _ => flushed1_eq V c t) (cover1)

end Cert.KernelIdeal.Hand

end
-- ==== Proof.KI.ValH1.lean ====
/-
  Region 1's result array in closed form: its aggregate operand is what the host stretch before it computes from
  the source features and the edge list, its weights and bias are layer 0 of the stacked arguments, so the
  result is one message-passing step of the arrays the stretch reads.
-/
import proofs.«159478_j19920058318953_1_alg».proof.Proof.KI.Run
import proofs.«159478_j19920058318953_1_alg».proof.Proof.KI.ValC1
import proofs.«159478_j19920058318953_1_alg».proof.Proof.KI.HostFns
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

set_option maxHeartbeats 2000000 in
theorem o1_eq (c : Dev nD) :
    o1 (F := Ideal) m c = sage0 (U0 m c main_arg1) (U0 m c main_arg0) (U0 m c main_arg3) (U0 m c main_arg7) (U0 m c main_arg8) (U0 m c main_arg9) := by
  have hG : o1 (F := Ideal) m c = G1 (Ve1 m) c := by unfold o1; exact final1 (Ve1 m) c
  refine hG.trans ?_
  show Cert.Math.combineSpec (U3 m c main_v41) (U3 m c main_arg0) (U3 m c main_v23) (U3 m c main_v25) (U3 m c main_v42) = _
  have ha : U3 m c main_v41 = agg (U2 m c main_arg1) (U2 m c main_arg3) := by
    unfold U3; dsimp only [hostOps1]; after_results_simp; rfl
  have hwl : U3 m c main_v23 = wSl0 (U2 m c main_arg7) := by
    unfold U3; dsimp only [hostOps1]; after_results_simp; rfl
  have hwr : U3 m c main_v25 = wSl0 (U2 m c main_arg8) := by
    unfold U3; dsimp only [hostOps1]; after_results_simp; rfl
  have hb : U3 m c main_v42 = bRow (bVec0 (U2 m c main_arg9)) := by
    unfold U3; dsimp only [hostOps1]; after_results_simp; rfl
  have hd : U3 m c main_arg0 = U0 m c main_arg0 := (U3_of m c main_arg0 (by decide)).trans <| (U2_of_ne m c main_arg0 (by decide)).trans <| (U1_of m c main_arg0 (by decide)).trans <| rfl
  have hs : U2 m c main_arg1 = U0 m c main_arg1 := (U2_of_ne m c main_arg1 (by decide)).trans <| (U1_of m c main_arg1 (by decide)).trans <| rfl
  have he : U2 m c main_arg3 = U0 m c main_arg3 := (U2_of_ne m c main_arg3 (by decide)).trans <| (U1_of m c main_arg3 (by decide)).trans <| rfl
  have h1 : U2 m c main_arg7 = U0 m c main_arg7 := (U2_of_ne m c main_arg7 (by decide)).trans <| (U1_of m c main_arg7 (by decide)).trans <| rfl
  have h2 : U2 m c main_arg8 = U0 m c main_arg8 := (U2_of_ne m c main_arg8 (by decide)).trans <| (U1_of m c main_arg8 (by decide)).trans <| rfl
  have h3 : U2 m c main_arg9 = U0 m c main_arg9 := (U2_of_ne m c main_arg9 (by decide)).trans <| (U1_of m c main_arg9 (by decide)).trans <| rfl
  rw [ha, hwl, hwr, hb, hd, hs, he, h1, h2, h3]
  rfl

end Cert.KernelIdeal.Hand

end
-- ==== Proof.KI.ValC2.lean ====
/-
  What region 2 leaves in its result array, over the extended reals: the ten row blocks the grid writes back tile
  the 100000 rows, and block t holds, at row r and column q, the combine (Σ_k a(10000·t+r,k)·Wl(k,q)) +
  (Σ_k x(10000·t+r,k)·Wr(k,q)) + b(0,q) of the operand arrays as the region found them.  So the whole array is the
  combine of the whole operand arrays.
-/
import proofs.«159478_j19920058318953_1_alg».proof.Proof.KI.Combine2
import proofs.«159478_j19920058318953_1_alg».proof.Proof.Math.Spec
import proofs.«159478_j19920058318953_1_alg».proof.Proof.Math.Combine
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed block index maps over the grid: the streamed operands and the result move one row block per
    point, the resident operands stay at block (0, 0). -/
theorem idx_facts2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A streamed operand's block at point t is rows 10000·t … 10000·t+9999 of its array. -/
theorem iblk2_0_apply (c : Dev nD) (t : Fin cfg2.N) (r : Fin 10000) (k : Fin 64) (p : Fin 100000) (hp : p.val = 10000 * t.val + r.val) :
    (iblk2 V c 0 t : Vec Ideal S10000x64 .f32) (ix2 r k) = (V c (Pipeline.arrRef spec2 0) : S100000x64.Idx → EReal) (ix2 p k) := by
  obtain ⟨e0, e1, -⟩ := idx_facts2 t
  unfold iblk2
  rw [View.read_apply]
  refine congrArg (V c (Pipeline.arrRef spec2 0) : S100000x64.Idx → EReal) ?_
  funext a
  apply Fin.ext
  match a with
  | ⟨0, _⟩ => show win2_0.index t (0 : Fin 2) * 10000 + 1 * r.val = p.val; rw [e0, hp]; omega
  | ⟨1, _⟩ => show win2_0.index t (1 : Fin 2) * 64 + 1 * k.val = k.val; rw [e1]; omega
theorem iblk2_1_apply (c : Dev nD) (t : Fin cfg2.N) (r : Fin 10000) (k : Fin 64) (p : Fin 100000) (hp : p.val = 10000 * t.val + r.val) :
    (iblk2 V c 1 t : Vec Ideal S10000x64 .f32) (ix2 r k) = (V c (Pipeline.arrRef spec2 1) : S100000x64.Idx → EReal) (ix2 p k) := by
  obtain ⟨-, -, e0, e1, -⟩ := idx_facts2 t
  unfold iblk2
  rw [View.read_apply]
  refine congrArg (V c (Pipeline.arrRef spec2 1) : S100000x64.Idx → EReal) ?_
  funext a
  apply Fin.ext
  match a with
  | ⟨0, _⟩ => show win2_1.index t (0 : Fin 2) * 10000 + 1 * r.val = p.val; rw [e0, hp]; omega
  | ⟨1, _⟩ => show win2_1.index t (1 : Fin 2) * 64 + 1 * k.val = k.val; rw [e1]; omega
/-- A resident operand's block at every point is its whole array. -/
theorem iblk2_2_apply (c : Dev nD) (t : Fin cfg2.N) (k : Fin 64) (q : Fin 64) :
    (iblk2 V c 2 t : Vec Ideal S64x64 .f32) (ix2 k q) = (V c (Pipeline.arrRef spec2 2) : S64x64.Idx → EReal) (ix2 k q) := by
  obtain ⟨-, -, -, -, e0, e1, -⟩ := idx_facts2 t
  unfold iblk2
  rw [View.read_apply]
  refine congrArg (V c (Pipeline.arrRef spec2 2) : S64x64.Idx → EReal) ?_
  funext a
  apply Fin.ext
  match a with
  | ⟨0, _⟩ => show win2_2.index t (0 : Fin 2) * 64 + 1 * k.val = k.val; rw [e0]; omega
  | ⟨1, _⟩ => show win2_2.index t (1 : Fin 2) * 64 + 1 * q.val = q.val; rw [e1]; omega
theorem iblk2_3_apply (c : Dev nD) (t : Fin cfg2.N) (k : Fin 64) (q : Fin 64) :
    (iblk2 V c 3 t : Vec Ideal S64x64 .f32) (ix2 k q) = (V c (Pipeline.arrRef spec2 3) : S64x64.Idx → EReal) (ix2 k q) := by
  obtain ⟨-, -, -, -, -, -, e0, e1, -⟩ := idx_facts2 t
  unfold iblk2
  rw [View.read_apply]
  refine congrArg (V c (Pipeline.arrRef spec2 3) : S64x64.Idx → EReal) ?_
  funext a
  apply Fin.ext
  match a with
  | ⟨0, _⟩ => show win2_3.index t (0 : Fin 2) * 64 + 1 * k.val = k.val; rw [e0]; omega
  | ⟨1, _⟩ => show win2_3.index t (1 : Fin 2) * 64 + 1 * q.val = q.val; rw [e1]; omega
theorem iblk2_4_apply (c : Dev nD) (t : Fin cfg2.N) (z : Fin 1) (q : Fin 64) :
    (iblk2 V c 4 t : Vec Ideal S1x64 .f32) (ix2 z q) = (V c (Pipeline.arrRef spec2 4) : S1x64.Idx → EReal) (ix2 z q) := by
  obtain ⟨-, -, -, -, -, -, -, -, e0, e1, -⟩ := idx_facts2 t
  unfold iblk2
  rw [View.read_apply]
  refine congrArg (V c (Pipeline.arrRef spec2 4) : S1x64.Idx → EReal) ?_
  funext a
  apply Fin.ext
  match a with
  | ⟨0, _⟩ => show win2_4.index t (0 : Fin 2) * 1 + 1 * z.val = z.val; rw [e0]; omega
  | ⟨1, _⟩ => show win2_4.index t (1 : Fin 2) * 64 + 1 * q.val = q.val; rw [e1]; omega

/-- The combine of the operand arrays as region 2 finds them. -/
abbrev G2 (c : Dev nD) : S100000x64.Idx → EReal :=
  Cert.Math.combineSpec (V c (Pipeline.arrRef spec2 0)) (V c (Pipeline.arrRef spec2 1)) (V c (Pipeline.arrRef spec2 2))
    (V c (Pipeline.arrRef spec2 3)) (V c (Pipeline.arrRef spec2 4))

/-- What point t writes back is block t of the combine of the whole arrays. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S10000x64) hz2, View.ld_unit_zero (S := S64x64) hz2, View.ld_unit_zero (S := S1x64) hz2]
  funext j
  obtain ⟨r, q, rfl⟩ : ∃ (r : Fin 10000) (q : Fin 64), j = ix2 r q := ⟨j 0, j 1, eq_ix2 j⟩
  obtain ⟨-, -, -, -, -, -, -, -, -, -, e0, e1⟩ := idx_facts2 t
  have ht : t.val < 10 := Nat.lt_of_lt_of_eq t.isLt N_2
  let p : Fin 100000 := ⟨10000 * t.val + r.val, by have := r.isLt; omega⟩
  have hemb : ((cfg2.win 5).blk t).view.emb (ix2 r q) = (ix2 p q : S100000x64.Idx) := by
    funext a
    apply Fin.ext
    match a with
    | ⟨0, _⟩ => show win2_5.index t (0 : Fin 2) * 10000 + 1 * r.val = 10000 * t.val + r.val; rw [e0]; omega
    | ⟨1, _⟩ => show win2_5.index t (1 : Fin 2) * 64 + 1 * q.val = q.val; rw [e1]; omega
  refine (Cert.Math.k0_pay1_apply _ _ _ _ _ r q).trans ?_
  rw [View.read_apply, hemb]
  show _ = Cert.Math.combineAt _ _ _ _ _ p q
  unfold Cert.Math.combineAt
  simp only [iblk2_0_apply V c t r _ p rfl, iblk2_1_apply V c t r _ p rfl, iblk2_2_apply V c t, iblk2_3_apply V c t, iblk2_4_apply V c t, shapeCast_self]

/-- Every row lies in some point's block: row i is in block i / 10000. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  let t : Fin cfg2.N := ⟨(i 0).val / 10000, by rw [show cfg2.N = 10 from N_2]; omega⟩
  obtain ⟨-, -, -, -, -, -, -, -, -, -, e0, e1⟩ := idx_facts2 t
  refine ⟨t, flush2_5 t, ?_⟩
  show i ∈ ((View.whole main_v65).slice (win2_5.rect t)).set
  rw [View.set_slice_whole, Rect.mem_set_unit]
  intro a
  match a with
  | ⟨0, _⟩ => show win2_5.index t (0 : Fin 2) * 10000 ≤ (i 0).val ∧ (i 0).val < win2_5.index t (0 : Fin 2) * 10000 + 10000
              rw [e0]; show (i 0).val / 10000 * 10000 ≤ (i 0).val ∧ (i 0).val < (i 0).val / 10000 * 10000 + 10000; omega
  | ⟨1, _⟩ => show win2_5.index t (1 : Fin 2) * 64 ≤ (i 1).val ∧ (i 1).val < win2_5.index t (1 : Fin 2) * 64 + 64
              rw [e1]; omega

/-- The result array after region 2: the combine of its operand arrays. -/
theorem final2 (c : Dev nD) : (dat2 (F := Ideal) V c).arrAt 5 cfg2.N = G2 V c :=
  (dat2 V c).arrAt_eq_of_cover 5 (G2 V c) (fun t _ => flushed2_eq V c t) (cover2)

end Cert.KernelIdeal.Hand

end
-- ==== Proof.KI.ValH2.lean ====
/-
  Region 2's result array in closed form: its aggregate operand is what the host stretch before it computes from
  the source features and the edge list, its weights and bias are layer 1 of the stacked arguments, so the
  result is one message-passing step of the arrays the stretch reads.
-/
import proofs.«159478_j19920058318953_1_alg».proof.Proof.KI.Run
import proofs.«159478_j19920058318953_1_alg».proof.Proof.KI.ValC2
import proofs.«159478_j19920058318953_1_alg».proof.Proof.KI.HostFns
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

set_option maxHeartbeats 2000000 in
theorem o2_eq (c : Dev nD) :
    o2 (F := Ideal) m c = sage1 (o1 m c) (o0 m c) (U0 m c main_arg2) (U0 m c main_arg4) (U0 m c main_arg5) (U0 m c main_arg6) := by
  have hG : o2 (F := Ideal) m c = G2 (Ve2 m) c := by unfold o2; exact final2 (Ve2 m) c
  refine hG.trans ?_
  show Cert.Math.combineSpec (U5 m c main_v63) (U5 m c main_v21) (U5 m c main_v45) (U5 m c main_v47) (U5 m c main_v64) = _
  have ha : U5 m c main_v63 = agg (U4 m c main_v43) (U4 m c main_arg2) := by
    unfold U5; dsimp only [hostOps2]; after_results_simp; rfl
  have hwl : U5 m c main_v45 = wSl1 (U4 m c main_arg4) := by
    unfold U5; dsimp only [hostOps2]; after_results_simp; rfl
  have hwr : U5 m c main_v47 = wSl1 (U4 m c main_arg5) := by
    unfold U5; dsimp only [hostOps2]; after_results_simp; rfl
  have hb : U5 m c main_v64 = bRow (bVec1 (U4 m c main_arg6)) := by
    unfold U5; dsimp only [hostOps2]; after_results_simp; rfl
  have hd : U5 m c main_v21 = o0 m c := (U5_of m c main_v21 (by decide)).trans <| (U4_of_ne m c main_v21 (by decide)).trans <| (U3_of m c main_v21 (by decide)).trans <| (U2_out m c)
  have hs : U4 m c main_v43 = o1 m c := (U4_out m c)
  have he : U4 m c main_arg2 = U0 m c main_arg2 := (U4_of_ne m c main_arg2 (by decide)).trans <| (U3_of m c main_arg2 (by decide)).trans <| (U2_of_ne m c main_arg2 (by decide)).trans <| (U1_of m c main_arg2 (by decide)).trans <| rfl
  have h1 : U4 m c main_arg4 = U0 m c main_arg4 := (U4_of_ne m c main_arg4 (by decide)).trans <| (U3_of m c main_arg4 (by decide)).trans <| (U2_of_ne m c main_arg4 (by decide)).trans <| (U1_of m c main_arg4 (by decide)).trans <| rfl
  have h2 : U4 m c main_arg5 = U0 m c main_arg5 := (U4_of_ne m c main_arg5 (by decide)).trans <| (U3_of m c main_arg5 (by decide)).trans <| (U2_of_ne m c main_arg5 (by decide)).trans <| (U1_of m c main_arg5 (by decide)).trans <| rfl
  have h3 : U4 m c main_arg6 = U0 m c main_arg6 := (U4_of_ne m c main_arg6 (by decide)).trans <| (U3_of m c main_arg6 (by decide)).trans <| (U2_of_ne m c main_arg6 (by decide)).trans <| (U1_of m c main_arg6 (by decide)).trans <| rfl
  rw [ha, hwl, hwr, hb, hd, hs, he, h1, h2, h3]
  rfl

end Cert.KernelIdeal.Hand

end
-- ==== Proof.KI.ValC3.lean ====
/-
  What region 3 leaves in its result array, over the extended reals: the ten row blocks the grid writes back tile
  the 100000 rows, and block t holds, at row r and column q, the combine (Σ_k a(10000·t+r,k)·Wl(k,q)) +
  (Σ_k x(10000·t+r,k)·Wr(k,q)) + b(0,q) of the operand arrays as the region found them.  So the whole array is the
  combine of the whole operand arrays.
-/
import proofs.«159478_j19920058318953_1_alg».proof.Proof.KI.Combine3
import proofs.«159478_j19920058318953_1_alg».proof.Proof.Math.Spec
import proofs.«159478_j19920058318953_1_alg».proof.Proof.Math.Combine
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The printed block index maps over the grid: the streamed operands and the result move one row block per
    point, the resident operands stay at block (0, 0). -/
theorem idx_facts3 : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A streamed operand's block at point t is rows 10000·t … 10000·t+9999 of its array. -/
theorem iblk3_0_apply (c : Dev nD) (t : Fin cfg3.N) (r : Fin 10000) (k : Fin 64) (p : Fin 100000) (hp : p.val = 10000 * t.val + r.val) :
    (iblk3 V c 0 t : Vec Ideal S10000x64 .f32) (ix2 r k) = (V c (Pipeline.arrRef spec3 0) : S100000x64.Idx → EReal) (ix2 p k) := by
  obtain ⟨e0, e1, -⟩ := idx_facts3 t
  unfold iblk3
  rw [View.read_apply]
  refine congrArg (V c (Pipeline.arrRef spec3 0) : S100000x64.Idx → EReal) ?_
  funext a
  apply Fin.ext
  match a with
  | ⟨0, _⟩ => show win3_0.index t (0 : Fin 2) * 10000 + 1 * r.val = p.val; rw [e0, hp]; omega
  | ⟨1, _⟩ => show win3_0.index t (1 : Fin 2) * 64 + 1 * k.val = k.val; rw [e1]; omega
theorem iblk3_1_apply (c : Dev nD) (t : Fin cfg3.N) (r : Fin 10000) (k : Fin 64) (p : Fin 100000) (hp : p.val = 10000 * t.val + r.val) :
    (iblk3 V c 1 t : Vec Ideal S10000x64 .f32) (ix2 r k) = (V c (Pipeline.arrRef spec3 1) : S100000x64.Idx → EReal) (ix2 p k) := by
  obtain ⟨-, -, e0, e1, -⟩ := idx_facts3 t
  unfold iblk3
  rw [View.read_apply]
  refine congrArg (V c (Pipeline.arrRef spec3 1) : S100000x64.Idx → EReal) ?_
  funext a
  apply Fin.ext
  match a with
  | ⟨0, _⟩ => show win3_1.index t (0 : Fin 2) * 10000 + 1 * r.val = p.val; rw [e0, hp]; omega
  | ⟨1, _⟩ => show win3_1.index t (1 : Fin 2) * 64 + 1 * k.val = k.val; rw [e1]; omega
/-- A resident operand's block at every point is its whole array. -/
theorem iblk3_2_apply (c : Dev nD) (t : Fin cfg3.N) (k : Fin 64) (q : Fin 64) :
    (iblk3 V c 2 t : Vec Ideal S64x64 .f32) (ix2 k q) = (V c (Pipeline.arrRef spec3 2) : S64x64.Idx → EReal) (ix2 k q) := by
  obtain ⟨-, -, -, -, e0, e1, -⟩ := idx_facts3 t
  unfold iblk3
  rw [View.read_apply]
  refine congrArg (V c (Pipeline.arrRef spec3 2) : S64x64.Idx → EReal) ?_
  funext a
  apply Fin.ext
  match a with
  | ⟨0, _⟩ => show win3_2.index t (0 : Fin 2) * 64 + 1 * k.val = k.val; rw [e0]; omega
  | ⟨1, _⟩ => show win3_2.index t (1 : Fin 2) * 64 + 1 * q.val = q.val; rw [e1]; omega
theorem iblk3_3_apply (c : Dev nD) (t : Fin cfg3.N) (k : Fin 64) (q : Fin 64) :
    (iblk3 V c 3 t : Vec Ideal S64x64 .f32) (ix2 k q) = (V c (Pipeline.arrRef spec3 3) : S64x64.Idx → EReal) (ix2 k q) := by
  obtain ⟨-, -, -, -, -, -, e0, e1, -⟩ := idx_facts3 t
  unfold iblk3
  rw [View.read_apply]
  refine congrArg (V c (Pipeline.arrRef spec3 3) : S64x64.Idx → EReal) ?_
  funext a
  apply Fin.ext
  match a with
  | ⟨0, _⟩ => show win3_3.index t (0 : Fin 2) * 64 + 1 * k.val = k.val; rw [e0]; omega
  | ⟨1, _⟩ => show win3_3.index t (1 : Fin 2) * 64 + 1 * q.val = q.val; rw [e1]; omega
theorem iblk3_4_apply (c : Dev nD) (t : Fin cfg3.N) (z : Fin 1) (q : Fin 64) :
    (iblk3 V c 4 t : Vec Ideal S1x64 .f32) (ix2 z q) = (V c (Pipeline.arrRef spec3 4) : S1x64.Idx → EReal) (ix2 z q) := by
  obtain ⟨-, -, -, -, -, -, -, -, e0, e1, -⟩ := idx_facts3 t
  unfold iblk3
  rw [View.read_apply]
  refine congrArg (V c (Pipeline.arrRef spec3 4) : S1x64.Idx → EReal) ?_
  funext a
  apply Fin.ext
  match a with
  | ⟨0, _⟩ => show win3_4.index t (0 : Fin 2) * 1 + 1 * z.val = z.val; rw [e0]; omega
  | ⟨1, _⟩ => show win3_4.index t (1 : Fin 2) * 64 + 1 * q.val = q.val; rw [e1]; omega

/-- The combine of the operand arrays as region 3 finds them. -/
abbrev G3 (c : Dev nD) : S100000x64.Idx → EReal :=
  Cert.Math.combineSpec (V c (Pipeline.arrRef spec3 0)) (V c (Pipeline.arrRef spec3 1)) (V c (Pipeline.arrRef spec3 2))
    (V c (Pipeline.arrRef spec3 3)) (V c (Pipeline.arrRef spec3 4))

/-- What point t writes back is block t of the combine of the whole arrays. -/
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 V c).after 5 t) = _
  rw [after3_5]
  unfold out3_5
  rw [View.canon_unit_zero hz3]
  simp only [View.ld_unit_zero (S := S10000x64) hz3, View.ld_unit_zero (S := S64x64) hz3, View.ld_unit_zero (S := S1x64) hz3]
  funext j
  obtain ⟨r, q, rfl⟩ : ∃ (r : Fin 10000) (q : Fin 64), j = ix2 r q := ⟨j 0, j 1, eq_ix2 j⟩
  obtain ⟨-, -, -, -, -, -, -, -, -, -, e0, e1⟩ := idx_facts3 t
  have ht : t.val < 10 := Nat.lt_of_lt_of_eq t.isLt N_3
  let p : Fin 100000 := ⟨10000 * t.val + r.val, by have := r.isLt; omega⟩
  have hemb : ((cfg3.win 5).blk t).view.emb (ix2 r q) = (ix2 p q : S100000x64.Idx) := by
    funext a
    apply Fin.ext
    match a with
    | ⟨0, _⟩ => show win3_5.index t (0 : Fin 2) * 10000 + 1 * r.val = 10000 * t.val + r.val; rw [e0]; omega
    | ⟨1, _⟩ => show win3_5.index t (1 : Fin 2) * 64 + 1 * q.val = q.val; rw [e1]; omega
  refine (Cert.Math.k0_pay1_apply _ _ _ _ _ r q).trans ?_
  rw [View.read_apply, hemb]
  show _ = Cert.Math.combineAt _ _ _ _ _ p q
  unfold Cert.Math.combineAt
  simp only [iblk3_0_apply V c t r _ p rfl, iblk3_1_apply V c t r _ p rfl, iblk3_2_apply V c t, iblk3_3_apply V c t, iblk3_4_apply V c t, shapeCast_self]

/-- Every row lies in some point's block: row i is in block i / 10000. -/
theorem cover3 (i : S100000x64.Idx) : ∃ t : Fin cfg3.N, (cfg3.win 5).flush t = true ∧ i ∈ ((cfg3.win 5).blk t).view.set := by
  have hi0 : (i 0).val < 100000 := (i 0).isLt
  have hi1 : (i 1).val < 64 := (i 1).isLt
  let t : Fin cfg3.N := ⟨(i 0).val / 10000, by rw [show cfg3.N = 10 from N_3]; omega⟩
  obtain ⟨-, -, -, -, -, -, -, -, -, -, e0, e1⟩ := idx_facts3 t
  refine ⟨t, flush3_5 t, ?_⟩
  show i ∈ ((View.whole main_v87).slice (win3_5.rect t)).set
  rw [View.set_slice_whole, Rect.mem_set_unit]
  intro a
  match a with
  | ⟨0, _⟩ => show win3_5.index t (0 : Fin 2) * 10000 ≤ (i 0).val ∧ (i 0).val < win3_5.index t (0 : Fin 2) * 10000 + 10000
              rw [e0]; show (i 0).val / 10000 * 10000 ≤ (i 0).val ∧ (i 0).val < (i 0).val / 10000 * 10000 + 10000; omega
  | ⟨1, _⟩ => show win3_5.index t (1 : Fin 2) * 64 ≤ (i 1).val ∧ (i 1).val < win3_5.index t (1 : Fin 2) * 64 + 64
              rw [e1]; omega

/-- The result array after region 3: the combine of its operand arrays. -/
theorem final3 (c : Dev nD) : (dat3 (F := Ideal) V c).arrAt 5 cfg3.N = G3 V c :=
  (dat3 V c).arrAt_eq_of_cover 5 (G3 V c) (fun t _ => flushed3_eq V c t) (cover3)

end Cert.KernelIdeal.Hand

end
-- ==== Proof.KI.ValH3.lean ====
/-
  Region 3's result array in closed form: its aggregate operand is what the host stretch before it computes from
  the source features and the edge list, its weights and bias are layer 1 of the stacked arguments, so the
  result is one message-passing step of the arrays the stretch reads.
-/
import proofs.«159478_j19920058318953_1_alg».proof.Proof.KI.Run
import proofs.«159478_j19920058318953_1_alg».proof.Proof.KI.ValC3
import proofs.«159478_j19920058318953_1_alg».proof.Proof.KI.HostFns
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

set_option maxHeartbeats 2000000 in
theorem o3_eq (c : Dev nD) :
    o3 (F := Ideal) m c = sage1 (o0 m c) (o1 m c) (U0 m c main_arg3) (U0 m c main_arg7) (U0 m c main_arg8) (U0 m c main_arg9) := by
  have hG : o3 (F := Ideal) m c = G3 (Ve3 m) c := by unfold o3; exact final3 (Ve3 m) c
  refine hG.trans ?_
  show Cert.Math.combineSpec (U7 m c main_v85) (U7 m c main_v43) (U7 m c main_v67) (U7 m c main_v69) (U7 m c main_v86) = _
  have ha : U7 m c main_v85 = agg (U6 m c main_v21) (U6 m c main_arg3) := by
    unfold U7; dsimp only [hostOps3]; after_results_simp; rfl
  have hwl : U7 m c main_v67 = wSl1 (U6 m c main_arg7) := by
    unfold U7; dsimp only [hostOps3]; after_results_simp; rfl
  have hwr : U7 m c main_v69 = wSl1 (U6 m c main_arg8) := by
    unfold U7; dsimp only [hostOps3]; after_results_simp; rfl
  have hb : U7 m c main_v86 = bRow (bVec1 (U6 m c main_arg9)) := by
    unfold U7; dsimp only [hostOps3]; after_results_simp; rfl
  have hd : U7 m c main_v43 = o1 m c := (U7_of m c main_v43 (by decide)).trans <| (U6_of_ne m c main_v43 (by decide)).trans <| (U5_of m c main_v43 (by decide)).trans <| (U4_out m c)
  have hs : U6 m c main_v21 = o0 m c := (U6_of_ne m c main_v21 (by decide)).trans <| (U5_of m c main_v21 (by decide)).trans <| (U4_of_ne m c main_v21 (by decide)).trans <| (U3_of m c main_v21 (by decide)).trans <| (U2_out m c)
  have he : U6 m c main_arg3 = U0 m c main_arg3 := (U6_of_ne m c main_arg3 (by decide)).trans <| (U5_of m c main_arg3 (by decide)).trans <| (U4_of_ne m c main_arg3 (by decide)).trans <| (U3_of m c main_arg3 (by decide)).trans <| (U2_of_ne m c main_arg3 (by decide)).trans <| (U1_of m c main_arg3 (by decide)).trans <| rfl
  have h1 : U6 m c main_arg7 = U0 m c main_arg7 := (U6_of_ne m c main_arg7 (by decide)).trans <| (U5_of m c main_arg7 (by decide)).trans <| (U4_of_ne m c main_arg7 (by decide)).trans <| (U3_of m c main_arg7 (by decide)).trans <| (U2_of_ne m c main_arg7 (by decide)).trans <| (U1_of m c main_arg7 (by decide)).trans <| rfl
  have h2 : U6 m c main_arg8 = U0 m c main_arg8 := (U6_of_ne m c main_arg8 (by decide)).trans <| (U5_of m c main_arg8 (by decide)).trans <| (U4_of_ne m c main_arg8 (by decide)).trans <| (U3_of m c main_arg8 (by decide)).trans <| (U2_of_ne m c main_arg8 (by decide)).trans <| (U1_of m c main_arg8 (by decide)).trans <| rfl
  have h3 : U6 m c main_arg9 = U0 m c main_arg9 := (U6_of_ne m c main_arg9 (by decide)).trans <| (U5_of m c main_arg9 (by decide)).trans <| (U4_of_ne m c main_arg9 (by decide)).trans <| (U3_of m c main_arg9 (by decide)).trans <| (U2_of_ne m c main_arg9 (by decide)).trans <| (U1_of m c main_arg9 (by decide)).trans <| rfl
  rw [ha, hwl, hwr, hb, hd, hs, he, h1, h2, h3]
  rfl

end Cert.KernelIdeal.Hand

end
-- ==== Proof.KI.ValC4.lean ====
/-
  What region 4 leaves in its result array, over the extended reals: the ten row blocks the grid writes back tile
  the 100000 rows, and block t holds, at row r and column q, the combine (Σ_k a(10000·t+r,k)·Wl(k,q)) +
  (Σ_k x(10000·t+r,k)·Wr(k,q)) + b(0,q) of the operand arrays as the region found them.  So the whole array is the
  combine of the whole operand arrays.
-/
import proofs.«159478_j19920058318953_1_alg».proof.Proof.KI.Combine4
import proofs.«159478_j19920058318953_1_alg».proof.Proof.Math.Spec
import proofs.«159478_j19920058318953_1_alg».proof.Proof.Math.Combine
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The printed block index maps over the grid: the streamed operands and the result move one row block per
    point, the resident operands stay at block (0, 0). -/
theorem idx_facts4 : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- A streamed operand's block at point t is rows 10000·t … 10000·t+9999 of its array. -/
theorem iblk4_0_apply (c : Dev nD) (t : Fin cfg4.N) (r : Fin 10000) (k : Fin 64) (p : Fin 100000) (hp : p.val = 10000 * t.val + r.val) :
    (iblk4 V c 0 t : Vec Ideal S10000x64 .f32) (ix2 r k) = (V c (Pipeline.arrRef spec4 0) : S100000x64.Idx → EReal) (ix2 p k) := by
  obtain ⟨e0, e1, -⟩ := idx_facts4 t
  unfold iblk4
  rw [View.read_apply]
  refine congrArg (V c (Pipeline.arrRef spec4 0) : S100000x64.Idx → EReal) ?_
  funext a
  apply Fin.ext
  match a with
  | ⟨0, _⟩ => show win4_0.index t (0 : Fin 2) * 10000 + 1 * r.val = p.val; rw [e0, hp]; omega
  | ⟨1, _⟩ => show win4_0.index t (1 : Fin 2) * 64 + 1 * k.val = k.val; rw [e1]; omega
theorem iblk4_1_apply (c : Dev nD) (t : Fin cfg4.N) (r : Fin 10000) (k : Fin 64) (p : Fin 100000) (hp : p.val = 10000 * t.val + r.val) :
    (iblk4 V c 1 t : Vec Ideal S10000x64 .f32) (ix2 r k) = (V c (Pipeline.arrRef spec4 1) : S100000x64.Idx → EReal) (ix2 p k) := by
  obtain ⟨-, -, e0, e1, -⟩ := idx_facts4 t
  unfold iblk4
  rw [View.read_apply]
  refine congrArg (V c (Pipeline.arrRef spec4 1) : S100000x64.Idx → EReal) ?_
  funext a
  apply Fin.ext
  match a with
  | ⟨0, _⟩ => show win4_1.index t (0 : Fin 2) * 10000 + 1 * r.val = p.val; rw [e0, hp]; omega
  | ⟨1, _⟩ => show win4_1.index t (1 : Fin 2) * 64 + 1 * k.val = k.val; rw [e1]; omega
/-- A resident operand's block at every point is its whole array. -/
theorem iblk4_2_apply (c : Dev nD) (t : Fin cfg4.N) (k : Fin 64) (q : Fin 64) :
    (iblk4 V c 2 t : Vec Ideal S64x64 .f32) (ix2 k q) = (V c (Pipeline.arrRef spec4 2) : S64x64.Idx → EReal) (ix2 k q) := by
  obtain ⟨-, -, -, -, e0, e1, -⟩ := idx_facts4 t
  unfold iblk4
  rw [View.read_apply]
  refine congrArg (V c (Pipeline.arrRef spec4 2) : S64x64.Idx → EReal) ?_
  funext a
  apply Fin.ext
  match a with
  | ⟨0, _⟩ => show win4_2.index t (0 : Fin 2) * 64 + 1 * k.val = k.val; rw [e0]; omega
  | ⟨1, _⟩ => show win4_2.index t (1 : Fin 2) * 64 + 1 * q.val = q.val; rw [e1]; omega
theorem iblk4_3_apply (c : Dev nD) (t : Fin cfg4.N) (k : Fin 64) (q : Fin 64) :
    (iblk4 V c 3 t : Vec Ideal S64x64 .f32) (ix2 k q) = (V c (Pipeline.arrRef spec4 3) : S64x64.Idx → EReal) (ix2 k q) := by
  obtain ⟨-, -, -, -, -, -, e0, e1, -⟩ := idx_facts4 t
  unfold iblk4
  rw [View.read_apply]
  refine congrArg (V c (Pipeline.arrRef spec4 3) : S64x64.Idx → EReal) ?_
  funext a
  apply Fin.ext
  match a with
  | ⟨0, _⟩ => show win4_3.index t (0 : Fin 2) * 64 + 1 * k.val = k.val; rw [e0]; omega
  | ⟨1, _⟩ => show win4_3.index t (1 : Fin 2) * 64 + 1 * q.val = q.val; rw [e1]; omega
theorem iblk4_4_apply (c : Dev nD) (t : Fin cfg4.N) (z : Fin 1) (q : Fin 64) :
    (iblk4 V c 4 t : Vec Ideal S1x64 .f32) (ix2 z q) = (V c (Pipeline.arrRef spec4 4) : S1x64.Idx → EReal) (ix2 z q) := by
  obtain ⟨-, -, -, -, -, -, -, -, e0, e1, -⟩ := idx_facts4 t
  unfold iblk4
  rw [View.read_apply]
  refine congrArg (V c (Pipeline.arrRef spec4 4) : S1x64.Idx → EReal) ?_
  funext a
  apply Fin.ext
  match a with
  | ⟨0, _⟩ => show win4_4.index t (0 : Fin 2) * 1 + 1 * z.val = z.val; rw [e0]; omega
  | ⟨1, _⟩ => show win4_4.index t (1 : Fin 2) * 64 + 1 * q.val = q.val; rw [e1]; omega

/-- The combine of the operand arrays as region 4 finds them. -/
abbrev G4 (c : Dev nD) : S100000x64.Idx → EReal :=
  Cert.Math.combineSpec (V c (Pipeline.arrRef spec4 0)) (V c (Pipeline.arrRef spec4 1)) (V c (Pipeline.arrRef spec4 2))
    (V c (Pipeline.arrRef spec4 3)) (V c (Pipeline.arrRef spec4 4))

/-- What point t writes back is block t of the combine of the whole arrays. -/
theorem flushed4_eq (c : Dev nD) (t : Fin cfg4.N) :
    (dat4 (F := Ideal) V c).flushed 5 t = ((cfg4.win 5).blk t).view.read (Elt Ideal) (G4 V c) := by
  show (cfg4.win 5).cut (grid4.coords t) ((dat4 V c).after 5 t) = _
  rw [after4_5]
  unfold out4_5
  rw [View.canon_unit_zero hz4]
  simp only [View.ld_unit_zero (S := S10000x64) hz4, View.ld_unit_zero (S := S64x64) hz4, View.ld_unit_zero (S := S1x64) hz4]
  funext j
  obtain ⟨r, q, rfl⟩ : ∃ (r : Fin 10000) (q : Fin 64), j = ix2 r q := ⟨j 0, j 1, eq_ix2 j⟩
  obtain ⟨-, -, -, -, -, -, -, -, -, -, e0, e1⟩ := idx_facts4 t
  have ht : t.val < 10 := Nat.lt_of_lt_of_eq t.isLt N_4
  let p : Fin 100000 := ⟨10000 * t.val + r.val, by have := r.isLt; omega⟩
  have hemb : ((cfg4.win 5).blk t).view.emb (ix2 r q) = (ix2 p q : S100000x64.Idx) := by
    funext a
    apply Fin.ext
    match a with
    | ⟨0, _⟩ => show win4_5.index t (0 : Fin 2) * 10000 + 1 * r.val = 10000 * t.val + r.val; rw [e0]; omega
    | ⟨1, _⟩ => show win4_5.index t (1 : Fin 2) * 64 + 1 * q.val = q.val; rw [e1]; omega
  refine (Cert.Math.k0_pay1_apply _ _ _ _ _ r q).trans ?_
  rw [View.read_apply, hemb]
  show _ = Cert.Math.combineAt _ _ _ _ _ p q
  unfold Cert.Math.combineAt
  simp only [iblk4_0_apply V c t r _ p rfl, iblk4_1_apply V c t r _ p rfl, iblk4_2_apply V c t, iblk4_3_apply V c t, iblk4_4_apply V c t, shapeCast_self]

/-- Every row lies in some point's block: row i is in block i / 10000. -/
theorem cover4 (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  let t : Fin cfg4.N := ⟨(i 0).val / 10000, by rw [show cfg4.N = 10 from N_4]; omega⟩
  obtain ⟨-, -, -, -, -, -, -, -, -, -, e0, e1⟩ := idx_facts4 t
  refine ⟨t, flush4_5 t, ?_⟩
  show i ∈ ((View.whole main_v109).slice (win4_5.rect t)).set
  rw [View.set_slice_whole, Rect.mem_set_unit]
  intro a
  match a with
  | ⟨0, _⟩ => show win4_5.index t (0 : Fin 2) * 10000 ≤ (i 0).val ∧ (i 0).val < win4_5.index t (0 : Fin 2) * 10000 + 10000
              rw [e0]; show (i 0).val / 10000 * 10000 ≤ (i 0).val ∧ (i 0).val < (i 0).val / 10000 * 10000 + 10000; omega
  | ⟨1, _⟩ => show win4_5.index t (1 : Fin 2) * 64 ≤ (i 1).val ∧ (i 1).val < win4_5.index t (1 : Fin 2) * 64 + 64
              rw [e1]; omega

/-- The result array after region 4: the combine of its operand arrays. -/
theorem final4 (c : Dev nD) : (dat4 (F := Ideal) V c).arrAt 5 cfg4.N = G4 V c :=
  (dat4 V c).arrAt_eq_of_cover 5 (G4 V c) (fun t _ => flushed4_eq V c t) (cover4)

end Cert.KernelIdeal.Hand

end
-- ==== Proof.KI.ValH4.lean ====
/-
  Region 4's result array in closed form: its aggregate operand is what the host stretch before it computes from
  the source features and the edge list, its weights and bias are layer 2 of the stacked arguments, so the
  result is one message-passing step of the arrays the stretch reads.
-/
import proofs.«159478_j19920058318953_1_alg».proof.Proof.KI.Run
import proofs.«159478_j19920058318953_1_alg».proof.Proof.KI.ValC4
import proofs.«159478_j19920058318953_1_alg».proof.Proof.KI.HostFns
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

set_option maxHeartbeats 2000000 in
theorem o4_eq (c : Dev nD) :
    o4 (F := Ideal) m c = sage2 (o3 m c) (o2 m c) (U0 m c main_arg2) (U0 m c main_arg4) (U0 m c main_arg5) (U0 m c main_arg6) := by
  have hG : o4 (F := Ideal) m c = G4 (Ve4 m) c := by unfold o4; exact final4 (Ve4 m) c
  refine hG.trans ?_
  show Cert.Math.combineSpec (U9 m c main_v107) (U9 m c main_v65) (U9 m c main_v89) (U9 m c main_v91) (U9 m c main_v108) = _
  have ha : U9 m c main_v107 = agg (U8 m c main_v87) (U8 m c main_arg2) := by
    unfold U9; dsimp only [hostOps4]; after_results_simp; rfl
  have hwl : U9 m c main_v89 = wSl2 (U8 m c main_arg4) := by
    unfold U9; dsimp only [hostOps4]; after_results_simp; rfl
  have hwr : U9 m c main_v91 = wSl2 (U8 m c main_arg5) := by
    unfold U9; dsimp only [hostOps4]; after_results_simp; rfl
  have hb : U9 m c main_v108 = bRow (bVec2 (U8 m c main_arg6)) := by
    unfold U9; dsimp only [hostOps4]; after_results_simp; rfl
  have hd : U9 m c main_v65 = o2 m c := (U9_of m c main_v65 (by decide)).trans <| (U8_of_ne m c main_v65 (by decide)).trans <| (U7_of m c main_v65 (by decide)).trans <| (U6_out m c)
  have hs : U8 m c main_v87 = o3 m c := (U8_out m c)
  have he : U8 m c main_arg2 = U0 m c main_arg2 := (U8_of_ne m c main_arg2 (by decide)).trans <| (U7_of m c main_arg2 (by decide)).trans <| (U6_of_ne m c main_arg2 (by decide)).trans <| (U5_of m c main_arg2 (by decide)).trans <| (U4_of_ne m c main_arg2 (by decide)).trans <| (U3_of m c main_arg2 (by decide)).trans <| (U2_of_ne m c main_arg2 (by decide)).trans <| (U1_of m c main_arg2 (by decide)).trans <| rfl
  have h1 : U8 m c main_arg4 = U0 m c main_arg4 := (U8_of_ne m c main_arg4 (by decide)).trans <| (U7_of m c main_arg4 (by decide)).trans <| (U6_of_ne m c main_arg4 (by decide)).trans <| (U5_of m c main_arg4 (by decide)).trans <| (U4_of_ne m c main_arg4 (by decide)).trans <| (U3_of m c main_arg4 (by decide)).trans <| (U2_of_ne m c main_arg4 (by decide)).trans <| (U1_of m c main_arg4 (by decide)).trans <| rfl
  have h2 : U8 m c main_arg5 = U0 m c main_arg5 := (U8_of_ne m c main_arg5 (by decide)).trans <| (U7_of m c main_arg5 (by decide)).trans <| (U6_of_ne m c main_arg5 (by decide)).trans <| (U5_of m c main_arg5 (by decide)).trans <| (U4_of_ne m c main_arg5 (by decide)).trans <| (U3_of m c main_arg5 (by decide)).trans <| (U2_of_ne m c main_arg5 (by decide)).trans <| (U1_of m c main_arg5 (by decide)).trans <| rfl
  have h3 : U8 m c main_arg6 = U0 m c main_arg6 := (U8_of_ne m c main_arg6 (by decide)).trans <| (U7_of m c main_arg6 (by decide)).trans <| (U6_of_ne m c main_arg6 (by decide)).trans <| (U5_of m c main_arg6 (by decide)).trans <| (U4_of_ne m c main_arg6 (by decide)).trans <| (U3_of m c main_arg6 (by decide)).trans <| (U2_of_ne m c main_arg6 (by decide)).trans <| (U1_of m c main_arg6 (by decide)).trans <| rfl
  rw [ha, hwl, hwr, hb, hd, hs, he, h1, h2, h3]
  rfl

end Cert.KernelIdeal.Hand

end
-- ==== Proof.KI.ValC5.lean ====
/-
  What region 5 leaves in its result array, over the extended reals: the ten row blocks the grid writes back tile
  the 100000 rows, and block t holds, at row r and column q, the combine (Σ_k a(10000·t+r,k)·Wl(k,q)) +
  (Σ_k x(10000·t+r,k)·Wr(k,q)) + b(0,q) of the operand arrays as the region found them.  So the whole array is the
  combine of the whole operand arrays.
-/
import proofs.«159478_j19920058318953_1_alg».proof.Proof.KI.Combine5
import proofs.«159478_j19920058318953_1_alg».proof.Proof.Math.Spec
import proofs.«159478_j19920058318953_1_alg».proof.Proof.Math.Combine
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz5 : (![0, 0] : Fin 2 → Nat) = fun _ => 0 := funext fun a => by fin_cases a <;> rfl

/-- The printed block index maps over the grid: the streamed operands and the result move one row block per
    point, the resident operands stay at block (0, 0). -/
theorem idx_facts5 : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- A streamed operand's block at point t is rows 10000·t … 10000·t+9999 of its array. -/
theorem iblk5_0_apply (c : Dev nD) (t : Fin cfg5.N) (r : Fin 10000) (k : Fin 64) (p : Fin 100000) (hp : p.val = 10000 * t.val + r.val) :
    (iblk5 V c 0 t : Vec Ideal S10000x64 .f32) (ix2 r k) = (V c (Pipeline.arrRef spec5 0) : S100000x64.Idx → EReal) (ix2 p k) := by
  obtain ⟨e0, e1, -⟩ := idx_facts5 t
  unfold iblk5
  rw [View.read_apply]
  refine congrArg (V c (Pipeline.arrRef spec5 0) : S100000x64.Idx → EReal) ?_
  funext a
  apply Fin.ext
  match a with
  | ⟨0, _⟩ => show win5_0.index t (0 : Fin 2) * 10000 + 1 * r.val = p.val; rw [e0, hp]; omega
  | ⟨1, _⟩ => show win5_0.index t (1 : Fin 2) * 64 + 1 * k.val = k.val; rw [e1]; omega
theorem iblk5_1_apply (c : Dev nD) (t : Fin cfg5.N) (r : Fin 10000) (k : Fin 64) (p : Fin 100000) (hp : p.val = 10000 * t.val + r.val) :
    (iblk5 V c 1 t : Vec Ideal S10000x64 .f32) (ix2 r k) = (V c (Pipeline.arrRef spec5 1) : S100000x64.Idx → EReal) (ix2 p k) := by
  obtain ⟨-, -, e0, e1, -⟩ := idx_facts5 t
  unfold iblk5
  rw [View.read_apply]
  refine congrArg (V c (Pipeline.arrRef spec5 1) : S100000x64.Idx → EReal) ?_
  funext a
  apply Fin.ext
  match a with
  | ⟨0, _⟩ => show win5_1.index t (0 : Fin 2) * 10000 + 1 * r.val = p.val; rw [e0, hp]; omega
  | ⟨1, _⟩ => show win5_1.index t (1 : Fin 2) * 64 + 1 * k.val = k.val; rw [e1]; omega
/-- A resident operand's block at every point is its whole array. -/
theorem iblk5_2_apply (c : Dev nD) (t : Fin cfg5.N) (k : Fin 64) (q : Fin 64) :
    (iblk5 V c 2 t : Vec Ideal S64x64 .f32) (ix2 k q) = (V c (Pipeline.arrRef spec5 2) : S64x64.Idx → EReal) (ix2 k q) := by
  obtain ⟨-, -, -, -, e0, e1, -⟩ := idx_facts5 t
  unfold iblk5
  rw [View.read_apply]
  refine congrArg (V c (Pipeline.arrRef spec5 2) : S64x64.Idx → EReal) ?_
  funext a
  apply Fin.ext
  match a with
  | ⟨0, _⟩ => show win5_2.index t (0 : Fin 2) * 64 + 1 * k.val = k.val; rw [e0]; omega
  | ⟨1, _⟩ => show win5_2.index t (1 : Fin 2) * 64 + 1 * q.val = q.val; rw [e1]; omega
theorem iblk5_3_apply (c : Dev nD) (t : Fin cfg5.N) (k : Fin 64) (q : Fin 64) :
    (iblk5 V c 3 t : Vec Ideal S64x64 .f32) (ix2 k q) = (V c (Pipeline.arrRef spec5 3) : S64x64.Idx → EReal) (ix2 k q) := by
  obtain ⟨-, -, -, -, -, -, e0, e1, -⟩ := idx_facts5 t
  unfold iblk5
  rw [View.read_apply]
  refine congrArg (V c (Pipeline.arrRef spec5 3) : S64x64.Idx → EReal) ?_
  funext a
  apply Fin.ext
  match a with
  | ⟨0, _⟩ => show win5_3.index t (0 : Fin 2) * 64 + 1 * k.val = k.val; rw [e0]; omega
  | ⟨1, _⟩ => show win5_3.index t (1 : Fin 2) * 64 + 1 * q.val = q.val; rw [e1]; omega
theorem iblk5_4_apply (c : Dev nD) (t : Fin cfg5.N) (z : Fin 1) (q : Fin 64) :
    (iblk5 V c 4 t : Vec Ideal S1x64 .f32) (ix2 z q) = (V c (Pipeline.arrRef spec5 4) : S1x64.Idx → EReal) (ix2 z q) := by
  obtain ⟨-, -, -, -, -, -, -, -, e0, e1, -⟩ := idx_facts5 t
  unfold iblk5
  rw [View.read_apply]
  refine congrArg (V c (Pipeline.arrRef spec5 4) : S1x64.Idx → EReal) ?_
  funext a
  apply Fin.ext
  match a with
  | ⟨0, _⟩ => show win5_4.index t (0 : Fin 2) * 1 + 1 * z.val = z.val; rw [e0]; omega
  | ⟨1, _⟩ => show win5_4.index t (1 : Fin 2) * 64 + 1 * q.val = q.val; rw [e1]; omega

/-- The combine of the operand arrays as region 5 finds them. -/
abbrev G5 (c : Dev nD) : S100000x64.Idx → EReal :=
  Cert.Math.combineSpec (V c (Pipeline.arrRef spec5 0)) (V c (Pipeline.arrRef spec5 1)) (V c (Pipeline.arrRef spec5 2))
    (V c (Pipeline.arrRef spec5 3)) (V c (Pipeline.arrRef spec5 4))

/-- What point t writes back is block t of the combine of the whole arrays. -/
theorem flushed5_eq (c : Dev nD) (t : Fin cfg5.N) :
    (dat5 (F := Ideal) V c).flushed 5 t = ((cfg5.win 5).blk t).view.read (Elt Ideal) (G5 V c) := by
  show (cfg5.win 5).cut (grid5.coords t) ((dat5 V c).after 5 t) = _
  rw [after5_5]
  unfold out5_5
  rw [View.canon_unit_zero hz5]
  simp only [View.ld_unit_zero (S := S10000x64) hz5, View.ld_unit_zero (S := S64x64) hz5, View.ld_unit_zero (S := S1x64) hz5]
  funext j
  obtain ⟨r, q, rfl⟩ : ∃ (r : Fin 10000) (q : Fin 64), j = ix2 r q := ⟨j 0, j 1, eq_ix2 j⟩
  obtain ⟨-, -, -, -, -, -, -, -, -, -, e0, e1⟩ := idx_facts5 t
  have ht : t.val < 10 := Nat.lt_of_lt_of_eq t.isLt N_5
  let p : Fin 100000 := ⟨10000 * t.val + r.val, by have := r.isLt; omega⟩
  have hemb : ((cfg5.win 5).blk t).view.emb (ix2 r q) = (ix2 p q : S100000x64.Idx) := by
    funext a
    apply Fin.ext
    match a with
    | ⟨0, _⟩ => show win5_5.index t (0 : Fin 2) * 10000 + 1 * r.val = 10000 * t.val + r.val; rw [e0]; omega
    | ⟨1, _⟩ => show win5_5.index t (1 : Fin 2) * 64 + 1 * q.val = q.val; rw [e1]; omega
  refine (Cert.Math.k0_pay1_apply _ _ _ _ _ r q).trans ?_
  rw [View.read_apply, hemb]
  show _ = Cert.Math.combineAt _ _ _ _ _ p q
  unfold Cert.Math.combineAt
  simp only [iblk5_0_apply V c t r _ p rfl, iblk5_1_apply V c t r _ p rfl, iblk5_2_apply V c t, iblk5_3_apply V c t, iblk5_4_apply V c t, shapeCast_self]

/-- Every row lies in some point's block: row i is in block i / 10000. -/
theorem cover5 (i : S100000x64.Idx) : ∃ t : Fin cfg5.N, (cfg5.win 5).flush t = true ∧ i ∈ ((cfg5.win 5).blk t).view.set := by
  have hi0 : (i 0).val < 100000 := (i 0).isLt
  have hi1 : (i 1).val < 64 := (i 1).isLt
  let t : Fin cfg5.N := ⟨(i 0).val / 10000, by rw [show cfg5.N = 10 from N_5]; omega⟩
  obtain ⟨-, -, -, -, -, -, -, -, -, -, e0, e1⟩ := idx_facts5 t
  refine ⟨t, flush5_5 t, ?_⟩
  show i ∈ ((View.whole main_v131).slice (win5_5.rect t)).set
  rw [View.set_slice_whole, Rect.mem_set_unit]
  intro a
  match a with
  | ⟨0, _⟩ => show win5_5.index t (0 : Fin 2) * 10000 ≤ (i 0).val ∧ (i 0).val < win5_5.index t (0 : Fin 2) * 10000 + 10000
              rw [e0]; show (i 0).val / 10000 * 10000 ≤ (i 0).val ∧ (i 0).val < (i 0).val / 10000 * 10000 + 10000; omega
  | ⟨1, _⟩ => show win5_5.index t (1 : Fin 2) * 64 ≤ (i 1).val ∧ (i 1).val < win5_5.index t (1 : Fin 2) * 64 + 64
              rw [e1]; omega

/-- The result array after region 5: the combine of its operand arrays. -/
theorem final5 (c : Dev nD) : (dat5 (F := Ideal) V c).arrAt 5 cfg5.N = G5 V c :=
  (dat5 V c).arrAt_eq_of_cover 5 (G5 V c) (fun t _ => flushed5_eq V c t) (cover5)

end Cert.KernelIdeal.Hand

end
-- ==== Proof.KI.ValH5.lean ====
/-
  Region 5's result array in closed form: its aggregate operand is what the host stretch before it computes from
  the source features and the edge list, its weights and bias are layer 2 of the stacked arguments, so the
  result is one message-passing step of the arrays the stretch reads.
-/
import proofs.«159478_j19920058318953_1_alg».proof.Proof.KI.Run
import proofs.«159478_j19920058318953_1_alg».proof.Proof.KI.ValC5
import proofs.«159478_j19920058318953_1_alg».proof.Proof.KI.HostFns
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

set_option maxHeartbeats 2000000 in
theorem o5_eq (c : Dev nD) :
    o5 (F := Ideal) m c = sage2 (o2 m c) (o3 m c) (U0 m c main_arg3) (U0 m c main_arg7) (U0 m c main_arg8) (U0 m c main_arg9) := by
  have hG : o5 (F := Ideal) m c = G5 (Ve5 m) c := by unfold o5; exact final5 (Ve5 m) c
  refine hG.trans ?_
  show Cert.Math.combineSpec (U11 m c main_v129) (U11 m c main_v87) (U11 m c main_v111) (U11 m c main_v113) (U11 m c main_v130) = _
  have ha : U11 m c main_v129 = agg (U10 m c main_v65) (U10 m c main_arg3) := by
    unfold U11; dsimp only [hostOps5]; after_results_simp; rfl
  have hwl : U11 m c main_v111 = wSl2 (U10 m c main_arg7) := by
    unfold U11; dsimp only [hostOps5]; after_results_simp; rfl
  have hwr : U11 m c main_v113 = wSl2 (U10 m c main_arg8) := by
    unfold U11; dsimp only [hostOps5]; after_results_simp; rfl
  have hb : U11 m c main_v130 = bRow (bVec2 (U10 m c main_arg9)) := by
    unfold U11; dsimp only [hostOps5]; after_results_simp; rfl
  have hd : U11 m c main_v87 = o3 m c := (U11_of m c main_v87 (by decide)).trans <| (U10_of_ne m c main_v87 (by decide)).trans <| (U9_of m c main_v87 (by decide)).trans <| (U8_out m c)
  have hs : U10 m c main_v65 = o2 m c := (U10_of_ne m c main_v65 (by decide)).trans <| (U9_of m c main_v65 (by decide)).trans <| (U8_of_ne m c main_v65 (by decide)).trans <| (U7_of m c main_v65 (by decide)).trans <| (U6_out m c)
  have he : U10 m c main_arg3 = U0 m c main_arg3 := (U10_of_ne m c main_arg3 (by decide)).trans <| (U9_of m c main_arg3 (by decide)).trans <| (U8_of_ne m c main_arg3 (by decide)).trans <| (U7_of m c main_arg3 (by decide)).trans <| (U6_of_ne m c main_arg3 (by decide)).trans <| (U5_of m c main_arg3 (by decide)).trans <| (U4_of_ne m c main_arg3 (by decide)).trans <| (U3_of m c main_arg3 (by decide)).trans <| (U2_of_ne m c main_arg3 (by decide)).trans <| (U1_of m c main_arg3 (by decide)).trans <| rfl
  have h1 : U10 m c main_arg7 = U0 m c main_arg7 := (U10_of_ne m c main_arg7 (by decide)).trans <| (U9_of m c main_arg7 (by decide)).trans <| (U8_of_ne m c main_arg7 (by decide)).trans <| (U7_of m c main_arg7 (by decide)).trans <| (U6_of_ne m c main_arg7 (by decide)).trans <| (U5_of m c main_arg7 (by decide)).trans <| (U4_of_ne m c main_arg7 (by decide)).trans <| (U3_of m c main_arg7 (by decide)).trans <| (U2_of_ne m c main_arg7 (by decide)).trans <| (U1_of m c main_arg7 (by decide)).trans <| rfl
  have h2 : U10 m c main_arg8 = U0 m c main_arg8 := (U10_of_ne m c main_arg8 (by decide)).trans <| (U9_of m c main_arg8 (by decide)).trans <| (U8_of_ne m c main_arg8 (by decide)).trans <| (U7_of m c main_arg8 (by decide)).trans <| (U6_of_ne m c main_arg8 (by decide)).trans <| (U5_of m c main_arg8 (by decide)).trans <| (U4_of_ne m c main_arg8 (by decide)).trans <| (U3_of m c main_arg8 (by decide)).trans <| (U2_of_ne m c main_arg8 (by decide)).trans <| (U1_of m c main_arg8 (by decide)).trans <| rfl
  have h3 : U10 m c main_arg9 = U0 m c main_arg9 := (U10_of_ne m c main_arg9 (by decide)).trans <| (U9_of m c main_arg9 (by decide)).trans <| (U8_of_ne m c main_arg9 (by decide)).trans <| (U7_of m c main_arg9 (by decide)).trans <| (U6_of_ne m c main_arg9 (by decide)).trans <| (U5_of m c main_arg9 (by decide)).trans <| (U4_of_ne m c main_arg9 (by decide)).trans <| (U3_of m c main_arg9 (by decide)).trans <| (U2_of_ne m c main_arg9 (by decide)).trans <| (U1_of m c main_arg9 (by decide)).trans <| rfl
  rw [ha, hwl, hwr, hb, hd, hs, he, h1, h2, h3]
  rfl

end Cert.KernelIdeal.Hand

end
-- ==== Proof.KI.ValPool.lean ====
/-
  What the pooling step leaves in its result array.  The 1×1 output block is written back once, after the last
  row block: it is the finished row of column sums times the 64×1 weight column plus the 1×1 bias.  The two resident
  operands' blocks are the whole weight and bias arrays at every block, and row r of the t-th row block of a node
  array is row 10000·t + r of that array.
-/
import proofs.«159478_j19920058318953_1_alg».proof.Proof.KI.Pool
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices, over the grid -/

/-- The two streamed windows read row block `t` at block `t`; -/
theorem idx6_0 : ∀ t : Fin cfg6.N, win6_0.index t (0 : Fin 2) = t.val ∧ win6_0.index t (1 : Fin 2) = 0 :=
  (by decide +kernel : ∀ t : Fin grid6.N, win6_0.index t (0 : Fin 2) = t.val ∧ win6_0.index t (1 : Fin 2) = 0)
theorem idx6_1 : ∀ t : Fin cfg6.N, win6_1.index t (0 : Fin 2) = t.val ∧ win6_1.index t (1 : Fin 2) = 0 :=
  (by decide +kernel : ∀ t : Fin grid6.N, win6_1.index t (0 : Fin 2) = t.val ∧ win6_1.index t (1 : Fin 2) = 0)
/-- the two resident windows and the output window always their one block. -/
theorem idx6_2 : ∀ t : Fin cfg6.N, win6_2.index t (0 : Fin 2) = 0 ∧ win6_2.index t (1 : Fin 2) = 0 :=
  (by decide +kernel : ∀ t : Fin grid6.N, win6_2.index t (0 : Fin 2) = 0 ∧ win6_2.index t (1 : Fin 2) = 0)
theorem idx6_3 : ∀ t : Fin cfg6.N, win6_3.index t (0 : Fin 2) = 0 ∧ win6_3.index t (1 : Fin 2) = 0 :=
  (by decide +kernel : ∀ t : Fin grid6.N, win6_3.index t (0 : Fin 2) = 0 ∧ win6_3.index t (1 : Fin 2) = 0)
theorem idx6_4 : ∀ t : Fin cfg6.N, win6_4.index t (0 : Fin 2) = 0 ∧ win6_4.index t (1 : Fin 2) = 0 :=
  (by decide +kernel : ∀ t : Fin grid6.N, win6_4.index t (0 : Fin 2) = 0 ∧ win6_4.index t (1 : Fin 2) = 0)

/-! ## The streamed blocks as rows of their arrays -/

/-- Element `x` of the first node array's block at `t` is the array's element in row `10000·t + x₀`, column `x₁`. -/
theorem iblk6_0_at (c : Dev nD) (t : Fin cfg6.N) (x : S10000x64.Idx) (k : S100000x64.Idx)
    (hk0 : (k 0).val = 10000 * t.val + (x 0).val) (hk1 : (k 1).val = (x 1).val) :
    (iblk6 V c 0 t : Vec F S10000x64 .f32) x = (V c (Pipeline.arrRef spec6 0) : S100000x64.Idx → Elt F .f32) k := by
  obtain ⟨e0, e1⟩ := idx6_0 t
  unfold iblk6
  rw [View.read_apply]
  show V c (Pipeline.arrRef spec6 0) _ = V c (Pipeline.arrRef spec6 0) _
  refine congrArg (V c (Pipeline.arrRef spec6 0)) ?_
  funext a
  apply Fin.ext
  match a with
  | ⟨0, _⟩ => show win6_0.index t (0 : Fin 2) * 10000 + 1 * (x 0).val = (k 0).val; rw [e0, hk0]; omega
  | ⟨1, _⟩ => show win6_0.index t (1 : Fin 2) * 64 + 1 * (x 1).val = (k 1).val; rw [e1, hk1]; omega

/-- The same for the second node array. -/
theorem iblk6_1_at (c : Dev nD) (t : Fin cfg6.N) (x : S10000x64.Idx) (k : S100000x64.Idx)
    (hk0 : (k 0).val = 10000 * t.val + (x 0).val) (hk1 : (k 1).val = (x 1).val) :
    (iblk6 V c 1 t : Vec F S10000x64 .f32) x = (V c (Pipeline.arrRef spec6 1) : S100000x64.Idx → Elt F .f32) k := by
  obtain ⟨e0, e1⟩ := idx6_1 t
  unfold iblk6
  rw [View.read_apply]
  show V c (Pipeline.arrRef spec6 1) _ = V c (Pipeline.arrRef spec6 1) _
  refine congrArg (V c (Pipeline.arrRef spec6 1)) ?_
  funext a
  apply Fin.ext
  match a with
  | ⟨0, _⟩ => show win6_1.index t (0 : Fin 2) * 10000 + 1 * (x 0).val = (k 0).val; rw [e0, hk0]; omega
  | ⟨1, _⟩ => show win6_1.index t (1 : Fin 2) * 64 + 1 * (x 1).val = (k 1).val; rw [e1, hk1]; omega

/-- By coordinates: row `r`, column `k` of block `t` is row `p = 10000·t + r`, column `k` of the array. -/
theorem iblk6_0_apply (c : Dev nD) (t : Fin cfg6.N) (r : Fin 10000) (k : Fin 64) (p : Fin 100000) (hp : p.val = 10000 * t.val + r.val) :
    (iblk6 V c 0 t : Vec F S10000x64 .f32) (ix2 r k) = (V c (Pipeline.arrRef spec6 0) : S100000x64.Idx → Elt F .f32) (ix2 p k) :=
  iblk6_0_at V c t (ix2 r k) (ix2 p k) hp rfl
theorem iblk6_1_apply (c : Dev nD) (t : Fin cfg6.N) (r : Fin 10000) (k : Fin 64) (p : Fin 100000) (hp : p.val = 10000 * t.val + r.val) :
    (iblk6 V c 1 t : Vec F S10000x64 .f32) (ix2 r k) = (V c (Pipeline.arrRef spec6 1) : S100000x64.Idx → Elt F .f32) (ix2 p k) :=
  iblk6_1_at V c t (ix2 r k) (ix2 p k) hp rfl

/-! ## The resident blocks are the whole arrays -/

/-- The weight column's block at any point is the weight array. -/
theorem iblk6_2_eq (c : Dev nD) (t : Fin cfg6.N) :
    (iblk6 V c 2 t : Vec F S64x1 .f32) = (V c (Pipeline.arrRef spec6 2) : S64x1.Idx → Elt F .f32) := by
  obtain ⟨e0, e1⟩ := idx6_2 t
  have hz' : (fun a => win6_2.index t a * main_arg10.ty.shape.size a) = fun _ => 0 :=
    funext fun a => by
      match a with
      | ⟨0, _⟩ => show win6_2.index t (0 : Fin 2) * _ = 0; rw [e0, Nat.zero_mul]
      | ⟨1, _⟩ => show win6_2.index t (1 : Fin 2) * _ = 0; rw [e1, Nat.zero_mul]
  exact Memref.read_access_unit_zero (Elt F) main_arg10 hz' (fun a => by rw [congrFun hz' a]; simp) (V c (Pipeline.arrRef spec6 2))

/-- The bias's block at any point is the bias array. -/
theorem iblk6_3_eq (c : Dev nD) (t : Fin cfg6.N) :
    (iblk6 V c 3 t : Vec F S1x1 .f32) = (V c (Pipeline.arrRef spec6 3) : S1x1.Idx → Elt F .f32) := by
  obtain ⟨e0, e1⟩ := idx6_3 t
  have hz' : (fun a => win6_3.index t a * main_v132.ty.shape.size a) = fun _ => 0 :=
    funext fun a => by
      match a with
      | ⟨0, _⟩ => show win6_3.index t (0 : Fin 2) * _ = 0; rw [e0, Nat.zero_mul]
      | ⟨1, _⟩ => show win6_3.index t (1 : Fin 2) * _ = 0; rw [e1, Nat.zero_mul]
  exact Memref.read_access_unit_zero (Elt F) main_v132 hz' (fun a => by rw [congrFun hz' a]; simp) (V c (Pipeline.arrRef spec6 3))

/-! ## The result array -/

/-- The pooled result: the running column sums after all ten row blocks, times the weight column, plus the bias. -/
abbrev result6 (c : Dev nD) : Buf (Elt F) ((c : Thread nD τ).loc main_v133) :=
  k6_pay3 (acc6 V c 10) (V c (Pipeline.arrRef spec6 2) : S64x1.Idx → Elt F .f32) (V c (Pipeline.arrRef spec6 3) : S1x1.Idx → Elt F .f32)

/-- The one write-back, after the last row block, writes `result6`: the output's one block is its whole array. -/
theorem flushed6_eq (c : Dev nD) (t : Fin cfg6.N) (hf : (cfg6.win 4).flush t = true) :
    (dat6 V c).flushed 4 t = ((cfg6.win 4).blk t).view.read (Elt F) (result6 V c) := by
  have hN : t.val < 10 := lt_of_lt_of_eq t.isLt (show cfg6.N = 10 from N_6)
  have h9 : t.val = 9 := by have := (flush6_4 t).mp hf; omega
  obtain ⟨e0, e1⟩ := idx6_4 t
  show (cfg6.win 4).cut (grid6.coords t) ((dat6 V c).after 4 t) = _
  rw [after6_4_last V c t h9, iblk6_2_eq, iblk6_3_eq]
  have hz' : (fun a => win6_4.index t a * main_v133.ty.shape.size a) = fun _ => 0 :=
    funext fun a => by
      match a with
      | ⟨0, _⟩ => show win6_4.index t (0 : Fin 2) * _ = 0; rw [e0, Nat.zero_mul]
      | ⟨1, _⟩ => show win6_4.index t (1 : Fin 2) * _ = 0; rw [e1, Nat.zero_mul]
  exact (Memref.read_access_unit_zero (Elt F) main_v133 hz' (fun a => by rw [congrFun hz' a]; simp) (result6 V c)).symm

/-- So the result array ends holding `result6`: the last point's block covers it. -/
theorem final6 (c : Dev nD) : (dat6 V c).arrAt 4 cfg6.N = result6 V c :=
  (dat6 V c).arrAt_eq_of_cover 4 (result6 V c) (flushed6_eq V c) fun i =>
    ⟨t6_9, (flush6_4 t6_9).mpr rfl, by
      show i ∈ ((View.whole main_v133).slice (win6_4.rect t6_9)).set
      rw [View.set_slice_whole, Rect.mem_set_unit]
      intro a
      have h0 : (i 0 : Nat) < 1 := (i 0).isLt
      have h1 : (i 1 : Nat) < 1 := (i 1).isLt
      match a with
      | ⟨0, _⟩ =>
        show win6_4.index t6_9 0 * win6_4.size 0 ≤ (i 0 : Nat) ∧ (i 0 : Nat) < win6_4.index t6_9 0 * win6_4.size 0 + win6_4.xsize (grid6.coords t6_9) 0
        rw [show win6_4.index t6_9 0 * win6_4.size 0 = 0 from by decide +kernel, show win6_4.xsize (grid6.coords t6_9) 0 = 1 from by decide +kernel]; omega
      | ⟨1, _⟩ =>
        show win6_4.index t6_9 1 * win6_4.size 1 ≤ (i 1 : Nat) ∧ (i 1 : Nat) < win6_4.index t6_9 1 * win6_4.size 1 + win6_4.xsize (grid6.coords t6_9) 1
        rw [show win6_4.index t6_9 1 * win6_4.size 1 = 0 from by decide +kernel, show win6_4.xsize (grid6.coords t6_9) 1 = 1 from by decide +kernel]; omega⟩

end Cert.KernelIdeal.Hand
-- ==== Proof.Math.Pool.lean ====
/-
  The pooling kernel's three stored values, read at an entry, over the extended reals.

  The accumulator row is first set to zero.  At each block it receives the column sums of the block of each of the
  two matrices: a sum over the rows (axis 0) of a 10000 × 64 block, recast as a one-row matrix, read at (0, k), is
  Σ_r block (r, k).  At the end the row meets the 64 × 1 weight column in a plain matrix product and the bias is
  added: the one entry is  Σ_k acc (0, k) · w (k, 0) + b (0, 0).
-/
import proofs.«159478_j19920058318953_1_alg».proof.Proof.Gen.KernelIdeal.Skeleton
import proofs.«159478_j19920058318953_1_alg».proof.Proof.LibPlainMatmul

noncomputable section

open scoped BigOperators

namespace Cert.Math

open Idealize.ShloMosaic Idealize.ShloMosaic.ValueIdx Cert.KernelIdeal

/-- The zero row. -/
theorem k6_pay1_apply (k : Fin 64) : Cert.KernelIdeal.Gen.k6_pay1 (F := Ideal) (ix2 (0 : Fin 1) k) = 0 := by
  unfold Cert.KernelIdeal.Gen.k6_pay1
  simp only [shapeCast_self]
  exact Ideal.ofBits_zero_f32

/-- Column sums of a block as a one-row matrix, read at (0, k). -/
theorem colSumRow_apply (v : FVec Ideal S10000x64 .f32) (h : S10000x64.Reduces [0] S64) (hφ : FKind.Formats .f32)
    (hacc : (0x00000000#32 : BitVec 32) = FKind.add.neutral .f32 hφ) (hc : S64.ShapeCasts S1x64) (k : Fin 64) :
    shapeCast S1x64 (multiReduction (F := Ideal) .add [0] S64 v 0x00000000#32 h hφ hacc) hc (ix2 (0 : Fin 1) k)
      = ∑ r : Fin 10000, v (ix2 r k) := by
  refine (shapeCast_addUnit_apply ![64] _ hc (ix2 (0 : Fin 1) k)).trans ?_
  refine (Ideal.multiReduction_add_single v 0x00000000#32 h hφ hacc _).trans ?_
  show ∑ r : Fin 10000, v (h.lift _ r) = _
  refine Finset.sum_congr rfl fun r _ => congrArg v (funext fun a => Fin.ext ?_)
  match a with
  | ⟨0, _⟩ => rfl
  | ⟨1, _⟩ => rfl

/-- ONE ACCUMULATION STEP at (0, k): the accumulator plus the two blocks' column sums. -/
theorem k6_pay2_apply (acc : Vec Ideal S1x64 .f32) (b1 b2 : Vec Ideal S10000x64 .f32) (k : Fin 64) :
    Cert.KernelIdeal.Gen.k6_pay2 (F := Ideal) acc b1 b2 (ix2 (0 : Fin 1) k)
      = acc (ix2 (0 : Fin 1) k) + ((∑ r : Fin 10000, b1 (ix2 r k)) + (∑ r : Fin 10000, b2 (ix2 r k))) := by
  unfold Cert.KernelIdeal.Gen.k6_pay2
  simp only [shapeCast_self]
  rw [addf_apply, addf_apply]
  exact congrArg (acc (ix2 (0 : Fin 1) k) + ·)
    (congrArg₂ (· + ·) (colSumRow_apply b1 _ _ _ _ k) (colSumRow_apply b2 _ _ _ _ k))

/-- The final product's dimension numbers are those of a plain product. -/
theorem dotPool_isPlain :
    PlainMatmul.IsPlain (M := 1) (K := 64) (N := 1) Cert.KernelIdeal.dot_S1x64_S64x1_S1x1_1_0_0_1_n_n :=
  ⟨rfl, rfl, rfl, rfl, rfl, rfl⟩

/-- THE FINAL ENTRY: the accumulated row against the weight column, plus the bias. -/
theorem k6_pay3_apply (acc : Vec Ideal S1x64 .f32) (w : Vec Ideal S64x1 .f32) (b : Vec Ideal S1x1 .f32) :
    Cert.KernelIdeal.Gen.k6_pay3 (F := Ideal) acc w b (ix2 (0 : Fin 1) (0 : Fin 1))
      = (∑ k : Fin 64, acc (ix2 (0 : Fin 1) k) * w (ix2 k (0 : Fin 1))) + b (ix2 (0 : Fin 1) (0 : Fin 1)) := by
  unfold Cert.KernelIdeal.Gen.k6_pay3
  simp only [shapeCast_self, matmul]
  rw [addf_apply, PlainMatmul.matmul_zero_apply _ dotPool_isPlain]

end Cert.Math

end
-- ==== Proof.Math.PoolAcc.lean ====
/-
  Column sums of a tall matrix taken ten row blocks at a time.

  A matrix of 100000 rows is cut into ten blocks of 10000 consecutive rows.  A row accumulator starts at zero and,
  block by block, receives the column sums of the block of each of two matrices.  After n blocks it holds, in column k,
      Σ_{t < n} Σ_{r < 10000} xs (10000 t + r, k)  +  Σ_{t < n} Σ_{r < 10000} xt (10000 t + r, k),
  and after all ten the two full column sums  Σ_p xs (p, k) + Σ_p xt (p, k):  a sum over 100000 rows is the sum over
  the blocks of the sums within a block, because (t, r) ↦ 10000 t + r is a bijection from pairs onto rows.
  Only commutativity and associativity of addition are used, so everything holds over the extended reals.
-/
import Idealize.ShloMosaic.Lib.ValueIdx
import Idealize.ShloMosaic.PureOps.Ideal.Laws

noncomputable section

open scoped BigOperators

namespace Cert.Math

open Idealize.ShloMosaic Idealize.ShloMosaic.ValueIdx

/-- A sum over 100000 rows, block by block. -/
theorem sum_rows_eq_sum_blocks {M : Type*} [AddCommMonoid M] (f : Fin 100000 → M) :
    ∑ p : Fin 100000, f p
      = ∑ t : Fin 10, ∑ r : Fin 10000, f ⟨10000 * t.val + r.val, by have := t.isLt; have := r.isLt; omega⟩ := by
  have e := (Equiv.sum_comp (finProdFinEquiv (m := 10) (n := 10000)) f).symm
  refine e.trans ((Fintype.sum_prod_type _).trans ?_)
  refine Finset.sum_congr rfl fun t _ => Finset.sum_congr rfl fun r _ => congrArg f (Fin.ext ?_)
  show r.val + 10000 * t.val = 10000 * t.val + r.val
  omega

/-- Row block t of a matrix of 100000 rows (rows 10000 t … 10000 t + 9999; the row number is taken modulo 100000 so
    that the block is defined for every t, and is the plain one for t < 10). -/
def rowBlock (xs : FVec Ideal ⟨2, ![100000, 64]⟩ .f32) (t : Nat) : FVec Ideal ⟨2, ![10000, 64]⟩ .f32 :=
  fun y => xs (ix2 (⟨(10000 * t + (y 0 : Fin 10000).val) % 100000, Nat.mod_lt _ (by decide)⟩ : Fin 100000) (y 1 : Fin 64))

theorem rowBlock_apply (xs : FVec Ideal ⟨2, ![100000, 64]⟩ .f32) (t : Nat) (ht : t < 10) (r : Fin 10000) (k : Fin 64) :
    rowBlock xs t (ix2 r k) = xs (ix2 (⟨10000 * t + r.val, by have := r.isLt; omega⟩ : Fin 100000) k) := by
  have h : (10000 * t + r.val) % 100000 = 10000 * t + r.val := Nat.mod_eq_of_lt (by have := r.isLt; omega)
  show xs (ix2 (⟨(10000 * t + r.val) % 100000, _⟩ : Fin 100000) k) = _
  exact congrArg (fun p => xs (ix2 p k)) (Fin.ext h)

/-- The accumulator after n blocks, for any two families of blocks. -/
def poolAcc (bs bt : Nat → FVec Ideal ⟨2, ![10000, 64]⟩ .f32) (n : Nat) : FVec Ideal ⟨2, ![1, 64]⟩ .f32 :=
  fun j => (∑ t ∈ Finset.range n, ∑ r : Fin 10000, bs t (ix2 r (j 1 : Fin 64)))
    + (∑ t ∈ Finset.range n, ∑ r : Fin 10000, bt t (ix2 r (j 1 : Fin 64)))

theorem poolAcc_apply (bs bt : Nat → FVec Ideal ⟨2, ![10000, 64]⟩ .f32) (n : Nat) (k : Fin 64) :
    poolAcc bs bt n (ix2 (0 : Fin 1) k)
      = (∑ t ∈ Finset.range n, ∑ r : Fin 10000, bs t (ix2 r k)) + (∑ t ∈ Finset.range n, ∑ r : Fin 10000, bt t (ix2 r k)) := rfl

/-- Before any block the accumulator is zero. -/
theorem poolAcc_zero (bs bt : Nat → FVec Ideal ⟨2, ![10000, 64]⟩ .f32) (k : Fin 64) :
    poolAcc bs bt 0 (ix2 (0 : Fin 1) k) = 0 := by
  rw [poolAcc_apply, Finset.sum_range_zero, Finset.sum_range_zero, add_zero]

/-- One more block: the accumulator plus the column sums of block n of each matrix. -/
theorem poolAcc_succ (bs bt : Nat → FVec Ideal ⟨2, ![10000, 64]⟩ .f32) (n : Nat) (k : Fin 64) :
    poolAcc bs bt (n + 1) (ix2 (0 : Fin 1) k)
      = poolAcc bs bt n (ix2 (0 : Fin 1) k)
          + ((∑ r : Fin 10000, bs n (ix2 r k)) + (∑ r : Fin 10000, bt n (ix2 r k))) := by
  rw [poolAcc_apply, poolAcc_apply, Finset.sum_range_succ, Finset.sum_range_succ]
  exact add_add_add_comm _ _ _ _

/-- The block sums of the row blocks of one matrix, over all ten blocks, are its column sum. -/
theorem sum_rowBlocks (xs : FVec Ideal ⟨2, ![100000, 64]⟩ .f32) (k : Fin 64) :
    ∑ t ∈ Finset.range 10, ∑ r : Fin 10000, rowBlock xs t (ix2 r k) = ∑ p : Fin 100000, xs (ix2 p k) := by
  rw [Finset.sum_range fun t => ∑ r : Fin 10000, rowBlock xs t (ix2 r k),
    sum_rows_eq_sum_blocks fun p => xs (ix2 p k)]
  exact Finset.sum_congr rfl fun t _ => Finset.sum_congr rfl fun r _ => rowBlock_apply xs t.val t.isLt r k

/-- AFTER ALL TEN BLOCKS the accumulator holds the two full column sums. -/
theorem poolAcc_ten (xs xt : FVec Ideal ⟨2, ![100000, 64]⟩ .f32) (k : Fin 64) :
    poolAcc (rowBlock xs) (rowBlock xt) 10 (ix2 (0 : Fin 1) k)
      = (∑ p : Fin 100000, xs (ix2 p k)) + (∑ p : Fin 100000, xt (ix2 p k)) := by
  rw [poolAcc_apply, sum_rowBlocks, sum_rowBlocks]

/-- The same for any families of blocks that agree with the row blocks on the ten blocks there are. -/
theorem poolAcc_ten_of_blocks (bs bt : Nat → FVec Ideal ⟨2, ![10000, 64]⟩ .f32) (xs xt : FVec Ideal ⟨2, ![100000, 64]⟩ .f32)
    (hs : ∀ t, t < 10 → bs t = rowBlock xs t) (ht : ∀ t, t < 10 → bt t = rowBlock xt t) (k : Fin 64) :
    poolAcc bs bt 10 (ix2 (0 : Fin 1) k)
      = (∑ p : Fin 100000, xs (ix2 p k)) + (∑ p : Fin 100000, xt (ix2 p k)) := by
  rw [← poolAcc_ten, poolAcc_apply, poolAcc_apply]
  refine congrArg₂ (· + ·) (Finset.sum_congr rfl fun t h => ?_) (Finset.sum_congr rfl fun t h => ?_)
  · rw [hs t (Finset.mem_range.mp h)]
  · rw [ht t (Finset.mem_range.mp h)]

end Cert.Math

end
-- ==== Proof.Math.PoolRef.lean ====
/-
  The reference's pooled output, read at its one entry.

  The reference sums each of the two 100000 × 64 matrices over its rows, from zero: at column k the sum  Σ_p xs (p, k).
  Each vector of 64 sums is made a one-row matrix, the two rows are added, the row meets the 64 × 1 weight column in
  a matrix product with no accumulator, and the bias, a vector of one entry made a 1 × 1 matrix, is added:
      Σ_k (Σ_p xs (p, k) + Σ_p xt (p, k)) · w (k, 0)  +  b (0).
-/
import proofs.«159478_j19920058318953_1_alg».proof.Proof.Gen.ReferenceIdeal
import proofs.«159478_j19920058318953_1_alg».proof.Proof.LibPlainMatmul
import Idealize.ShloMosaic.Lib.KernelVsHost
import Idealize.ShloMosaic.Lib.IdealHost

noncomputable section

open scoped BigOperators

namespace Cert.Math

open Idealize.ShloMosaic Idealize.ShloMosaic.ValueIdx Cert.ReferenceIdeal Cert.ReferenceIdeal.Facts₀

/-- Summing a 100000 × 64 matrix over its rows leaves a vector of 64 entries. -/
theorem reduces_rows : S100000x64.Reduces [0] S64 := by decide

/-- The reference's column sum from zero, at column k. -/
theorem refColSum_apply (xs : FVec Ideal S100000x64 .f32) (k : Fin 64) :
    Host.reduceAdd (F := Ideal) xs (constant (F := Ideal) S_ .f32 0x00000000#32) reducesTo_S100000x64_S64_d0 h_S_ (ix1 k)
      = ∑ p : Fin 100000, xs (ix2 p k) := by
  rw [hostReduceAdd_apply, Ideal.hostReduceAdd_single reducesTo_S100000x64_S64_d0 reduces_rows, constant_apply,
    Ideal.ofBits_zero_f32, zero_add]
  show ∑ p : Fin 100000, xs (reduces_rows.lift (ix1 k) p) = _
  refine Finset.sum_congr rfl fun p _ => congrArg xs (funext fun a => Fin.ext ?_)
  match a with
  | ⟨0, _⟩ => rfl
  | ⟨1, _⟩ => rfl

/-- A vector of 64 entries made a one-row matrix, read at (0, k). -/
theorem vecRow_apply (v : FVec Ideal S64 .f32) (k : Fin 64) :
    broadcastInDim S1x64 ![1] bcast_S64_S1x64_1 v (ix2 (0 : Fin 1) k) = v (ix1 k) := by
  refine broadcastInDim_apply ![1] bcast_S64_S1x64_1 v (ix2 (0 : Fin 1) k) (ix1 k) fun a => ?_
  match a with
  | ⟨0, _⟩ => rfl

/-- A vector of one entry made a 1 × 1 matrix, read at (0, 0). -/
theorem vecOne_apply (v : FVec Ideal S1 .f32) :
    broadcastInDim S1x1 ![1] bcast_S1_S1x1_1 v (ix2 (0 : Fin 1) (0 : Fin 1)) = v (ix1 (0 : Fin 1)) := by
  refine broadcastInDim_apply ![1] bcast_S1_S1x1_1 v (ix2 (0 : Fin 1) (0 : Fin 1)) (ix1 (0 : Fin 1)) fun a => ?_
  match a with
  | ⟨0, _⟩ => rfl

/-- The reference's final product has the dimension numbers of a plain product. -/
theorem dotRefPool_isPlain :
    PlainMatmul.IsPlain (M := 1) (K := 64) (N := 1) Cert.ReferenceIdeal.dot_S1x64_S64x1_S1x1_1_0_0_1_n_n :=
  ⟨rfl, rfl, rfl, rfl, rfl, rfl⟩

/-- The one entry of the reference's final product: the sum over the contraction position. -/
theorem dotRefPool_apply (l : FVec Ideal S1x64 .f32) (w : FVec Ideal S64x1 .f32) :
    Host.dotGeneral (F := Ideal) dot_S1x64_S64x1_S1x1_1_0_0_1_n_n none l w (ix2 (0 : Fin 1) (0 : Fin 1))
      = ∑ k : Fin 64, l (ix2 (0 : Fin 1) k) * w (ix2 k (0 : Fin 1)) := by
  rw [← matmul_zero_eq_dotGeneral]
  exact PlainMatmul.matmul_zero_apply _ dotRefPool_isPlain none l w 0 0

/-- THE REFERENCE'S POOLED OUTPUT, spelt as printed, at its one entry. -/
theorem refPool_apply (xs xt : FVec Ideal S100000x64 .f32) (w : FVec Ideal S64x1 .f32) (bv : FVec Ideal S1 .f32) :
    addf
        (Host.dotGeneral (F := Ideal) dot_S1x64_S64x1_S1x1_1_0_0_1_n_n none
          (addf
            (broadcastInDim S1x64 ![1] bcast_S64_S1x64_1
              (Host.reduceAdd (F := Ideal) xs (constant (F := Ideal) S_ .f32 0x00000000#32) reducesTo_S100000x64_S64_d0 h_S_))
            (broadcastInDim S1x64 ![1] bcast_S64_S1x64_1
              (Host.reduceAdd (F := Ideal) xt (constant (F := Ideal) S_ .f32 0x00000000#32) reducesTo_S100000x64_S64_d0 h_S_)))
          w)
        (broadcastInDim S1x1 ![1] bcast_S1_S1x1_1 bv) (ix2 (0 : Fin 1) (0 : Fin 1))
      = (∑ k : Fin 64, ((∑ p : Fin 100000, xs (ix2 p k)) + (∑ p : Fin 100000, xt (ix2 p k))) * w (ix2 k (0 : Fin 1)))
          + bv (ix1 (0 : Fin 1)) := by
  rw [addf_apply, vecOne_apply, dotRefPool_apply]
  refine congrArg (· + bv (ix1 (0 : Fin 1))) (Finset.sum_congr rfl fun k _ => ?_)
  rw [addf_apply, vecRow_apply, vecRow_apply, refColSum_apply, refColSum_apply]

end Cert.Math

end
-- ==== Proof.Math.PoolFinal.lean ====
/-
  The pooling kernel against the reference.

  The kernel's accumulator row, set to zero and then given the column sums of the row blocks of the two matrices one
  block at a time, is after n blocks the accumulator of the block recursion; after all ten it holds the two full
  column sums, so the kernel's final entry  Σ_k acc (0, k) · w (k, 0) + b  is the reference's pooled output.
-/
import proofs.«159478_j19920058318953_1_alg».proof.Proof.Math.Pool
import proofs.«159478_j19920058318953_1_alg».proof.Proof.Math.PoolAcc
import proofs.«159478_j19920058318953_1_alg».proof.Proof.Math.PoolRef

noncomputable section

open scoped BigOperators

namespace Cert.Math

open Idealize.ShloMosaic Idealize.ShloMosaic.ValueIdx

/-- Every index of a one-row matrix is (0, k). -/
theorem exists_ix2_row (j : (⟨2, ![1, 64]⟩ : Shape).Idx) : ∃ k : Fin 64, j = ix2 (0 : Fin 1) k := by
  refine ⟨j 1, funext fun a => ?_⟩
  match a with
  | ⟨0, _⟩ => exact Subsingleton.elim (α := Fin 1) _ _
  | ⟨1, _⟩ => rfl

/-- The one index of a 1 × 1 matrix is (0, 0). -/
theorem eq_ix2_one (j : (⟨2, ![1, 1]⟩ : Shape).Idx) : j = ix2 (0 : Fin 1) (0 : Fin 1) := by
  funext a
  match a with
  | ⟨0, _⟩ => exact Subsingleton.elim (α := Fin 1) _ _
  | ⟨1, _⟩ => exact Subsingleton.elim (α := Fin 1) _ _

/-- The row the kernel first stores is the accumulator before any block. -/
theorem k6_pay1_eq_poolAcc (bs bt : Nat → FVec Ideal ⟨2, ![10000, 64]⟩ .f32) :
    Cert.KernelIdeal.Gen.k6_pay1 (F := Ideal) = poolAcc bs bt 0 := by
  funext j
  obtain ⟨k, rfl⟩ := exists_ix2_row j
  rw [k6_pay1_apply, poolAcc_zero]

/-- ONE STEP OF THE KERNEL on the accumulator after n blocks and block n of each matrix gives the accumulator after
    n + 1 blocks. -/
theorem k6_pay2_poolAcc (bs bt : Nat → FVec Ideal ⟨2, ![10000, 64]⟩ .f32) (n : Nat) :
    Cert.KernelIdeal.Gen.k6_pay2 (F := Ideal) (poolAcc bs bt n) (bs n) (bt n) = poolAcc bs bt (n + 1) := by
  funext j
  obtain ⟨k, rfl⟩ := exists_ix2_row j
  rw [k6_pay2_apply, poolAcc_succ]

/-- THE KERNEL'S FINAL VALUE on the accumulator after all ten row blocks IS THE REFERENCE'S POOLED OUTPUT, for a 1 × 1
    bias whose entry is the reference's bias entry. -/
theorem k6_pay3_eq_refPool (xs xt : FVec Ideal ⟨2, ![100000, 64]⟩ .f32) (w : FVec Ideal ⟨2, ![64, 1]⟩ .f32)
    (b : FVec Ideal ⟨2, ![1, 1]⟩ .f32) (bv : FVec Ideal ⟨1, ![1]⟩ .f32)
    (hb : b (ix2 (0 : Fin 1) (0 : Fin 1)) = bv (ix1 (0 : Fin 1))) :
    Cert.KernelIdeal.Gen.k6_pay3 (F := Ideal) (poolAcc (rowBlock xs) (rowBlock xt) 10) w b
      = addf
          (Host.dotGeneral (F := Ideal) Cert.ReferenceIdeal.dot_S1x64_S64x1_S1x1_1_0_0_1_n_n none
            (addf
              (broadcastInDim Cert.ReferenceIdeal.S1x64 ![1] Cert.ReferenceIdeal.Facts₀.bcast_S64_S1x64_1
                (Host.reduceAdd (F := Ideal) xs (constant (F := Ideal) Cert.ReferenceIdeal.S_ .f32 0x00000000#32)
                  Cert.ReferenceIdeal.Facts₀.reducesTo_S100000x64_S64_d0 Cert.ReferenceIdeal.Facts₀.h_S_))
              (broadcastInDim Cert.ReferenceIdeal.S1x64 ![1] Cert.ReferenceIdeal.Facts₀.bcast_S64_S1x64_1
                (Host.reduceAdd (F := Ideal) xt (constant (F := Ideal) Cert.ReferenceIdeal.S_ .f32 0x00000000#32)
                  Cert.ReferenceIdeal.Facts₀.reducesTo_S100000x64_S64_d0 Cert.ReferenceIdeal.Facts₀.h_S_)))
            w)
          (broadcastInDim Cert.ReferenceIdeal.S1x1 ![1] Cert.ReferenceIdeal.Facts₀.bcast_S1_S1x1_1 bv) := by
  funext j
  rw [eq_ix2_one j, k6_pay3_apply, refPool_apply, hb]
  refine congrArg (· + bv (ix1 (0 : Fin 1))) (Finset.sum_congr rfl fun k _ => ?_)
  rw [poolAcc_ten]

end Cert.Math

end
-- ==== Proof.KI.ValPool2.lean ====
/-
  The pooling step's result against the reference.  The scratch row after n row blocks is the block recursion's
  accumulator over the row blocks of the two node arrays, because row r of the t-th row block is row 10000·t + r of
  the array; after all ten blocks it holds the two full column sums, and the stored result — that row times the
  weight column plus the bias — is the reference's pooled output.
-/
import proofs.«159478_j19920058318953_1_alg».proof.Proof.KI.ValPool
import proofs.«159478_j19920058318953_1_alg».proof.Proof.Math.PoolFinal

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Every index of a 10000 × 64 block is (r, k). -/
theorem exists_ix2_block (y : (⟨2, ![10000, 64]⟩ : Shape).Idx) : ∃ (r : Fin 10000) (k : Fin 64), y = ix2 r k :=
  ⟨y 0, y 1, eq_ix2 y⟩

/-- The first node array's block at `t` is its row block `t`. -/
theorem iblk6_0_eq_rowBlock (c : Dev nD) (t : Fin cfg6.N) :
    (iblk6 V c 0 t : Vec Ideal S10000x64 .f32) = Cert.Math.rowBlock (V c (Pipeline.arrRef spec6 0)) t.val := by
  have ht : t.val < 10 := lt_of_lt_of_eq t.isLt (show cfg6.N = 10 from N_6)
  funext y
  obtain ⟨r, k, rfl⟩ := exists_ix2_block y
  exact (iblk6_0_apply V c t r k ⟨10000 * t.val + r.val, by have := r.isLt; omega⟩ rfl).trans
    (Cert.Math.rowBlock_apply _ t.val ht r k).symm

/-- The second node array's likewise. -/
theorem iblk6_1_eq_rowBlock (c : Dev nD) (t : Fin cfg6.N) :
    (iblk6 V c 1 t : Vec Ideal S10000x64 .f32) = Cert.Math.rowBlock (V c (Pipeline.arrRef spec6 1)) t.val := by
  have ht : t.val < 10 := lt_of_lt_of_eq t.isLt (show cfg6.N = 10 from N_6)
  funext y
  obtain ⟨r, k, rfl⟩ := exists_ix2_block y
  exact (iblk6_1_apply V c t r k ⟨10000 * t.val + r.val, by have := r.isLt; omega⟩ rfl).trans
    (Cert.Math.rowBlock_apply _ t.val ht r k).symm

/-- The scratch row after `n` row blocks is the block recursion's accumulator over the two arrays' row blocks. -/
theorem acc6_eq_poolAcc (c : Dev nD) (n : ℕ) (hn : n ≤ 10) :
    acc6 V c n = Cert.Math.poolAcc (Cert.Math.rowBlock (V c (Pipeline.arrRef spec6 0)))
      (Cert.Math.rowBlock (V c (Pipeline.arrRef spec6 1))) n := by
  induction n with
  | zero => exact (acc6_zero V c).trans (Cert.Math.k6_pay1_eq_poolAcc _ _)
  | succ n ih =>
    have hlt : n < cfg6.N := lt_of_lt_of_eq (Nat.lt_of_succ_le hn) (show (10 : ℕ) = cfg6.N from N_6.symm)
    refine (acc6_succ V c ⟨n, hlt⟩).trans ?_
    show k6_pay2 (acc6 V c n) (iblk6 V c 0 ⟨n, hlt⟩) (iblk6 V c 1 ⟨n, hlt⟩) = _
    rw [ih (Nat.le_of_succ_le hn), iblk6_0_eq_rowBlock V c ⟨n, hlt⟩, iblk6_1_eq_rowBlock V c ⟨n, hlt⟩]
    exact Cert.Math.k6_pay2_poolAcc _ _ n

/-- The reference's pooled output of two node arrays, a weight column and a one-entry bias, as it is printed. -/
abbrev refPool6 (xs xt : FVec Ideal ⟨2, ![100000, 64]⟩ .f32) (w : FVec Ideal ⟨2, ![64, 1]⟩ .f32) (bv : FVec Ideal ⟨1, ![1]⟩ .f32) :
    FVec Ideal ⟨2, ![1, 1]⟩ .f32 :=
  addf
    (Host.dotGeneral (F := Ideal) Cert.ReferenceIdeal.dot_S1x64_S64x1_S1x1_1_0_0_1_n_n none
      (addf
        (broadcastInDim Cert.ReferenceIdeal.S1x64 ![1] Cert.ReferenceIdeal.Facts₀.bcast_S64_S1x64_1
          (Host.reduceAdd (F := Ideal) xs (constant (F := Ideal) Cert.ReferenceIdeal.S_ .f32 0x00000000#32)
            Cert.ReferenceIdeal.Facts₀.reducesTo_S100000x64_S64_d0 Cert.ReferenceIdeal.Facts₀.h_S_))
        (broadcastInDim Cert.ReferenceIdeal.S1x64 ![1] Cert.ReferenceIdeal.Facts₀.bcast_S64_S1x64_1
          (Host.reduceAdd (F := Ideal) xt (constant (F := Ideal) Cert.ReferenceIdeal.S_ .f32 0x00000000#32)
            Cert.ReferenceIdeal.Facts₀.reducesTo_S100000x64_S64_d0 Cert.ReferenceIdeal.Facts₀.h_S_)))
      w)
    (broadcastInDim Cert.ReferenceIdeal.S1x1 ![1] Cert.ReferenceIdeal.Facts₀.bcast_S1_S1x1_1 bv)

/-- THE RESULT ARRAY IS THE REFERENCE'S POOLED OUTPUT of the two node arrays, the weight column and the bias, given
    that the 1 × 1 bias array's entry is the bias vector's. -/
theorem result6_eq (c : Dev nD) (bv : FVec Ideal ⟨1, ![1]⟩ .f32)
    (hb : (V c (Pipeline.arrRef spec6 3) : S1x1.Idx → EReal) (ix2 (0 : Fin 1) (0 : Fin 1)) = bv (ix1 (0 : Fin 1))) :
    result6 V c = refPool6 (V c (Pipeline.arrRef spec6 0)) (V c (Pipeline.arrRef spec6 1)) (V c (Pipeline.arrRef spec6 2)) bv := by
  show k6_pay3 (acc6 V c 10) _ _ = _
  rw [acc6_eq_poolAcc V c 10 le_rfl]
  exact Cert.Math.k6_pay3_eq_refPool _ _ _ _ bv hb

/-- So the result array ends holding the reference's pooled output. -/
theorem final6_eq (c : Dev nD) (bv : FVec Ideal ⟨1, ![1]⟩ .f32)
    (hb : (V c (Pipeline.arrRef spec6 3) : S1x1.Idx → EReal) (ix2 (0 : Fin 1) (0 : Fin 1)) = bv (ix1 (0 : Fin 1))) :
    (dat6 V c).arrAt 4 cfg6.N
      = refPool6 (V c (Pipeline.arrRef spec6 0)) (V c (Pipeline.arrRef spec6 1)) (V c (Pipeline.arrRef spec6 2)) bv :=
  (final6 V c).trans (result6_eq V c bv hb)

end Cert.KernelIdeal.Hand
-- ==== Proof.Math.CombineRef.lean ====
/-
  The reference's spelling of one layer update is the update.

  The reference computes  (agg · Wl + b) + x · Wr  on whole arrays: two matrix products with no accumulator, the bias
  vector first made a one-row matrix and then laid along every row.  Read at an entry, each product is the sum over
  the contraction position and the broadcast bias is the bias entry of that column; the two spellings differ only
  in the order of three summands, and addition of extended reals is commutative and associative.
-/
import proofs.«159478_j19920058318953_1_alg».proof.Proof.Gen.ReferenceIdeal
import proofs.«159478_j19920058318953_1_alg».proof.Proof.LibPlainMatmul
import proofs.«159478_j19920058318953_1_alg».proof.Proof.Math.Spec
import Idealize.ShloMosaic.Lib.KernelVsHost

noncomputable section

open scoped BigOperators

namespace Cert.Math

open Idealize.ShloMosaic Idealize.ShloMosaic.ValueIdx Cert.ReferenceIdeal Cert.ReferenceIdeal.Facts₀

/-- The reference's product has the dimension numbers of a plain product. -/
theorem dotRef_isPlain :
    PlainMatmul.IsPlain (M := 100000) (K := 64) (N := 64) Cert.ReferenceIdeal.dot_S100000x64_S64x64_S100000x64_1_0_0_1_n_n :=
  ⟨rfl, rfl, rfl, rfl, rfl, rfl⟩

/-- ENTRY (p, q) of a reference product: the sum over the contraction position. -/
theorem dotRef_apply (l : FVec Ideal S100000x64 .f32) (w : FVec Ideal S64x64 .f32) (p : Fin 100000) (q : Fin 64) :
    Host.dotGeneral (F := Ideal) dot_S100000x64_S64x64_S100000x64_1_0_0_1_n_n none l w (ix2 p q)
      = ∑ k : Fin 64, l (ix2 p k) * w (ix2 k q) := by
  rw [← matmul_zero_eq_dotGeneral]
  exact PlainMatmul.matmul_zero_apply _ dotRef_isPlain none l w p q

/-- The bias vector made a one-row matrix, read at (0, q). -/
theorem biasRow_apply (bv : FVec Ideal S64 .f32) (q : Fin 64) :
    broadcastInDim S1x64 ![1] bcast_S64_S1x64_1 bv (ix2 (0 : Fin 1) q) = bv (ix1 q) := by
  refine broadcastInDim_apply ![1] bcast_S64_S1x64_1 bv (ix2 (0 : Fin 1) q) (ix1 q) fun a => ?_
  match a with
  | ⟨0, _⟩ => rfl

/-- THE REFERENCE'S LAYER UPDATE, spelt as printed, is the update whose bias row is the reference's own one-row
    matrix of the bias vector. -/
theorem refCombine_eq (agg x : FVec Ideal S100000x64 .f32) (wl wr : FVec Ideal S64x64 .f32) (bv : FVec Ideal S64 .f32) :
    addf
        (addf (Host.dotGeneral (F := Ideal) dot_S100000x64_S64x64_S100000x64_1_0_0_1_n_n none agg wl)
          (broadcastInDim S100000x64 ![0, 1] bcast_S1x64_S100000x64_0_1 (broadcastInDim S1x64 ![1] bcast_S64_S1x64_1 bv)))
        (Host.dotGeneral (F := Ideal) dot_S100000x64_S64x64_S100000x64_1_0_0_1_n_n none x wr)
      = combineSpec agg x wl wr (broadcastInDim S1x64 ![1] bcast_S64_S1x64_1 bv) := by
  funext j
  obtain ⟨p, q, rfl⟩ : ∃ (p : Fin 100000) (q : Fin 64), j = ix2 p q := ⟨j 0, j 1, eq_ix2 j⟩
  rw [combineSpec_apply, addf_apply, addf_apply, dotRef_apply, dotRef_apply, broadcastInDim_oneRow_apply]
  exact add_right_comm _ _ _

/-- The update depends on the bias row only through its entries: two rows with the same entries give one update. -/
theorem combineSpec_congr_bias (a x : FVec Ideal ⟨2, ![100000, 64]⟩ .f32) (wl wr : FVec Ideal ⟨2, ![64, 64]⟩ .f32)
    (b b' : FVec Ideal ⟨2, ![1, 64]⟩ .f32) (h : ∀ q : Fin 64, b (ix2 (0 : Fin 1) q) = b' (ix2 (0 : Fin 1) q)) :
    combineSpec a x wl wr b = combineSpec a x wl wr b' := by
  funext j
  exact congrArg (HAdd.hAdd _) (h (j 1))

end Cert.Math

end
-- ==== Proof.Math.LayerRef.lean ====
/-
  The reference's six layer outputs, each as one layer update of a neighbour aggregation.

  A layer gathers the source side's features along the edges' source row (a negative index counted from the end, as
  the host does), adds them up into the destination nodes from zero, and applies the layer update to the aggregate
  and the destination side's own features, with the layer's slice of each weight stack and of the bias stack.  The
  reference's composed term of each of the six layer outputs is, operation for operation, such a layer; its final
  value is the pooled output of the two third-layer outputs.
-/
import proofs.«159478_j19920058318953_1_alg».proof.Proof.Gen.ReferenceIdeal.Run
import proofs.«159478_j19920058318953_1_alg».proof.Proof.Math.CombineRef
import proofs.«159478_j19920058318953_1_alg».proof.Proof.Math.PoolRef

noncomputable section

open scoped BigOperators

namespace Cert.Math

open Idealize.ShloMosaic Idealize.ShloMosaic.ValueIdx Idealize.ShloMosaic.TcCoe Idealize.SL.Sem Idealize.ShloMosaic.StableHlo
open Cert.ReferenceIdeal Cert.ReferenceIdeal.Facts₀ Cert.ReferenceIdeal.Value

/-- The edges' source row, as a vector. -/
def edgeSrc (e : IVec S2x3200000 32) : IVec S3200000 32 :=
  shapeCast S3200000 (extractStridedSlice S1x3200000 ![0, 0] e slices_S2x3200000_S1x3200000_0_0) shapeCasts_S1x3200000_S3200000

/-- The edges' destination row, as a vector. -/
def edgeDst (e : IVec S2x3200000 32) : IVec S3200000 32 :=
  shapeCast S3200000 (extractStridedSlice S1x3200000 ![1, 0] e slices_S2x3200000_S1x3200000_1_0) shapeCasts_S1x3200000_S3200000

/-- NEIGHBOUR AGGREGATION: the source features gathered along the edges (a negative source index moved up by the number
    of nodes) and added into the destination rows of a zero array. -/
def sageAgg (xsrc : FVec Ideal S100000x64 .f32) (e : IVec S2x3200000 32) : FVec Ideal S100000x64 .f32 :=
  Host.scatterAdd (F := Ideal) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 (edgeDst e))
    (Host.gather gather_S100000x64_S3200000x1_S3200000x64_1_0_n_n_0_1_164 xsrc
      (broadcastInDim S3200000x1 ![0] bcast_S3200000_S3200000x1_0
        (select (cmpi .slt (edgeSrc e) (broadcastInDim S3200000 ![] bcast_S_S3200000 (constantI S_ 32 0#32)))
          (addi (edgeSrc e) (broadcastInDim S3200000 ![] bcast_S_S3200000 (constantI S_ 32 100000#32))) (edgeSrc e))))

/-- One matrix of a stack of three weight matrices. -/
def wSlice (off : Fin 3 → Nat) (h : S3x64x64.Slices off S1x64x64) (w : FVec Ideal S3x64x64 .f32) : FVec Ideal S64x64 .f32 :=
  shapeCast S64x64 (extractStridedSlice S1x64x64 off w h) shapeCasts_S1x64x64_S64x64

/-- One vector of a stack of three bias vectors. -/
def bSlice (off : Fin 2 → Nat) (h : S3x64.Slices off S1x64) (b : FVec Ideal S3x64 .f32) : FVec Ideal S64 .f32 :=
  shapeCast S64 (extractStridedSlice S1x64 off b h) shapeCasts_S1x64_S64

/-- ONE LAYER: the layer update of the aggregate and the destination features. -/
def sageLayer (xsrc xdst : FVec Ideal S100000x64 .f32) (e : IVec S2x3200000 32) (wl wr : FVec Ideal S64x64 .f32)
    (bv : FVec Ideal S64 .f32) : FVec Ideal S100000x64 .f32 :=
  combineSpec (sageAgg xsrc e) xdst wl wr (broadcastInDim S1x64 ![1] bcast_S64_S1x64_1 bv)

/-- The reference's pooled output of two node-feature arrays, as printed. -/
def refPoolTerm (xs xt : FVec Ideal S100000x64 .f32) (w : FVec Ideal S64x1 .f32) (bv : FVec Ideal S1 .f32) :
    FVec Ideal S1x1 .f32 :=
  addf
    (Host.dotGeneral (F := Ideal) dot_S1x64_S64x1_S1x1_1_0_0_1_n_n none
      (addf
        (broadcastInDim S1x64 ![1] bcast_S64_S1x64_1
          (Host.reduceAdd (F := Ideal) xs (constant (F := Ideal) S_ .f32 0x00000000#32) reducesTo_S100000x64_S64_d0 h_S_))
        (broadcastInDim S1x64 ![1] bcast_S64_S1x64_1
          (Host.reduceAdd (F := Ideal) xt (constant (F := Ideal) S_ .f32 0x00000000#32) reducesTo_S100000x64_S64_d0 h_S_)))
      w)
    (broadcastInDim S1x1 ![1] bcast_S1_S1x1_1 bv)

variable (V0 : Valuation τ sig (Elt Ideal))

set_option maxRecDepth 8192 in
/-- First layer, towards the second node set. -/
theorem res_main_v25_eq :
    res_main_v25 V0 = sageLayer (V0 (Proc.devRef .tc main_arg0)) (V0 (Proc.devRef .tc main_arg1)) (V0 (Proc.devRef .tc main_arg2)) (wSlice ![0, 0, 0] slices_S3x64x64_S1x64x64_0_0_0 (V0 (Proc.devRef .tc main_arg4))) (wSlice ![0, 0, 0] slices_S3x64x64_S1x64x64_0_0_0 (V0 (Proc.devRef .tc main_arg5))) (bSlice ![0, 0] slices_S3x64_S1x64_0_0 (V0 (Proc.devRef .tc main_arg6))) := by
  unfold res_main_v25
  exact refCombine_eq _ _ _ _ _

set_option maxRecDepth 8192 in
/-- First layer, towards the first node set. -/
theorem res_main_v51_eq :
    res_main_v51 V0 = sageLayer (V0 (Proc.devRef .tc main_arg1)) (V0 (Proc.devRef .tc main_arg0)) (V0 (Proc.devRef .tc main_arg3)) (wSlice ![0, 0, 0] slices_S3x64x64_S1x64x64_0_0_0 (V0 (Proc.devRef .tc main_arg7))) (wSlice ![0, 0, 0] slices_S3x64x64_S1x64x64_0_0_0 (V0 (Proc.devRef .tc main_arg8))) (bSlice ![0, 0] slices_S3x64_S1x64_0_0 (V0 (Proc.devRef .tc main_arg9))) := by
  unfold res_main_v51
  exact refCombine_eq _ _ _ _ _

set_option maxRecDepth 8192 in
/-- Second layer, towards the second node set. -/
theorem res_main_v77_eq :
    res_main_v77 V0 = sageLayer (res_main_v51 V0) (res_main_v25 V0) (V0 (Proc.devRef .tc main_arg2)) (wSlice ![1, 0, 0] slices_S3x64x64_S1x64x64_1_0_0 (V0 (Proc.devRef .tc main_arg4))) (wSlice ![1, 0, 0] slices_S3x64x64_S1x64x64_1_0_0 (V0 (Proc.devRef .tc main_arg5))) (bSlice ![1, 0] slices_S3x64_S1x64_1_0 (V0 (Proc.devRef .tc main_arg6))) := by
  unfold res_main_v77
  exact refCombine_eq _ _ _ _ _

set_option maxRecDepth 8192 in
/-- Second layer, towards the first node set. -/
theorem res_main_v103_eq :
    res_main_v103 V0 = sageLayer (res_main_v25 V0) (res_main_v51 V0) (V0 (Proc.devRef .tc main_arg3)) (wSlice ![1, 0, 0] slices_S3x64x64_S1x64x64_1_0_0 (V0 (Proc.devRef .tc main_arg7))) (wSlice ![1, 0, 0] slices_S3x64x64_S1x64x64_1_0_0 (V0 (Proc.devRef .tc main_arg8))) (bSlice ![1, 0] slices_S3x64_S1x64_1_0 (V0 (Proc.devRef .tc main_arg9))) := by
  unfold res_main_v103
  exact refCombine_eq _ _ _ _ _

set_option maxRecDepth 8192 in
/-- THE REFERENCE'S RESULT: the pooled output of the third layer towards the first node set and the third layer
    towards the second. -/
theorem val4_main_v163_eq :
    val4 V0 (no_index (Proc.devRef .tc main_v163))
      = refPoolTerm
          (sageLayer (res_main_v77 V0) (res_main_v103 V0) (V0 (Proc.devRef .tc main_arg3)) (wSlice ![2, 0, 0] slices_S3x64x64_S1x64x64_2_0_0 (V0 (Proc.devRef .tc main_arg7))) (wSlice ![2, 0, 0] slices_S3x64x64_S1x64x64_2_0_0 (V0 (Proc.devRef .tc main_arg8))) (bSlice ![2, 0] slices_S3x64_S1x64_2_0 (V0 (Proc.devRef .tc main_arg9))))
          (sageLayer (res_main_v103 V0) (res_main_v77 V0) (V0 (Proc.devRef .tc main_arg2)) (wSlice ![2, 0, 0] slices_S3x64x64_S1x64x64_2_0_0 (V0 (Proc.devRef .tc main_arg4))) (wSlice ![2, 0, 0] slices_S3x64x64_S1x64x64_2_0_0 (V0 (Proc.devRef .tc main_arg5))) (bSlice ![2, 0] slices_S3x64_S1x64_2_0 (V0 (Proc.devRef .tc main_arg6))))
          (V0 (Proc.devRef .tc main_arg10)) (V0 (Proc.devRef .tc main_arg11)) := by
  refine (val4_main_v163 V0).trans ?_
  exact congrArg₂ (fun a b => refPoolTerm a b (V0 (Proc.devRef .tc main_arg10)) (V0 (Proc.devRef .tc main_arg11))) (refCombine_eq _ _ _ _ _) (refCombine_eq _ _ _ _ _)

end Cert.Math

end
-- ==== Proof.Math.KernelVsRef.lean ====
/-
  The two programs' host sides are one function, and the reference's result is the pooled output of six layers.

  Both programs print the same host operations for a layer's neighbour aggregation and for its slices of the weight
  and bias stacks; they differ in one place: the kernel program recasts the bias vector as a one-row matrix where the
  reference broadcasts it into one, and a recast of 64 entries to 1 × 64 reads entry k at (0, k), as the broadcast does.
  So a layer as the kernel program's host side states it is the reference's layer, the six layer outputs chain the
  same way, and the reference's result is its pooled output of the two third-layer outputs.
-/
import proofs.«159478_j19920058318953_1_alg».proof.Proof.KI.HostFns
import proofs.«159478_j19920058318953_1_alg».proof.Proof.Math.LayerRef
import proofs.«159478_j19920058318953_1_alg».proof.Proof.Math.PoolFinal

noncomputable section

open scoped BigOperators

namespace Cert.Math

open Idealize.ShloMosaic Idealize.ShloMosaic.ValueIdx Idealize.ShloMosaic.TcCoe Idealize.SL.Sem Idealize.ShloMosaic.StableHlo
open Cert.ReferenceIdeal Cert.ReferenceIdeal.Facts₀ Cert.ReferenceIdeal.Value

/-! ## The shared host operations -/

/-- The two programs' aggregations are one function. -/
theorem hand_agg_eq (x : Cert.KernelIdeal.Hand.ANode) (e : Cert.KernelIdeal.Hand.AEdges) : Cert.KernelIdeal.Hand.agg x e = sageAgg x e := rfl

theorem hand_wSl0_eq (w : Cert.KernelIdeal.Hand.AW3) : Cert.KernelIdeal.Hand.wSl0 w = wSlice ![0, 0, 0] slices_S3x64x64_S1x64x64_0_0_0 w := rfl
theorem hand_wSl1_eq (w : Cert.KernelIdeal.Hand.AW3) : Cert.KernelIdeal.Hand.wSl1 w = wSlice ![1, 0, 0] slices_S3x64x64_S1x64x64_1_0_0 w := rfl
theorem hand_wSl2_eq (w : Cert.KernelIdeal.Hand.AW3) : Cert.KernelIdeal.Hand.wSl2 w = wSlice ![2, 0, 0] slices_S3x64x64_S1x64x64_2_0_0 w := rfl
theorem hand_bVec0_eq (b : Cert.KernelIdeal.Hand.AB3) : Cert.KernelIdeal.Hand.bVec0 b = bSlice ![0, 0] slices_S3x64_S1x64_0_0 b := rfl
theorem hand_bVec1_eq (b : Cert.KernelIdeal.Hand.AB3) : Cert.KernelIdeal.Hand.bVec1 b = bSlice ![1, 0] slices_S3x64_S1x64_1_0 b := rfl
theorem hand_bVec2_eq (b : Cert.KernelIdeal.Hand.AB3) : Cert.KernelIdeal.Hand.bVec2 b = bSlice ![2, 0] slices_S3x64_S1x64_2_0 b := rfl

/-- A vector of 64 entries recast as a one-row matrix is the vector broadcast into one. -/
theorem hand_bRow_eq (v : FVec Ideal S64 .f32) :
    Cert.KernelIdeal.Hand.bRow v = broadcastInDim S1x64 ![1] bcast_S64_S1x64_1 v := by
  funext j
  obtain ⟨k, rfl⟩ := exists_ix2_row j
  rw [vecRow_apply]
  exact (shapeCast_addUnit_apply ![64] v _ (ix2 (0 : Fin 1) k)).trans
    (congrArg v (funext fun a => match a with | ⟨0, _⟩ => rfl))

/-- A vector of one entry recast as a 1 × 1 matrix reads, at its one index, the entry. -/
theorem oneEntry_recast_apply (bv : FVec Ideal ⟨1, ![1]⟩ .f32) (h : (⟨1, ![1]⟩ : Shape).ShapeCasts ⟨2, ![1, 1]⟩) :
    shapeCast ⟨2, ![1, 1]⟩ bv h (ix2 (0 : Fin 1) (0 : Fin 1)) = bv (ix1 (0 : Fin 1)) :=
  (shapeCast_addUnit_apply ![1] bv h (ix2 (0 : Fin 1) (0 : Fin 1))).trans
    (congrArg bv (funext fun a => match a with | ⟨0, _⟩ => rfl))

/-! ## A layer -/

theorem hand_sage0_eq (xsrc xdst : Cert.KernelIdeal.Hand.ANode) (e : Cert.KernelIdeal.Hand.AEdges) (wl wr : Cert.KernelIdeal.Hand.AW3) (b : Cert.KernelIdeal.Hand.AB3) :
    Cert.KernelIdeal.Hand.sage0 xsrc xdst e wl wr b
      = sageLayer xsrc xdst e (wSlice ![0, 0, 0] slices_S3x64x64_S1x64x64_0_0_0 wl)
          (wSlice ![0, 0, 0] slices_S3x64x64_S1x64x64_0_0_0 wr) (bSlice ![0, 0] slices_S3x64_S1x64_0_0 b) := by
  unfold Cert.KernelIdeal.Hand.sage0 sageLayer
  rw [hand_bRow_eq]
  rfl

theorem hand_sage1_eq (xsrc xdst : Cert.KernelIdeal.Hand.ANode) (e : Cert.KernelIdeal.Hand.AEdges) (wl wr : Cert.KernelIdeal.Hand.AW3) (b : Cert.KernelIdeal.Hand.AB3) :
    Cert.KernelIdeal.Hand.sage1 xsrc xdst e wl wr b
      = sageLayer xsrc xdst e (wSlice ![1, 0, 0] slices_S3x64x64_S1x64x64_1_0_0 wl)
          (wSlice ![1, 0, 0] slices_S3x64x64_S1x64x64_1_0_0 wr) (bSlice ![1, 0] slices_S3x64_S1x64_1_0 b) := by
  unfold Cert.KernelIdeal.Hand.sage1 sageLayer
  rw [hand_bRow_eq]
  rfl

theorem hand_sage2_eq (xsrc xdst : Cert.KernelIdeal.Hand.ANode) (e : Cert.KernelIdeal.Hand.AEdges) (wl wr : Cert.KernelIdeal.Hand.AW3) (b : Cert.KernelIdeal.Hand.AB3) :
    Cert.KernelIdeal.Hand.sage2 xsrc xdst e wl wr b
      = sageLayer xsrc xdst e (wSlice ![2, 0, 0] slices_S3x64x64_S1x64x64_2_0_0 wl)
          (wSlice ![2, 0, 0] slices_S3x64x64_S1x64x64_2_0_0 wr) (bSlice ![2, 0] slices_S3x64_S1x64_2_0 b) := by
  unfold Cert.KernelIdeal.Hand.sage2 sageLayer
  rw [hand_bRow_eq]
  rfl

/-! ## The six layer outputs from the ten arrays -/

/-- The ten arrays the layers read: the two node sets' features, the two edge lists, and for each direction the two
    weight stacks and the bias stack. -/
structure SageIn where
  xs : Cert.KernelIdeal.Hand.ANode
  xt : Cert.KernelIdeal.Hand.ANode
  est : Cert.KernelIdeal.Hand.AEdges
  ets : Cert.KernelIdeal.Hand.AEdges
  wlst : Cert.KernelIdeal.Hand.AW3
  wrst : Cert.KernelIdeal.Hand.AW3
  bst : Cert.KernelIdeal.Hand.AB3
  wlts : Cert.KernelIdeal.Hand.AW3
  wrts : Cert.KernelIdeal.Hand.AW3
  bts : Cert.KernelIdeal.Hand.AB3

/-- Layer 1 towards the second node set, and towards the first. -/
def outT1 (I : SageIn) : Cert.KernelIdeal.Hand.ANode := Cert.KernelIdeal.Hand.sage0 I.xs I.xt I.est I.wlst I.wrst I.bst
def outS1 (I : SageIn) : Cert.KernelIdeal.Hand.ANode := Cert.KernelIdeal.Hand.sage0 I.xt I.xs I.ets I.wlts I.wrts I.bts
/-- Layer 2. -/
def outT2 (I : SageIn) : Cert.KernelIdeal.Hand.ANode := Cert.KernelIdeal.Hand.sage1 (outS1 I) (outT1 I) I.est I.wlst I.wrst I.bst
def outS2 (I : SageIn) : Cert.KernelIdeal.Hand.ANode := Cert.KernelIdeal.Hand.sage1 (outT1 I) (outS1 I) I.ets I.wlts I.wrts I.bts
/-- Layer 3. -/
def outT3 (I : SageIn) : Cert.KernelIdeal.Hand.ANode := Cert.KernelIdeal.Hand.sage2 (outS2 I) (outT2 I) I.est I.wlst I.wrst I.bst
def outS3 (I : SageIn) : Cert.KernelIdeal.Hand.ANode := Cert.KernelIdeal.Hand.sage2 (outT2 I) (outS2 I) I.ets I.wlts I.wrts I.bts

variable (V0 : Valuation τ sig (Elt Ideal))

/-- The reference's ten arrays at launch. -/
def refIn : SageIn where
  xs := V0 (Proc.devRef .tc main_arg0)
  xt := V0 (Proc.devRef .tc main_arg1)
  est := V0 (Proc.devRef .tc main_arg2)
  ets := V0 (Proc.devRef .tc main_arg3)
  wlst := V0 (Proc.devRef .tc main_arg4)
  wrst := V0 (Proc.devRef .tc main_arg5)
  bst := V0 (Proc.devRef .tc main_arg6)
  wlts := V0 (Proc.devRef .tc main_arg7)
  wrts := V0 (Proc.devRef .tc main_arg8)
  bts := V0 (Proc.devRef .tc main_arg9)

theorem res_main_v25_eq_outT1 : res_main_v25 V0 = outT1 (refIn V0) :=
  (res_main_v25_eq V0).trans (hand_sage0_eq _ _ _ _ _ _).symm

theorem res_main_v51_eq_outS1 : res_main_v51 V0 = outS1 (refIn V0) :=
  (res_main_v51_eq V0).trans (hand_sage0_eq _ _ _ _ _ _).symm

theorem res_main_v77_eq_outT2 : res_main_v77 V0 = outT2 (refIn V0) := by
  rw [res_main_v77_eq, res_main_v51_eq_outS1, res_main_v25_eq_outT1]
  exact (hand_sage1_eq _ _ _ _ _ _).symm

theorem res_main_v103_eq_outS2 : res_main_v103 V0 = outS2 (refIn V0) := by
  rw [res_main_v103_eq, res_main_v51_eq_outS1, res_main_v25_eq_outT1]
  exact (hand_sage1_eq _ _ _ _ _ _).symm

/-- THE REFERENCE'S RESULT is its pooled output of the two third-layer outputs. -/
theorem ref_result_eq :
    val4 V0 (no_index (Proc.devRef .tc main_v163))
      = refPoolTerm (outS3 (refIn V0)) (outT3 (refIn V0)) (V0 (Proc.devRef .tc main_arg10))
          (V0 (Proc.devRef .tc main_arg11)) := by
  rw [val4_main_v163_eq, res_main_v77_eq_outT2, res_main_v103_eq_outS2]
  exact congrArg₂ (fun a b => refPoolTerm a b (V0 (Proc.devRef .tc main_arg10)) (V0 (Proc.devRef .tc main_arg11)))
    (hand_sage2_eq _ _ _ _ _ _).symm (hand_sage2_eq _ _ _ _ _ _).symm

/-- So the kernel's final stored value, on the accumulator after the ten row blocks of the two third-layer outputs, is
    the reference's result, for a 1 × 1 bias whose entry is the reference's bias entry. -/
theorem k6_pay3_eq_ref_result (b : FVec Ideal ⟨2, ![1, 1]⟩ .f32)
    (hb : b (ix2 (0 : Fin 1) (0 : Fin 1)) = V0 (Proc.devRef .tc main_arg11) (ix1 (0 : Fin 1))) :
    Cert.KernelIdeal.Gen.k6_pay3 (F := Ideal)
        (poolAcc (rowBlock (outS3 (refIn V0))) (rowBlock (outT3 (refIn V0))) 10) (V0 (Proc.devRef .tc main_arg10)) b
      = val4 V0 (no_index (Proc.devRef .tc main_v163)) :=
  (k6_pay3_eq_refPool _ _ _ b _ hb).trans (ref_result_eq V0).symm

end Cert.Math

end
-- ==== Proof.KI.ValH6.lean ====
/-
  The pooling region's result array in closed form: its two node-feature operands are the results of regions 5 and
  4, its weight column is the weight argument as launched, and its 1×1 bias is the one-entry bias argument recast by
  the host stretch before it; so the result is the reference's pooled output of those four arrays.
-/
import proofs.«159478_j19920058318953_1_alg».proof.Proof.KI.Run
import proofs.«159478_j19920058318953_1_alg».proof.Proof.KI.ValPool2
import proofs.«159478_j19920058318953_1_alg».proof.Proof.Math.KernelVsRef
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx

variable (m : (ℓ : Loc nD τ sig) → Buf (Elt Ideal) ℓ)

/-- Region 6 finds region 5's result in its first operand, -/
theorem U13_v131 (c : Dev nD) : U13 m c main_v131 = o5 m c :=
  (U13_of m c main_v131 (by decide)).trans <| (U12_out m c)

/-- region 4's in its second, -/
theorem U13_v109 (c : Dev nD) : U13 m c main_v109 = o4 m c :=
  (U13_of m c main_v109 (by decide)).trans <| (U12_of_ne m c main_v109 (by decide)).trans <|
  (U11_of m c main_v109 (by decide)).trans <| (U10_out m c)

/-- the weight column as launched: no item writes it, -/
theorem U13_arg10 (c : Dev nD) : U13 m c main_arg10 = U0 m c main_arg10 :=
  (U13_of m c main_arg10 (by decide)).trans <|
  (U12_of_ne m c main_arg10 (by decide)).trans <| (U11_of m c main_arg10 (by decide)).trans <|
  (U10_of_ne m c main_arg10 (by decide)).trans <| (U9_of m c main_arg10 (by decide)).trans <|
  (U8_of_ne m c main_arg10 (by decide)).trans <| (U7_of m c main_arg10 (by decide)).trans <|
  (U6_of_ne m c main_arg10 (by decide)).trans <| (U5_of m c main_arg10 (by decide)).trans <|
  (U4_of_ne m c main_arg10 (by decide)).trans <| (U3_of m c main_arg10 (by decide)).trans <|
  (U2_of_ne m c main_arg10 (by decide)).trans <| (U1_of m c main_arg10 (by decide)).trans <| rfl

/-- and the bias argument, before the last host stretch, as launched too. -/
theorem U12_arg11 (c : Dev nD) : U12 m c main_arg11 = U0 m c main_arg11 :=
  (U12_of_ne m c main_arg11 (by decide)).trans <| (U11_of m c main_arg11 (by decide)).trans <|
  (U10_of_ne m c main_arg11 (by decide)).trans <| (U9_of m c main_arg11 (by decide)).trans <|
  (U8_of_ne m c main_arg11 (by decide)).trans <| (U7_of m c main_arg11 (by decide)).trans <|
  (U6_of_ne m c main_arg11 (by decide)).trans <| (U5_of m c main_arg11 (by decide)).trans <|
  (U4_of_ne m c main_arg11 (by decide)).trans <| (U3_of m c main_arg11 (by decide)).trans <|
  (U2_of_ne m c main_arg11 (by decide)).trans <| (U1_of m c main_arg11 (by decide)).trans <| rfl

/-- The last host stretch recasts the one-entry bias as the 1×1 array region 6 reads. -/
theorem U13_v132 (c : Dev nD) : U13 m c main_v132 = shapeCast S1x1 (U12 m c main_arg11) shapeCasts_S1_S1x1 := by
  unfold U13; dsimp only [hostOps6]; after_results; rfl

/-- Its one entry is the bias argument's. -/
theorem bias6_entry (c : Dev nD) :
    (Ve6 m c (Pipeline.arrRef spec6 3) : S1x1.Idx → EReal) (ix2 (0 : Fin 1) (0 : Fin 1))
      = (U0 m c main_arg11 : (⟨1, ![1]⟩ : Shape).Idx → EReal) (ix1 (0 : Fin 1)) := by
  show (U13 m c main_v132 : S1x1.Idx → EReal) (ix2 (0 : Fin 1) (0 : Fin 1)) = _
  rw [U13_v132, U12_arg11]
  exact Cert.Math.oneEntry_recast_apply _ _

/-- REGION 6'S RESULT is the reference's pooled output of regions 5's and 4's results, the weight column and the bias. -/
theorem o6_eq (c : Dev nD) :
    o6 (F := Ideal) m c = refPool6 (o5 m c) (o4 m c) (U0 m c main_arg10) (U0 m c main_arg11) := by
  unfold o6
  rw [final6_eq (Ve6 m) c (U0 m c main_arg11) (bias6_entry m c)]
  show refPool6 (U13 m c main_v131) (U13 m c main_v109) (U13 m c main_arg10) (U0 m c main_arg11) = _
  rw [U13_v131, U13_v109, U13_arg10]

/-- The same against the pooled term as the reference's closed form names it. -/
theorem o6_eq_refPoolTerm (c : Dev nD) :
    o6 (F := Ideal) m c = Cert.Math.refPoolTerm (o5 m c) (o4 m c) (U0 m c main_arg10) (U0 m c main_arg11) :=
  o6_eq m c

end Cert.KernelIdeal.Hand

end
-- ==== Proof.KI.Final.lean ====
/-
  The kernel program's result in closed form, over the extended reals: unfolding the six combine regions from the
  last to the first, the pooled output is the reference's pooling term of the third-layer features, which are three
  rounds of message passing (both directions per round) of the argument arrays.
-/
import proofs.«159478_j19920058318953_1_alg».proof.Proof.KI.Claims
import proofs.«159478_j19920058318953_1_alg».proof.Proof.KI.ValH0
import proofs.«159478_j19920058318953_1_alg».proof.Proof.KI.ValH1
import proofs.«159478_j19920058318953_1_alg».proof.Proof.KI.ValH2
import proofs.«159478_j19920058318953_1_alg».proof.Proof.KI.ValH3
import proofs.«159478_j19920058318953_1_alg».proof.Proof.KI.ValH4
import proofs.«159478_j19920058318953_1_alg».proof.Proof.KI.ValH5
import proofs.«159478_j19920058318953_1_alg».proof.Proof.KI.ValH6
import proofs.«159478_j19920058318953_1_alg».proof.Proof.Math.KernelVsRef

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-- The argument arrays the message-passing rounds read, on core `c`. -/
def Ik (c : Dev nD) : Cert.Math.SageIn where
  xs := U0 m c main_arg0
  xt := U0 m c main_arg1
  est := U0 m c main_arg2
  ets := U0 m c main_arg3
  wlst := U0 m c main_arg4
  wrst := U0 m c main_arg5
  bst := U0 m c main_arg6
  wlts := U0 m c main_arg7
  wrts := U0 m c main_arg8
  bts := U0 m c main_arg9

/-- The result buffer's final contents as one term of the argument arrays. -/
theorem o6_closed (c : Dev nD) :
    o6 (F := Ideal) m c = refPool6 (Cert.Math.outS3 (Ik m c)) (Cert.Math.outT3 (Ik m c)) (U0 m c main_arg10) (U0 m c main_arg11) := by
  rw [o6_eq m c, o5_eq m c, o4_eq m c, o3_eq m c, o2_eq m c, o1_eq m c, o0_eq m c]
  rfl

end Cert.KernelIdeal.Hand

end
-- ==== Proof.RefFrame.lean ====
/-
  The reference program is a straight-line host program: every weakly fair execution runs each of its
  operations once, in order, so it terminates without a fault and never writes an argument array.
-/
import proofs.«159478_j19920058318953_1_alg».proof.Defs
import proofs.«159478_j19920058318953_1_alg».proof.Proof.Gen.ReferenceIdeal
import proofs.«159478_j19920058318953_1_alg».proof.Proof.Gen.ReferenceIdeal.Run
import proofs.«159478_j19920058318953_1_alg».proof.Proof.Gen.Pre_finite_inputs

noncomputable section

open Idealize.ShloMosaic Idealize.ShloMosaic.TcCoe Idealize.SL.Sem

namespace Cert.Proof.RefFrame

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Math.RefSide.lean ====
/-
  The reference's run in final form.

  Every weakly fair execution of the reference terminates with its result holding the pooled output of the two
  third-layer outputs computed from the ten argument arrays as they stand at launch, the arguments unchanged.  The
  pooled-output term is one and the same whether spelt with the reference's names or with the kernel side's.
-/
import proofs.«159478_j19920058318953_1_alg».proof.Proof.KI.ValPool2
import proofs.«159478_j19920058318953_1_alg».proof.Proof.Math.KernelVsRef

noncomputable section

namespace Cert.Math

open Idealize.ShloMosaic Idealize.ShloMosaic.TcCoe Idealize.SL.Sem Idealize.ShloMosaic.StableHlo
open Cert.ReferenceIdeal Cert.ReferenceIdeal.Gen Cert.ReferenceIdeal.Value

/-- The pooled-output term under its two names. -/
theorem refPoolTerm_eq_refPool6 (xs xt : FVec Ideal S100000x64 .f32) (w : FVec Ideal S64x1 .f32) (bv : FVec Ideal S1 .f32) :
    refPoolTerm xs xt w bv = Cert.KernelIdeal.Hand.refPool6 xs xt w bv := rfl

variable (m : (ℓ : Loc nD τ sig) → Buf (Elt Ideal) ℓ)

/-- The ten arrays at launch are the launch memory's argument arrays. -/
theorem refIn_launchContents (c : Dev nD) :
    refIn (launchContents m c)
      = { xs := m ((c.tc : Thread nD τ).loc main_arg0), xt := m ((c.tc : Thread nD τ).loc main_arg1), est := m ((c.tc : Thread nD τ).loc main_arg2), ets := m ((c.tc : Thread nD τ).loc main_arg3),
          wlst := m ((c.tc : Thread nD τ).loc main_arg4), wrst := m ((c.tc : Thread nD τ).loc main_arg5), bst := m ((c.tc : Thread nD τ).loc main_arg6),
          wlts := m ((c.tc : Thread nD τ).loc main_arg7), wrts := m ((c.tc : Thread nD τ).loc main_arg8), bts := m ((c.tc : Thread nD τ).loc main_arg9) } := rfl

set_option maxRecDepth 8192 in
/-- THE REFERENCE'S RUN: it terminates with the result at the pooled output of the two third-layer outputs of the launch
    contents, and every argument array unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v163)
          = refPoolTerm (outS3 (refIn (launchContents m c))) (outT3 (refIn (launchContents m c)))
              ((launchContents m c) (Proc.devRef .tc main_arg10)) ((launchContents m c) (Proc.devRef .tc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans ((val4_main_v163 (launchContents m c)).symm.trans (ref_result_eq (launchContents m c))), (h c).2⟩) (Cert.ReferenceIdeal.Value.run m ρ)

end Cert.Math

end
-- ==== Proof.lean ====
/-
  The five claims.  Both printed kernel programs (at the bit level and over the extended reals) run as a chain of
  host stretches and seven kernel regions that never writes an argument array: their frames.  The reference is a
  straight-line host program: its frame is its run.  The idealization rewrote nothing, so it preserves trivially.
  Over the extended reals the kernel's result buffer ends at the reference's pooling term of three rounds of
  message passing of the arguments, each round's dense step Σ_k a(p,k)·Wl(k,q) + Σ_k x(p,k)·Wr(k,q) + b(q) computed
  block by block by the kernel and in one piece by the reference, and the pooled column sums accumulated over ten
  row blocks by the kernel and in one sum by the reference: equal by commutativity and associativity of addition
  alone, so the precondition is never opened.
-/
import proofs.«159478_j19920058318953_1_alg».proof.Defs
import proofs.«159478_j19920058318953_1_alg».proof.Proof.Gen.Kernel
import proofs.«159478_j19920058318953_1_alg».proof.Proof.Gen.KernelIdeal
import proofs.«159478_j19920058318953_1_alg».proof.Proof.Gen.ReferenceIdeal
import proofs.«159478_j19920058318953_1_alg».proof.Proof.Gen.Pre_finite_inputs
import proofs.«159478_j19920058318953_1_alg».proof.Proof.K.Claims
import proofs.«159478_j19920058318953_1_alg».proof.Proof.KI.Final
import proofs.«159478_j19920058318953_1_alg».proof.Proof.RefFrame
import proofs.«159478_j19920058318953_1_alg».proof.Proof.Math.RefSide

noncomputable section

namespace Cert.Proof

open Idealize.ShloMosaic Idealize.SL.Sem
open Idealize.ShloMosaic.StableHlo (launchContents)

theorem frame_k : Cert.frame_Kernel := fun m ρ _ => Cert.Kernel.Hand.frame (F := Bits) m ρ

theorem frame_ki : Cert.frame_KernelIdeal := fun m ρ _ => Cert.KernelIdeal.Hand.frame (F := Ideal) m ρ

/-- From memories agreeing on the arguments both programs end with the same pooled output. -/
theorem algebraic : Cert.algebraic_KernelIdeal_ReferenceIdeal := by
  intro m ρ m' ρ' _ hagree
  refine ⟨fun c => Cert.KernelIdeal.Hand.o6 (F := Ideal) m c, Cert.KernelIdeal.Hand.run_result (F := Ideal) m ρ, ?_⟩
  refine (θ_run Cert.ReferenceIdeal.defs _ _).mono (fun _ h c => ⟨(h c).1.trans ?_, (h c).2⟩) (Cert.Math.ref_run m' ρ')
  obtain ⟨h0, h1, h2, h3, h4, h5, h6, h7, h8, h9, h10, h11⟩ := hagree c
  show _ = Cert.KernelIdeal.Hand.o6 (F := Ideal) m c
  have e10 : (launchContents m' c) (Proc.devRef .tc Cert.ReferenceIdeal.main_arg10) = m ((c.tc : Thread Cert.KernelIdeal.nD Cert.KernelIdeal.τ).loc Cert.KernelIdeal.main_arg10) := h10
  have e11 : (launchContents m' c) (Proc.devRef .tc Cert.ReferenceIdeal.main_arg11) = m ((c.tc : Thread Cert.KernelIdeal.nD Cert.KernelIdeal.τ).loc Cert.KernelIdeal.main_arg11) := h11
  rw [Cert.KernelIdeal.Hand.o6_closed m c, Cert.Math.refPoolTerm_eq_refPool6, Cert.Math.refIn_launchContents m' c, e10, e11,
    h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, trivial, algebraic⟩

end Cert.Proof

end
